-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S100000x1 : Shape := ⟨2, ![100000, 1]⟩
abbrev S32x32 : Shape := ⟨2, ![32, 32]⟩
abbrev S32 : Shape := ⟨1, ![32]⟩
abbrev S1600000 : Shape := ⟨1, ![1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_arg5 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x32 .f32) (main_arg1 : FVec F S100000x1 .f32) (main_arg2 : FVec F S32x32 .f32) (main_arg3 : FVec F S32 .f32) (main_arg4 : FVec F S32 .f32) (main_arg5 : FVec F S32 .f32) (main_arg6 : IVec S1600000 32) (main_arg7 : IVec S1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S100000x32 : Shape := ⟨2, ![100000, 32]⟩
abbrev S100000x1 : Shape := ⟨2, ![100000, 1]⟩
abbrev S32x32 : Shape := ⟨2, ![32, 32]⟩
abbrev S32 : Shape := ⟨1, ![32]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S5000x32 : Shape := ⟨2, ![5000, 32]⟩
abbrev S5000x1 : Shape := ⟨2, ![5000, 1]⟩

abbrev nBuf : Space → Nat
  | .hbm => 40
  | .vmem => 22
  | .smem => 0
  | _ => 0

abbrev bufTy : (tb : Table) → Fin (tcTables nBuf tb) → BufTy
  | .hbm, ⟨0, _⟩ => ⟨S100000x32, .f32⟩
  | .hbm, ⟨1, _⟩ => ⟨S100000x1, .f32⟩
  | .hbm, ⟨2, _⟩ => ⟨S32x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x32, .f32⟩
  | .hbm, ⟨17, _⟩ => ⟨S_, .f32⟩
  | .hbm, ⟨18, _⟩ => ⟨S100000x32, .f32⟩
  | .hbm, ⟨19, _⟩ => ⟨S1600000x1, .i32⟩
  | .hbm, ⟨20, _⟩ => ⟨S100000x32, .f32⟩
  | .hbm, ⟨21, _⟩ => ⟨S1x32, .f32⟩
  | .hbm, ⟨22, _⟩ => ⟨S100000x32, .f32⟩
  | .hbm, ⟨23, _⟩ => ⟨S1x32, .f32⟩
  | .hbm, ⟨24, _⟩ => ⟨S1x32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S1x32, .f32⟩
  | .hbm, ⟨36, _⟩ => ⟨S1x32, .f32⟩
  | .hbm, ⟨37, _⟩ => ⟨S1x32, .f32⟩
  | .hbm, ⟨38, _⟩ => ⟨S1x32, .f32⟩
  | .hbm, ⟨39, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S5000x1, .f32⟩
  | .local _ .vmem, ⟨3, _⟩ => ⟨S5000x1, .f32⟩
  | .local _ .vmem, ⟨4, _⟩ => ⟨S32x32, .f32⟩
  | .local _ .vmem, ⟨5, _⟩ => ⟨S1x32, .f32⟩
  | .local _ .vmem, ⟨6, _⟩ => ⟨S5000x32, .f32⟩
  | .local _ .vmem, ⟨7, _⟩ => ⟨S5000x32, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S1x32, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | .local _ .vmem, ⟨20, _⟩ => ⟨S5000x32, .f32⟩
  | .local _ .vmem, ⟨21, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v32 : BitVec 1 := Scalar.cmpi .eq arg0 c19_i32
  let v33 : BitVec 32 := Scalar.extui v32
  let c0_i32_20 : BitVec 32 := 0#32
  let v34 : BitVec 1 := Scalar.cmpi .ne v33 c0_i32_20
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  bitsLt_bf16_f32 : FTy.bits .bf16 < FTy.bits .f32
  broadcasts_S1x32_S5000x32 : S1x32.Broadcasts S5000x32
  inb_S5000x1_S5000x1_0_0 : ∀ a, (![0, 0] : Fin 2 → Nat) a + S5000x1.size a ≤ S5000x1.size a
  h_S5000x1 : 0 < S5000x1.numel
  broadcasts_S5000x1_S5000x32 : S5000x1.Broadcasts S5000x32
  reduces_S5000x32_S32 : S5000x32.Reduces [0] S32
  shapeCasts_S1x32_S32 : S1x32.ShapeCasts S32
  bcast_S_S32 : S_.BroadcastsInDim S32 (![] : Fin 0 → Fin S32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S100000x32.size a
  hwx0_4 : ∀ i : grid0.Coords, EltTy.bits .f32 = 32 ∨ (Rect.block (s := S100000x32) S5000x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_v9) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S5000x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S1x32.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_2) S1x32.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v11_0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x32 : Shape := ⟨2, ![100000, 32]⟩
abbrev S100000x1 : Shape := ⟨2, ![100000, 1]⟩
abbrev S32x32 : Shape := ⟨2, ![32, 32]⟩
abbrev S32 : Shape := ⟨1, ![32]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩

abbrev nBuf : Space → Nat
  | .hbm => 75
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x1, .f32⟩
  | .hbm, ⟨2, _⟩ => ⟨S32x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x32, .f32⟩
  | .hbm, ⟨17, _⟩ => ⟨S_, .f32⟩
  | .hbm, ⟨18, _⟩ => ⟨S100000x32, .f32⟩
  | .hbm, ⟨19, _⟩ => ⟨S1600000x1, .i32⟩
  | .hbm, ⟨20, _⟩ => ⟨S100000x32, .f32⟩
  | .hbm, ⟨21, _⟩ => ⟨S100000x32, .f32⟩
  | .hbm, ⟨22, _⟩ => ⟨S1x32, .f32⟩
  | .hbm, ⟨23, _⟩ => ⟨S100000x32, .f32⟩
  | .hbm, ⟨24, _⟩ => ⟨S100000x32, .f32⟩
  | .hbm, ⟨25, _⟩ => ⟨S100000x32, .f32⟩
  | .hbm, ⟨26, _⟩ => ⟨S100000x32, .f32⟩
  | .hbm, ⟨27, _⟩ => ⟨S_, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .i32⟩
  | .hbm, ⟨33, _⟩ => ⟨S_, .f32⟩
  | .hbm, ⟨34, _⟩ => ⟨S32, .f32⟩
  | .hbm, ⟨35, _⟩ => ⟨S1x32, .f32⟩
  | .hbm, ⟨36, _⟩ => ⟨S_, .f32⟩
  | .hbm, ⟨37, _⟩ => ⟨S1x32, .f32⟩
  | .hbm, ⟨38, _⟩ => ⟨S1x32, .f32⟩
  | .hbm, ⟨39, _⟩ => ⟨S100000x32, .f32⟩
  | .hbm, ⟨40, _⟩ => ⟨S100000x32, .f32⟩
  | .hbm, ⟨41, _⟩ => ⟨S100000x32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S1x32, .f32⟩
  | .hbm, ⟨56, _⟩ => ⟨S100000x32, .f32⟩
  | .hbm, ⟨57, _⟩ => ⟨S100000x32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S32, .f32⟩
  | .hbm, ⟨62, _⟩ => ⟨S1x32, .f32⟩
  | .hbm, ⟨63, _⟩ => ⟨S100000x32, .f32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S1x32, .f32⟩
  | .hbm, ⟨69, _⟩ => ⟨S100000x32, .f32⟩
  | .hbm, ⟨70, _⟩ => ⟨S100000x32, .f32⟩
  | .hbm, ⟨71, _⟩ => ⟨S_, .f32⟩
  | .hbm, ⟨72, _⟩ => ⟨S100000x32, .f32⟩
  | .hbm, ⟨73, _⟩ => ⟨S100000x32, .f32⟩
  | .hbm, ⟨74, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_cst_3 : Ref sig .tc := ⟨.hbm, 49, rfl⟩
abbrev main_call0_v12 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_4 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_call1_cst : Ref sig .tc := ⟨.hbm, 71, rfl⟩
abbrev main_call1_v0 : Ref sig .tc := ⟨.hbm, 72, rfl⟩
abbrev main_v35 : Ref sig .tc := ⟨.hbm, 73, rfl⟩
abbrev main_v36 : Ref sig .tc := ⟨.hbm, 74, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S100000x1_S100000x32_0_1 : S100000x1.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KRuns0.lean ====
/-
  The first kernel's body, run once per control case. The body branches twice on the block index: at the first
  block it zeroes the two running rows; at the last block it copies them out. So a block is in one of three cases —
  first, middle, last — and in each the body is a straight line: load the block's operands, store h_t, add the column
  sums of h_t and of h_t ∘ h_t to the running rows (and, at the last block, store the two rows into the small results).
  Each run states what every buffer is left with as the list of stores made into it.
-/
import proofs.«151859_j44744969290330_1_alg».proof.Proof.Gen.KernelIdeal.Launch
import proofs.«151859_j44744969290330_1_alg».proof.Proof.Gen.KernelIdeal.Skeleton
import proofs.«151859_j44744969290330_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the 20 blocks -/

/-- "This is the first block" as the body computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)
/-- "This is the last block" as the body computes it. -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

/-! ## Which buffers a block leaves alone -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Except at the last block the two small results' buffers are not stored into and not written back. -/
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## The buffers the body is called with -/

abbrev ms0_0 (t : Fin cfg0.N) : Memref sig .tc .vmem S5000x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32 .f32 := win0_6.stage (cfg0.slots t 6)
abbrev hs0_6 (t : Fin cfg0.N) : (ms0_6 t).IsWhole := hstage0_6 ((cfg0.slots t 6).cast nbuf0_6)
/-- The two running rows live in two buffers of the kernel's own. -/
abbrev scM0_0 : Memref sig .tc .vmem S1x32 .f32 := Memref.whole cc0_scratch0
abbrev scM0_1 : Memref sig .tc .vmem S1x32 .f32 := Memref.whole cc0_scratch1
/-- Views through which the results' and the running rows' contents are stated. -/
abbrev VO0_4 : View sig .tc .vmem S5000x32 .f32 := (Memref.whole cc0_stg4_0 : Memref sig .tc .vmem S5000x32 .f32).view
abbrev VO0_5 : View sig .tc .vmem S1x32 .f32 := (Memref.whole cc0_stg5_0 : Memref sig .tc .vmem S1x32 .f32).view
abbrev VO0_6 : View sig .tc .vmem S1x32 .f32 := (Memref.whole cc0_stg6_0 : Memref sig .tc .vmem S1x32 .f32).view
abbrev VS0_0 : View sig .tc .vmem S1x32 .f32 := scM0_0.view
abbrev VS0_1 : View sig .tc .vmem S1x32 .f32 := scM0_1.view

/-- The core's scoped buffers that belong to the second kernel, each at some contents: the first kernel never touches them. -/
def Rest10 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- Before the first block: the two running rows' buffers at some contents, the second kernel's buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest10 c) ∗ (∃ r, prngReg c r)) := by
  unfold Pipeline.ΦA Rest10; rw [scopedRest0_eq]; simp only [scM0_0, scM0_1, owns_whole]; try rfl

/-! ## The three runs -/

set_option maxHeartbeats 4000000 in
/-- FIRST block: the running rows are zeroed, then updated. -/
noncomputable def kernelRun0_A (c : Dev nD) (i : grid0.Coords) (arg1 : Memref sig .tc .vmem S5000x32 .f32) (harg1 : arg1.IsWhole) (arg2 : Memref sig .tc .vmem S5000x1 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S5000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (hc0 : cond0_0 i) (hc1 : ¬cond0_1 i)
    (x0 : Vec F S5000x32 .f32) (x1 : Vec F S5000x1 .f32) (x2 : Vec F S32x32 .f32) (x3 : Vec F S1x32 .f32) :
    Σ' (L4 : List (View.Piece (Elt F) S5000x32 .f32)) (LS0 : List (View.Piece (Elt F) S1x32 .f32)), { LS1 : List (View.Piece (Elt F) S1x32 .f32) //
      ∀ (xi5 xi6 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__agg_mlp_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__agg_mlp_stats_kernel_eq_skeleton]; unfold cc0__agg_mlp_stats_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

set_option maxHeartbeats 4000000 in
/-- A MIDDLE block: the running rows, found at what the block before left, are updated. -/
noncomputable def kernelRun0_B (c : Dev nD) (i : grid0.Coords) (arg1 : Memref sig .tc .vmem S5000x32 .f32) (harg1 : arg1.IsWhole) (arg2 : Memref sig .tc .vmem S5000x1 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S5000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (hc0 : ¬cond0_0 i) (hc1 : ¬cond0_1 i)
    (x0 : Vec F S5000x32 .f32) (x1 : Vec F S5000x1 .f32) (x2 : Vec F S32x32 .f32) (x3 : Vec F S1x32 .f32) (xs0 xs1 : Vec F S1x32 .f32) :
    Σ' (L4 : List (View.Piece (Elt F) S5000x32 .f32)) (LS0 : List (View.Piece (Elt F) S1x32 .f32)), { LS1 : List (View.Piece (Elt F) S1x32 .f32) //
      ∀ (xi5 xi6 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__agg_mlp_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__agg_mlp_stats_kernel_eq_skeleton]; unfold cc0__agg_mlp_stats_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

set_option maxHeartbeats 4000000 in
/-- The LAST block: the running rows are updated and copied into the two small results' buffers. -/
noncomputable def kernelRun0_C (c : Dev nD) (i : grid0.Coords) (arg1 : Memref sig .tc .vmem S5000x32 .f32) (harg1 : arg1.IsWhole) (arg2 : Memref sig .tc .vmem S5000x1 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S5000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (hc0 : ¬cond0_0 i) (hc1 : cond0_1 i)
    (x0 : Vec F S5000x32 .f32) (x1 : Vec F S5000x1 .f32) (x2 : Vec F S32x32 .f32) (x3 : Vec F S1x32 .f32) (xs0 xs1 : Vec F S1x32 .f32) :
    Σ' (L4 : List (View.Piece (Elt F) S5000x32 .f32)) (L5 : List (View.Piece (Elt F) S1x32 .f32)) (L6 : List (View.Piece (Elt F) S1x32 .f32)) (LS0 : List (View.Piece (Elt F) S1x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__agg_mlp_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__agg_mlp_stats_kernel_eq_skeleton]; unfold cc0__agg_mlp_stats_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

end Cert.KernelIdeal.Hand

end
-- ==== Proof.KRuns1.lean ====
/-
  The second kernel's body: a straight line. It loads the block of h, the block of the features, and the four rows
  (mean, variance, gamma, beta), and makes one store, of x + max(((h - mean) · rsqrt(variance + ε)) · gamma + beta, 0),
  covering the result's whole buffer.
-/
import proofs.«151859_j44744969290330_1_alg».proof.Proof.Gen.KernelIdeal.Launch
import proofs.«151859_j44744969290330_1_alg».proof.Proof.Gen.KernelIdeal.Skeleton
import proofs.«151859_j44744969290330_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of a block of rows, and of a row. -/
abbrev rBlk : Rect S5000x32 := Rect.unit (s := S5000x32) ![0, 0] S5000x32.size inb_S5000x32_S5000x32_0_0
abbrev rRow : Rect S1x32 := Rect.unit (s := S1x32) ![0, 0] S1x32.size inb_S1x32_S1x32_0_0

/-- What the result's buffer holds after the body: its one store, over the operands' contents. -/
def outv1 (x0 x1 : Vec F S5000x32 .f32) (x2 x3 x4 x5 : Vec F S1x32 .f32) : Vec F S5000x32 .f32 :=
  View.canon [⟨rBlk, k1_pay1 (View.ld x3 rRow) (View.ld x0 rBlk) (View.ld x2 rRow) (View.ld x4 rRow) (View.ld x5 rRow) (View.ld x1 rBlk)⟩]

/-- The store covers the buffer. -/
theorem cover1_6 (p0 : Vec F S5000x32 .f32) (y : S5000x32.Idx) :
    ∃ pc ∈ ([⟨rBlk, p0⟩] : List (View.Piece (Elt F) S5000x32 .f32)), y ∈ pc.1.set :=
  View.cover_of_tiled [⟨rBlk, p0⟩] S5000x32.size (by rfl) y

set_option maxHeartbeats 4000000 in
theorem sound_kernel1 (c : Dev nD) (E : Set ℕ) (i : grid1.Coords) (arg1 : Memref sig .tc .vmem S5000x32 .f32) (harg1 : arg1.IsWhole) (arg2 : Memref sig .tc .vmem S5000x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S5000x32 .f32) (harg7 : arg7.IsWhole)
    (x0 x1 : Vec F S5000x32 .f32) (x2 x3 x4 x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outv1 x0 x1 x2 x3 x4 x5)) -∗ K ⟨⟩))
      ⊢ wp frame (wpE (defs₀ (F := F)) Variants.none c none) E (cc1__normalize_kernel i arg1 harg1 arg2 harg2 arg3 harg3 arg4 harg4 arg5 harg5 arg6 harg6 arg7 harg7) K := by
  simp only [cc1__normalize_kernel_eq_skeleton]; unfold cc1__normalize_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_6 _)

end Cert.KernelIdeal.Hand

end
-- ==== Proof.KData.lean ====
/-
  What the two kernels leave, as data. The first kernel walks the 100000 rows in 20 blocks of 5000: at block t it
  stores h_t = (A_t · W + b) ∘ s_t as its block of the first result and adds the column sums of h_t and of h_t ∘ h_t
  to two running rows (zeroed at the first block, copied out at the last). What each buffer holds after block t is
  what that block's run stored, read back; the running rows after block t are computed from those after block t-1,
  so the contents are defined by recursion on the block. The second kernel, block by block, stores
  x_t + max(((h_t - μ) · rsqrt(v + ε)) · γ + β, 0). Then the arrays at each boundary of the host program.
-/
import proofs.«151859_j44744969290330_1_alg».proof.Proof.KRuns0
import proofs.«151859_j44744969290330_1_alg».proof.Proof.KRuns1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the arrays as a kernel finds them: a parameter, fixed per kernel by the host program's fold below
variable (V : (c : Dev nD) → (b : Ref sig .tc) → Buf (Elt F) ((c : Thread nD τ).loc b))

/-! ## The first kernel -/

/-- Operand w's block at block index t, read off the operand's array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three runs at block t, on the buffers the pipeline hands the body there and the operands' blocks. -/
def runA (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk0 V c 0 t) (iblk0 V c 1 t) (iblk0 V c 2 t) (iblk0 V c 3 t)
def runB (c : Dev nD) (t : Fin cfg0.N) (h0 : ¬cond0_0 (grid0.coords t)) (h1 : ¬cond0_1 (grid0.coords t)) (xs0 xs1 : Vec F S1x32 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk0 V c 0 t) (iblk0 V c 1 t) (iblk0 V c 2 t) (iblk0 V c 3 t) xs0 xs1
def runC (c : Dev nD) (t : Fin cfg0.N) (h0 : ¬cond0_0 (grid0.coords t)) (h1 : cond0_1 (grid0.coords t)) (xs0 xs1 : Vec F S1x32 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk0 V c 0 t) (iblk0 V c 1 t) (iblk0 V c 2 t) (iblk0 V c 3 t) xs0 xs1

/-- What the first block leaves: (first result's buffer, the two small results' buffers — untouched, a placeholder —, the two running rows). -/
def outA (c : Dev nD) (t : Fin cfg0.N) (h0 : cond0_0 (grid0.coords t)) (h1 : ¬cond0_1 (grid0.coords t)) : Vec F S5000x32 .f32 × Vec F S1x32 .f32 × Vec F S1x32 .f32 × Vec F S1x32 .f32 × Vec F S1x32 .f32 :=
  (VO0_4.read (Elt F) (VO0_4.writes (Elt F) VO0_4.junk (runA V c t h0 h1).1),
   VO0_5.read (Elt F) VO0_5.junk, VO0_6.read (Elt F) VO0_6.junk,
   VS0_0.read (Elt F) (VS0_0.writes (Elt F) VS0_0.junk (runA V c t h0 h1).2.1),
   VS0_1.read (Elt F) (VS0_1.writes (Elt F) VS0_1.junk (runA V c t h0 h1).2.2.1))
/-- What a middle block leaves, from the running rows it found. -/
def outB (c : Dev nD) (t : Fin cfg0.N) (h0 : ¬cond0_0 (grid0.coords t)) (h1 : ¬cond0_1 (grid0.coords t)) (xs0 xs1 : Vec F S1x32 .f32) : Vec F S5000x32 .f32 × Vec F S1x32 .f32 × Vec F S1x32 .f32 × Vec F S1x32 .f32 × Vec F S1x32 .f32 :=
  (VO0_4.read (Elt F) (VO0_4.writes (Elt F) VO0_4.junk (runB V c t h0 h1 xs0 xs1).1),
   VO0_5.read (Elt F) VO0_5.junk, VO0_6.read (Elt F) VO0_6.junk,
   VS0_0.read (Elt F) (VS0_0.writes (Elt F) VS0_0.junk (runB V c t h0 h1 xs0 xs1).2.1),
   VS0_1.read (Elt F) (VS0_1.writes (Elt F) VS0_1.junk (runB V c t h0 h1 xs0 xs1).2.2.1))
/-- What the last block leaves, from the running rows it found. -/
def outC (c : Dev nD) (t : Fin cfg0.N) (h0 : ¬cond0_0 (grid0.coords t)) (h1 : cond0_1 (grid0.coords t)) (xs0 xs1 : Vec F S1x32 .f32) : Vec F S5000x32 .f32 × Vec F S1x32 .f32 × Vec F S1x32 .f32 × Vec F S1x32 .f32 × Vec F S1x32 .f32 :=
  (VO0_4.read (Elt F) (VO0_4.writes (Elt F) VO0_4.junk (runC V c t h0 h1 xs0 xs1).1),
   VO0_5.read (Elt F) (VO0_5.writes (Elt F) VO0_5.junk (runC V c t h0 h1 xs0 xs1).2.1),
   VO0_6.read (Elt F) (VO0_6.writes (Elt F) VO0_6.junk (runC V c t h0 h1 xs0 xs1).2.2.1),
   VS0_0.read (Elt F) (VS0_0.writes (Elt F) VS0_0.junk (runC V c t h0 h1 xs0 xs1).2.2.2.1),
   VS0_1.read (Elt F) (VS0_1.writes (Elt F) VS0_1.junk (runC V c t h0 h1 xs0 xs1).2.2.2.2.1))

/-- THE ACCUMULATION: what the five buffers hold after block n, by recursion on n — the first block from nothing, every
    later block from the running rows the block before left. -/
def outsAt0 (c : Dev nD) : (n : ℕ) → n < cfg0.N → Vec F S5000x32 .f32 × Vec F S1x32 .f32 × Vec F S1x32 .f32 × Vec F S1x32 .f32 × Vec F S1x32 .f32
  | 0, hn => outA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 20 = 0 then
      False.elim (by have hN : n + 1 < 20 := lt_of_lt_of_eq hn (show cfg0.N = 20 from N_0); omega)
    else
      if h1 : (n + 1) % 20 = 19 then
        outC V c ⟨n + 1, hn⟩ (fun h => h0 ((hcond0_0 ⟨n + 1, hn⟩).mp h)) ((hcond0_1 ⟨n + 1, hn⟩).mpr h1) (outsAt0 c n (Nat.lt_of_succ_lt hn)).2.2.2.1 (outsAt0 c n (Nat.lt_of_succ_lt hn)).2.2.2.2
      else
        outB V c ⟨n + 1, hn⟩ (fun h => h0 ((hcond0_0 ⟨n + 1, hn⟩).mp h)) (fun h => h1 ((hcond0_1 ⟨n + 1, hn⟩).mp h)) (outsAt0 c n (Nat.lt_of_succ_lt hn)).2.2.2.1 (outsAt0 c n (Nat.lt_of_succ_lt hn)).2.2.2.2

theorem outsAt0_A (c : Dev nD) (t : Fin cfg0.N) (h0 : t.val % 20 = 0) (h1 : ¬t.val % 20 = 19) :
    outsAt0 V c t.val t.isLt = outA V c t ((hcond0_0 t).mpr h0) (fun h => h1 ((hcond0_1 t).mp h)) := by
  obtain ⟨n, hn⟩ := t
  cases n with
  | zero => exact rfl
  | succ n => exact (by exfalso; have hN : n + 1 < 20 := lt_of_lt_of_eq hn (show cfg0.N = 20 from N_0); (try dsimp only at h0); omega)

theorem outsAt0_B (c : Dev nD) (t : Fin cfg0.N) (h0 : ¬t.val % 20 = 0) (h1 : ¬t.val % 20 = 19) :
    outsAt0 V c t.val t.isLt = outB V c t (fun h => h0 ((hcond0_0 t).mp h)) (fun h => h1 ((hcond0_1 t).mp h))
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 20 = 0) (h1 : t.val % 20 = 19) :
    outsAt0 V c t.val t.isLt = outC V c t (fun h => h0 ((hcond0_0 t).mp h)) ((hcond0_1 t).mpr h1)
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-- What holds between blocks: before the first block every scoped buffer the pipeline does not stage is at some
    contents; after block n the two running rows are at their values after block n. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ Rest10 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ Rest10 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ Rest10 c) ∗ (∃ r, prngReg c r)) := by
  cases n with
  | zero => exact absurd rfl hz
  | succ n => rfl

/-- The first kernel's staging buffers after block t: the four operands' blocks untouched; the results' buffers at
    what the accumulation says. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS V c t.val (Nat.le_of_lt_succ t.isLt)
  q _ := fullShare
  owed _ := 0

/-! ## The second kernel -/

/-- Operand w's block at block index t, read off the operand's array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second kernel's staging buffers after block t: the six operands' blocks untouched, the result's buffer at the block's value. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outv1 (iblk1 V c 0 t) (iblk1 V c 1 t) (iblk1 V c 2 t) (iblk1 V c 3 t) (iblk1 V c 4 t) (iblk1 V c 5 t)
  Φ _ := Pipeline.ΦA spec1 c
  q _ := fullShare
  owed _ := 0

end Regions

/-! ## The arrays at each boundary of the host program -/

variable (m : (ℓ : Loc nD τ sig) → Buf (Elt F) ℓ)

/-- At launch. -/
abbrev W0 : Dev nD → Valuation τ sig (Elt F) := fun c b => m (c, b)
/-- After the host operations before the first kernel (the gather, the scatter-add, the bias as a row). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first kernel: its three results at what its write-backs leave, everything else as before. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the host operations between the kernels (the mean and the variance rows from the two sums). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second kernel: its result at what its write-backs leave. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

end Cert.KernelIdeal.Hand

end
-- ==== Proof.KBody0.lean ====
/-
  The first kernel's body meets the pipeline's obligation at every block. At block t the body is handed the four
  operands' blocks, the three results' buffers and — through the invariant — the two running rows as the block before
  left them (anything, at the first block). Which of the three runs applies is decided by the block index; each run's
  stores cover the buffers they are made into, so what is read back afterwards is what the accumulation says.
-/
import proofs.«151859_j44744969290330_1_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The stores of each run cover their buffers -/

theorem coverA_4 (c : Dev nD) (t : Fin cfg0.N) (h0) (h1) (y : S5000x32.Idx) : ∃ pc ∈ (runA V c t h0 h1).1, y ∈ pc.1.set :=
  View.cover_of_tiledL (runA V c t h0 h1).1 S5000x32.size (by unfold runA; sl_kernel_rfl) y
theorem coverA_s0 (c : Dev nD) (t : Fin cfg0.N) (h0) (h1) (y : S1x32.Idx) : ∃ pc ∈ (runA V c t h0 h1).2.1, y ∈ pc.1.set :=
  View.cover_of_tiledL (runA V c t h0 h1).2.1 S1x32.size (by unfold runA; sl_kernel_rfl) y
theorem coverA_s1 (c : Dev nD) (t : Fin cfg0.N) (h0) (h1) (y : S1x32.Idx) : ∃ pc ∈ (runA V c t h0 h1).2.2.1, y ∈ pc.1.set :=
  View.cover_of_tiledL (runA V c t h0 h1).2.2.1 S1x32.size (by unfold runA; sl_kernel_rfl) y
theorem coverB_4 (c : Dev nD) (t : Fin cfg0.N) (h0) (h1) (xs0 xs1) (y : S5000x32.Idx) : ∃ pc ∈ (runB V c t h0 h1 xs0 xs1).1, y ∈ pc.1.set :=
  View.cover_of_tiledL (runB V c t h0 h1 xs0 xs1).1 S5000x32.size (by unfold runB; sl_kernel_rfl) y
theorem coverB_s0 (c : Dev nD) (t : Fin cfg0.N) (h0) (h1) (xs0 xs1) (y : S1x32.Idx) : ∃ pc ∈ (runB V c t h0 h1 xs0 xs1).2.1, y ∈ pc.1.set :=
  View.cover_of_tiledL (runB V c t h0 h1 xs0 xs1).2.1 S1x32.size (by unfold runB; sl_kernel_rfl) y
theorem coverB_s1 (c : Dev nD) (t : Fin cfg0.N) (h0) (h1) (xs0 xs1) (y : S1x32.Idx) : ∃ pc ∈ (runB V c t h0 h1 xs0 xs1).2.2.1, y ∈ pc.1.set :=
  View.cover_of_tiledL (runB V c t h0 h1 xs0 xs1).2.2.1 S1x32.size (by unfold runB; sl_kernel_rfl) y
theorem coverC_4 (c : Dev nD) (t : Fin cfg0.N) (h0) (h1) (xs0 xs1) (y : S5000x32.Idx) : ∃ pc ∈ (runC V c t h0 h1 xs0 xs1).1, y ∈ pc.1.set :=
  View.cover_of_tiledL (runC V c t h0 h1 xs0 xs1).1 S5000x32.size (by unfold runC; sl_kernel_rfl) y
theorem coverC_5 (c : Dev nD) (t : Fin cfg0.N) (h0) (h1) (xs0 xs1) (y : S1x32.Idx) : ∃ pc ∈ (runC V c t h0 h1 xs0 xs1).2.1, y ∈ pc.1.set :=
  View.cover_of_tiledL (runC V c t h0 h1 xs0 xs1).2.1 S1x32.size (by unfold runC; sl_kernel_rfl) y
theorem coverC_6 (c : Dev nD) (t : Fin cfg0.N) (h0) (h1) (xs0 xs1) (y : S1x32.Idx) : ∃ pc ∈ (runC V c t h0 h1 xs0 xs1).2.2.1, y ∈ pc.1.set :=
  View.cover_of_tiledL (runC V c t h0 h1 xs0 xs1).2.2.1 S1x32.size (by unfold runC; sl_kernel_rfl) y
theorem coverC_s0 (c : Dev nD) (t : Fin cfg0.N) (h0) (h1) (xs0 xs1) (y : S1x32.Idx) : ∃ pc ∈ (runC V c t h0 h1 xs0 xs1).2.2.2.1, y ∈ pc.1.set :=
  View.cover_of_tiledL (runC V c t h0 h1 xs0 xs1).2.2.2.1 S1x32.size (by unfold runC; sl_kernel_rfl) y
theorem coverC_s1 (c : Dev nD) (t : Fin cfg0.N) (h0) (h1) (xs0 xs1) (y : S1x32.Idx) : ∃ pc ∈ (runC V c t h0 h1 xs0 xs1).2.2.2.2.1, y ∈ pc.1.set :=
  View.cover_of_tiledL (runC V c t h0 h1 xs0 xs1).2.2.2.2.1 S1x32.size (by unfold runC; sl_kernel_rfl) y

/-! ## The proof data, projected -/

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

/-- Each operand's current buffer holds its block at every block index, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The obligation at a block -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 20 = 0
  · have h1 : ¬t.val % 20 = 19 := by omega
    have hz : t.val = 0 := by omega
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [outsAt0_A V c t h0 h1]
    unfold outA; (try dsimp only)
    rw [PhiS_castSucc V c t, PhiS_zero V c _ _ hz, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runA V c t ((hcond0_0 t).mpr h0) (fun h => h1 ((hcond0_1 t).mp h))).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (coverA_s0 V c t _ _)
        isplitl [HS1]
        · unfold owns; iexists _; isplitr
          swap; · iexact HS1
          ipureintro; exact View.read_writes_of_cover _ _ _ _ _ (coverA_s1 V c t _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA_4 V c t _ _)
    isplitl [H5]; · iexists _; iexact H5
    iexists _; iexact H6
  · have hz : t.val ≠ 0 := by omega
    by_cases h1 : t.val % 20 = 19
    · rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold outC; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runC V c t (fun h => h0 ((hcond0_0 t).mp h)) ((hcond0_1 t).mpr h1) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (coverC_s0 V c t _ _ _ _)
          isplitl [HS1]
          · unfold owns; iexists _; isplitr
            swap; · iexact HS1
            ipureintro; exact View.read_writes_of_cover _ _ _ _ _ (coverC_s1 V c t _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 V c t _ _ _ _)
      isplitl [H5]
      · unfold owns; iexists _; isplitr
        swap; · iexact H5
        ipureintro; exact View.read_writes_of_cover _ _ _ _ _ (coverC_5 V c t _ _ _ _)
      unfold owns; iexists _; isplitr
      swap; · iexact H6
      ipureintro; exact View.read_writes_of_cover _ _ _ _ _ (coverC_6 V c t _ _ _ _)
    · rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [outsAt0_B V c t h0 h1]
      unfold outB; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB V c t (fun h => h0 ((hcond0_0 t).mp h)) (fun h => h1 ((hcond0_1 t).mp h)) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (coverB_s0 V c t _ _ _ _)
          isplitl [HS1]
          · unfold owns; iexists _; isplitr
            swap; · iexact HS1
            ipureintro; exact View.read_writes_of_cover _ _ _ _ _ (coverB_s1 V c t _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB_4 V c t _ _ _ _)
      isplitl [H5]; · iexists _; iexact H5
      iexists _; iexact H6

/-- The pipeline's obligation, at every block. -/
theorem body_obligation0 (c : Dev nD) : BodyObligation (dat0 (F := F) V c) (defs₀ (F := F)) Variants.none () Set.univ := fun t => by
  rw [bigSep_W0, bigSep_W0]
  exact sound_body0 V c t

/-- What the launch hands the kernel is what holds before the first block. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last block the running rows' values are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 20 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Regions

end Cert.KernelIdeal.Hand

end
-- ==== Proof.KBody1.lean ====
/-
  The second kernel's body meets the pipeline's obligation at every block: its six operands' buffers hold their
  blocks, it stores the block's value into the result's buffer, and it touches nothing else.
-/
import proofs.«151859_j44744969290330_1_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outv1 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KRun.lean ====
/-
  The host program's run. @main is four segments: the host operations before the first kernel, the first kernel, the
  host operations between the kernels, the second kernel. Between segments the core holds every unscoped buffer at
  the boundary's contents (W0 … W4), its generator register at some state, and owes nothing. Each kernel's segment
  splits its operand and result arrays out of the unscoped buffers, runs the pipeline on the kernel's proof data, and
  puts the arrays back at what the pipeline leaves. The run ends with every unscoped buffer at W4: the eight
  argument arrays are there as launched (no host operation writes one, no kernel stores into one), and the result is
  what the second kernel's write-backs leave.
-/
import proofs.«151859_j44744969290330_1_alg».proof.Proof.KBody0
import proofs.«151859_j44744969290330_1_alg».proof.Proof.KBody1
import proofs.«151859_j44744969290330_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each kernel's arrays at its exit; everything else untouched -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 1).trans (((dat1 (V3 m) c).arrAt_in 1 rfl _).trans (A_eq1 (V3 m) c 1))
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl

/-- The result's array at the end is what the second kernel's write-backs leave. -/
theorem W4_main_v24 (c : Dev nD) : W4 m c (Proc.devRef .tc main_v24) = (dat1 (V3 m) c).arrAt 6 cfg1.N := W4_arr m c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The kernels as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = (dat0 (V1 m) c).Φ (Fin.last cfg0.N) from rfl]
    have h := hout0 (V1 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution of @main terminates, faulting nowhere, with every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c)⟩) (run_main m ρ)

/-- The run with the result named: the result's array ends at what the second kernel's write-backs leave, the arguments as launched. -/
theorem run_value : θ_run defs (onTc (τ := τ) (main (F := F))) ⟨m, fun _ => 0, ρ⟩ (fun r => ∀ c : Dev nD,
      r.2.mem ((c.tc : Thread nD τ).loc main_v24) = (dat1 (V3 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v24 (by decide))).trans (W4_main_v24 m c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c)⟩) (run_main m ρ)

end Cert.KernelIdeal.Hand

end
-- ==== Proof.BRuns0.lean ====
/-
  The first kernel's body, run once per control case. The body branches twice on the block index: at the first
  block it zeroes the two running rows; at the last block it copies them out. So a block is in one of three cases —
  first, middle, last — and in each the body is a straight line: load the block's operands, store h_t, add the column
  sums of h_t and of h_t ∘ h_t to the running rows (and, at the last block, store the two rows into the small results).
  Each run states what every buffer is left with as the list of stores made into it.
-/
import proofs.«151859_j44744969290330_1_alg».proof.Proof.Gen.Kernel.Launch
import proofs.«151859_j44744969290330_1_alg».proof.Proof.Gen.Kernel.Skeleton
import proofs.«151859_j44744969290330_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the 20 blocks -/

/-- "This is the first block" as the body computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)
/-- "This is the last block" as the body computes it. -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

/-! ## Which buffers a block leaves alone -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Except at the last block the two small results' buffers are not stored into and not written back. -/
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## The buffers the body is called with -/

abbrev ms0_0 (t : Fin cfg0.N) : Memref sig .tc .vmem S5000x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32 .f32 := win0_6.stage (cfg0.slots t 6)
abbrev hs0_6 (t : Fin cfg0.N) : (ms0_6 t).IsWhole := hstage0_6 ((cfg0.slots t 6).cast nbuf0_6)
/-- The two running rows live in two buffers of the kernel's own. -/
abbrev scM0_0 : Memref sig .tc .vmem S1x32 .f32 := Memref.whole cc0_scratch0
abbrev scM0_1 : Memref sig .tc .vmem S1x32 .f32 := Memref.whole cc0_scratch1
/-- Views through which the results' and the running rows' contents are stated. -/
abbrev VO0_4 : View sig .tc .vmem S5000x32 .f32 := (Memref.whole cc0_stg4_0 : Memref sig .tc .vmem S5000x32 .f32).view
abbrev VO0_5 : View sig .tc .vmem S1x32 .f32 := (Memref.whole cc0_stg5_0 : Memref sig .tc .vmem S1x32 .f32).view
abbrev VO0_6 : View sig .tc .vmem S1x32 .f32 := (Memref.whole cc0_stg6_0 : Memref sig .tc .vmem S1x32 .f32).view
abbrev VS0_0 : View sig .tc .vmem S1x32 .f32 := scM0_0.view
abbrev VS0_1 : View sig .tc .vmem S1x32 .f32 := scM0_1.view

/-- The core's scoped buffers that belong to the second kernel, each at some contents: the first kernel never touches them. -/
def Rest10 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- Before the first block: the two running rows' buffers at some contents, the second kernel's buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest10 c) ∗ (∃ r, prngReg c r)) := by
  unfold Pipeline.ΦA Rest10; rw [scopedRest0_eq]; simp only [scM0_0, scM0_1, owns_whole]; try rfl

/-! ## The three runs -/

set_option maxHeartbeats 4000000 in
/-- FIRST block: the running rows are zeroed, then updated. -/
noncomputable def kernelRun0_A (c : Dev nD) (i : grid0.Coords) (arg1 : Memref sig .tc .vmem S5000x32 .f32) (harg1 : arg1.IsWhole) (arg2 : Memref sig .tc .vmem S5000x1 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S5000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (hc0 : cond0_0 i) (hc1 : ¬cond0_1 i)
    (x0 : Vec F S5000x32 .f32) (x1 : Vec F S5000x1 .f32) (x2 : Vec F S32x32 .f32) (x3 : Vec F S1x32 .f32) :
    Σ' (L4 : List (View.Piece (Elt F) S5000x32 .f32)) (LS0 : List (View.Piece (Elt F) S1x32 .f32)), { LS1 : List (View.Piece (Elt F) S1x32 .f32) //
      ∀ (xi5 xi6 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__agg_mlp_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__agg_mlp_stats_kernel_eq_skeleton]; unfold cc0__agg_mlp_stats_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

set_option maxHeartbeats 4000000 in
/-- A MIDDLE block: the running rows, found at what the block before left, are updated. -/
noncomputable def kernelRun0_B (c : Dev nD) (i : grid0.Coords) (arg1 : Memref sig .tc .vmem S5000x32 .f32) (harg1 : arg1.IsWhole) (arg2 : Memref sig .tc .vmem S5000x1 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S5000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (hc0 : ¬cond0_0 i) (hc1 : ¬cond0_1 i)
    (x0 : Vec F S5000x32 .f32) (x1 : Vec F S5000x1 .f32) (x2 : Vec F S32x32 .f32) (x3 : Vec F S1x32 .f32) (xs0 xs1 : Vec F S1x32 .f32) :
    Σ' (L4 : List (View.Piece (Elt F) S5000x32 .f32)) (LS0 : List (View.Piece (Elt F) S1x32 .f32)), { LS1 : List (View.Piece (Elt F) S1x32 .f32) //
      ∀ (xi5 xi6 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__agg_mlp_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__agg_mlp_stats_kernel_eq_skeleton]; unfold cc0__agg_mlp_stats_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

set_option maxHeartbeats 4000000 in
/-- The LAST block: the running rows are updated and copied into the two small results' buffers. -/
noncomputable def kernelRun0_C (c : Dev nD) (i : grid0.Coords) (arg1 : Memref sig .tc .vmem S5000x32 .f32) (harg1 : arg1.IsWhole) (arg2 : Memref sig .tc .vmem S5000x1 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S5000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (hc0 : ¬cond0_0 i) (hc1 : cond0_1 i)
    (x0 : Vec F S5000x32 .f32) (x1 : Vec F S5000x1 .f32) (x2 : Vec F S32x32 .f32) (x3 : Vec F S1x32 .f32) (xs0 xs1 : Vec F S1x32 .f32) :
    Σ' (L4 : List (View.Piece (Elt F) S5000x32 .f32)) (L5 : List (View.Piece (Elt F) S1x32 .f32)) (L6 : List (View.Piece (Elt F) S1x32 .f32)) (LS0 : List (View.Piece (Elt F) S1x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__agg_mlp_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__agg_mlp_stats_kernel_eq_skeleton]; unfold cc0__agg_mlp_stats_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

end Cert.Kernel.Hand

end
-- ==== Proof.BRuns1.lean ====
/-
  The second kernel's body: a straight line. It loads the block of h, the block of the features, and the four rows
  (mean, variance, gamma, beta), and makes one store, of x + max(((h - mean) · rsqrt(variance + ε)) · gamma + beta, 0),
  covering the result's whole buffer.
-/
import proofs.«151859_j44744969290330_1_alg».proof.Proof.Gen.Kernel.Launch
import proofs.«151859_j44744969290330_1_alg».proof.Proof.Gen.Kernel.Skeleton
import proofs.«151859_j44744969290330_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of a block of rows, and of a row. -/
abbrev rBlk : Rect S5000x32 := Rect.unit (s := S5000x32) ![0, 0] S5000x32.size inb_S5000x32_S5000x32_0_0
abbrev rRow : Rect S1x32 := Rect.unit (s := S1x32) ![0, 0] S1x32.size inb_S1x32_S1x32_0_0

/-- What the result's buffer holds after the body: its one store, over the operands' contents. -/
def outv1 (x0 x1 : Vec F S5000x32 .f32) (x2 x3 x4 x5 : Vec F S1x32 .f32) : Vec F S5000x32 .f32 :=
  View.canon [⟨rBlk, k1_pay1 (View.ld x3 rRow) (View.ld x0 rBlk) (View.ld x2 rRow) (View.ld x4 rRow) (View.ld x5 rRow) (View.ld x1 rBlk)⟩]

/-- The store covers the buffer. -/
theorem cover1_6 (p0 : Vec F S5000x32 .f32) (y : S5000x32.Idx) :
    ∃ pc ∈ ([⟨rBlk, p0⟩] : List (View.Piece (Elt F) S5000x32 .f32)), y ∈ pc.1.set :=
  View.cover_of_tiled [⟨rBlk, p0⟩] S5000x32.size (by rfl) y

set_option maxHeartbeats 4000000 in
theorem sound_kernel1 (c : Dev nD) (E : Set ℕ) (i : grid1.Coords) (arg1 : Memref sig .tc .vmem S5000x32 .f32) (harg1 : arg1.IsWhole) (arg2 : Memref sig .tc .vmem S5000x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S5000x32 .f32) (harg7 : arg7.IsWhole)
    (x0 x1 : Vec F S5000x32 .f32) (x2 x3 x4 x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outv1 x0 x1 x2 x3 x4 x5)) -∗ K ⟨⟩))
      ⊢ wp frame (wpE (defs₀ (F := F)) Variants.none c none) E (cc1__normalize_kernel i arg1 harg1 arg2 harg2 arg3 harg3 arg4 harg4 arg5 harg5 arg6 harg6 arg7 harg7) K := by
  simp only [cc1__normalize_kernel_eq_skeleton]; unfold cc1__normalize_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_6 _)

end Cert.Kernel.Hand

end
-- ==== Proof.BData.lean ====
/-
  What the two kernels leave, as data. The first kernel walks the 100000 rows in 20 blocks of 5000: at block t it
  stores h_t = (A_t · W + b) ∘ s_t as its block of the first result and adds the column sums of h_t and of h_t ∘ h_t
  to two running rows (zeroed at the first block, copied out at the last). What each buffer holds after block t is
  what that block's run stored, read back; the running rows after block t are computed from those after block t-1,
  so the contents are defined by recursion on the block. The second kernel, block by block, stores
  x_t + max(((h_t - μ) · rsqrt(v + ε)) · γ + β, 0). Then the arrays at each boundary of the host program.
-/
import proofs.«151859_j44744969290330_1_alg».proof.Proof.BRuns0
import proofs.«151859_j44744969290330_1_alg».proof.Proof.BRuns1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the arrays as a kernel finds them: a parameter, fixed per kernel by the host program's fold below
variable (V : (c : Dev nD) → (b : Ref sig .tc) → Buf (Elt F) ((c : Thread nD τ).loc b))

/-! ## The first kernel -/

/-- Operand w's block at block index t, read off the operand's array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three runs at block t, on the buffers the pipeline hands the body there and the operands' blocks. -/
def runA (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk0 V c 0 t) (iblk0 V c 1 t) (iblk0 V c 2 t) (iblk0 V c 3 t)
def runB (c : Dev nD) (t : Fin cfg0.N) (h0 : ¬cond0_0 (grid0.coords t)) (h1 : ¬cond0_1 (grid0.coords t)) (xs0 xs1 : Vec F S1x32 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk0 V c 0 t) (iblk0 V c 1 t) (iblk0 V c 2 t) (iblk0 V c 3 t) xs0 xs1
def runC (c : Dev nD) (t : Fin cfg0.N) (h0 : ¬cond0_0 (grid0.coords t)) (h1 : cond0_1 (grid0.coords t)) (xs0 xs1 : Vec F S1x32 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk0 V c 0 t) (iblk0 V c 1 t) (iblk0 V c 2 t) (iblk0 V c 3 t) xs0 xs1

/-- What the first block leaves: (first result's buffer, the two small results' buffers — untouched, a placeholder —, the two running rows). -/
def outA (c : Dev nD) (t : Fin cfg0.N) (h0 : cond0_0 (grid0.coords t)) (h1 : ¬cond0_1 (grid0.coords t)) : Vec F S5000x32 .f32 × Vec F S1x32 .f32 × Vec F S1x32 .f32 × Vec F S1x32 .f32 × Vec F S1x32 .f32 :=
  (VO0_4.read (Elt F) (VO0_4.writes (Elt F) VO0_4.junk (runA V c t h0 h1).1),
   VO0_5.read (Elt F) VO0_5.junk, VO0_6.read (Elt F) VO0_6.junk,
   VS0_0.read (Elt F) (VS0_0.writes (Elt F) VS0_0.junk (runA V c t h0 h1).2.1),
   VS0_1.read (Elt F) (VS0_1.writes (Elt F) VS0_1.junk (runA V c t h0 h1).2.2.1))
/-- What a middle block leaves, from the running rows it found. -/
def outB (c : Dev nD) (t : Fin cfg0.N) (h0 : ¬cond0_0 (grid0.coords t)) (h1 : ¬cond0_1 (grid0.coords t)) (xs0 xs1 : Vec F S1x32 .f32) : Vec F S5000x32 .f32 × Vec F S1x32 .f32 × Vec F S1x32 .f32 × Vec F S1x32 .f32 × Vec F S1x32 .f32 :=
  (VO0_4.read (Elt F) (VO0_4.writes (Elt F) VO0_4.junk (runB V c t h0 h1 xs0 xs1).1),
   VO0_5.read (Elt F) VO0_5.junk, VO0_6.read (Elt F) VO0_6.junk,
   VS0_0.read (Elt F) (VS0_0.writes (Elt F) VS0_0.junk (runB V c t h0 h1 xs0 xs1).2.1),
   VS0_1.read (Elt F) (VS0_1.writes (Elt F) VS0_1.junk (runB V c t h0 h1 xs0 xs1).2.2.1))
/-- What the last block leaves, from the running rows it found. -/
def outC (c : Dev nD) (t : Fin cfg0.N) (h0 : ¬cond0_0 (grid0.coords t)) (h1 : cond0_1 (grid0.coords t)) (xs0 xs1 : Vec F S1x32 .f32) : Vec F S5000x32 .f32 × Vec F S1x32 .f32 × Vec F S1x32 .f32 × Vec F S1x32 .f32 × Vec F S1x32 .f32 :=
  (VO0_4.read (Elt F) (VO0_4.writes (Elt F) VO0_4.junk (runC V c t h0 h1 xs0 xs1).1),
   VO0_5.read (Elt F) (VO0_5.writes (Elt F) VO0_5.junk (runC V c t h0 h1 xs0 xs1).2.1),
   VO0_6.read (Elt F) (VO0_6.writes (Elt F) VO0_6.junk (runC V c t h0 h1 xs0 xs1).2.2.1),
   VS0_0.read (Elt F) (VS0_0.writes (Elt F) VS0_0.junk (runC V c t h0 h1 xs0 xs1).2.2.2.1),
   VS0_1.read (Elt F) (VS0_1.writes (Elt F) VS0_1.junk (runC V c t h0 h1 xs0 xs1).2.2.2.2.1))

/-- THE ACCUMULATION: what the five buffers hold after block n, by recursion on n — the first block from nothing, every
    later block from the running rows the block before left. -/
def outsAt0 (c : Dev nD) : (n : ℕ) → n < cfg0.N → Vec F S5000x32 .f32 × Vec F S1x32 .f32 × Vec F S1x32 .f32 × Vec F S1x32 .f32 × Vec F S1x32 .f32
  | 0, hn => outA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 20 = 0 then
      False.elim (by have hN : n + 1 < 20 := lt_of_lt_of_eq hn (show cfg0.N = 20 from N_0); omega)
    else
      if h1 : (n + 1) % 20 = 19 then
        outC V c ⟨n + 1, hn⟩ (fun h => h0 ((hcond0_0 ⟨n + 1, hn⟩).mp h)) ((hcond0_1 ⟨n + 1, hn⟩).mpr h1) (outsAt0 c n (Nat.lt_of_succ_lt hn)).2.2.2.1 (outsAt0 c n (Nat.lt_of_succ_lt hn)).2.2.2.2
      else
        outB V c ⟨n + 1, hn⟩ (fun h => h0 ((hcond0_0 ⟨n + 1, hn⟩).mp h)) (fun h => h1 ((hcond0_1 ⟨n + 1, hn⟩).mp h)) (outsAt0 c n (Nat.lt_of_succ_lt hn)).2.2.2.1 (outsAt0 c n (Nat.lt_of_succ_lt hn)).2.2.2.2

theorem outsAt0_A (c : Dev nD) (t : Fin cfg0.N) (h0 : t.val % 20 = 0) (h1 : ¬t.val % 20 = 19) :
    outsAt0 V c t.val t.isLt = outA V c t ((hcond0_0 t).mpr h0) (fun h => h1 ((hcond0_1 t).mp h)) := by
  obtain ⟨n, hn⟩ := t
  cases n with
  | zero => exact rfl
  | succ n => exact (by exfalso; have hN : n + 1 < 20 := lt_of_lt_of_eq hn (show cfg0.N = 20 from N_0); (try dsimp only at h0); omega)

theorem outsAt0_B (c : Dev nD) (t : Fin cfg0.N) (h0 : ¬t.val % 20 = 0) (h1 : ¬t.val % 20 = 19) :
    outsAt0 V c t.val t.isLt = outB V c t (fun h => h0 ((hcond0_0 t).mp h)) (fun h => h1 ((hcond0_1 t).mp h))
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 20 = 0) (h1 : t.val % 20 = 19) :
    outsAt0 V c t.val t.isLt = outC V c t (fun h => h0 ((hcond0_0 t).mp h)) ((hcond0_1 t).mpr h1)
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-- What holds between blocks: before the first block every scoped buffer the pipeline does not stage is at some
    contents; after block n the two running rows are at their values after block n. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ Rest10 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ Rest10 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ Rest10 c) ∗ (∃ r, prngReg c r)) := by
  cases n with
  | zero => exact absurd rfl hz
  | succ n => rfl

/-- The first kernel's staging buffers after block t: the four operands' blocks untouched; the results' buffers at
    what the accumulation says. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS V c t.val (Nat.le_of_lt_succ t.isLt)
  q _ := fullShare
  owed _ := 0

/-! ## The second kernel -/

/-- Operand w's block at block index t, read off the operand's array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second kernel's staging buffers after block t: the six operands' blocks untouched, the result's buffer at the block's value. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outv1 (iblk1 V c 0 t) (iblk1 V c 1 t) (iblk1 V c 2 t) (iblk1 V c 3 t) (iblk1 V c 4 t) (iblk1 V c 5 t)
  Φ _ := Pipeline.ΦA spec1 c
  q _ := fullShare
  owed _ := 0

end Regions

/-! ## The arrays at each boundary of the host program -/

variable (m : (ℓ : Loc nD τ sig) → Buf (Elt F) ℓ)

/-- At launch. -/
abbrev W0 : Dev nD → Valuation τ sig (Elt F) := fun c b => m (c, b)
/-- After the host operations before the first kernel (the gather, the scatter-add, the bias as a row). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first kernel: its three results at what its write-backs leave, everything else as before. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the host operations between the kernels (the mean and the variance rows from the two sums). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second kernel: its result at what its write-backs leave. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

end Cert.Kernel.Hand

end
-- ==== Proof.BBody0.lean ====
/-
  The first kernel's body meets the pipeline's obligation at every block. At block t the body is handed the four
  operands' blocks, the three results' buffers and — through the invariant — the two running rows as the block before
  left them (anything, at the first block). Which of the three runs applies is decided by the block index; each run's
  stores cover the buffers they are made into, so what is read back afterwards is what the accumulation says.
-/
import proofs.«151859_j44744969290330_1_alg».proof.Proof.BData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The stores of each run cover their buffers -/

theorem coverA_4 (c : Dev nD) (t : Fin cfg0.N) (h0) (h1) (y : S5000x32.Idx) : ∃ pc ∈ (runA V c t h0 h1).1, y ∈ pc.1.set :=
  View.cover_of_tiledL (runA V c t h0 h1).1 S5000x32.size (by unfold runA; sl_kernel_rfl) y
theorem coverA_s0 (c : Dev nD) (t : Fin cfg0.N) (h0) (h1) (y : S1x32.Idx) : ∃ pc ∈ (runA V c t h0 h1).2.1, y ∈ pc.1.set :=
  View.cover_of_tiledL (runA V c t h0 h1).2.1 S1x32.size (by unfold runA; sl_kernel_rfl) y
theorem coverA_s1 (c : Dev nD) (t : Fin cfg0.N) (h0) (h1) (y : S1x32.Idx) : ∃ pc ∈ (runA V c t h0 h1).2.2.1, y ∈ pc.1.set :=
  View.cover_of_tiledL (runA V c t h0 h1).2.2.1 S1x32.size (by unfold runA; sl_kernel_rfl) y
theorem coverB_4 (c : Dev nD) (t : Fin cfg0.N) (h0) (h1) (xs0 xs1) (y : S5000x32.Idx) : ∃ pc ∈ (runB V c t h0 h1 xs0 xs1).1, y ∈ pc.1.set :=
  View.cover_of_tiledL (runB V c t h0 h1 xs0 xs1).1 S5000x32.size (by unfold runB; sl_kernel_rfl) y
theorem coverB_s0 (c : Dev nD) (t : Fin cfg0.N) (h0) (h1) (xs0 xs1) (y : S1x32.Idx) : ∃ pc ∈ (runB V c t h0 h1 xs0 xs1).2.1, y ∈ pc.1.set :=
  View.cover_of_tiledL (runB V c t h0 h1 xs0 xs1).2.1 S1x32.size (by unfold runB; sl_kernel_rfl) y
theorem coverB_s1 (c : Dev nD) (t : Fin cfg0.N) (h0) (h1) (xs0 xs1) (y : S1x32.Idx) : ∃ pc ∈ (runB V c t h0 h1 xs0 xs1).2.2.1, y ∈ pc.1.set :=
  View.cover_of_tiledL (runB V c t h0 h1 xs0 xs1).2.2.1 S1x32.size (by unfold runB; sl_kernel_rfl) y
theorem coverC_4 (c : Dev nD) (t : Fin cfg0.N) (h0) (h1) (xs0 xs1) (y : S5000x32.Idx) : ∃ pc ∈ (runC V c t h0 h1 xs0 xs1).1, y ∈ pc.1.set :=
  View.cover_of_tiledL (runC V c t h0 h1 xs0 xs1).1 S5000x32.size (by unfold runC; sl_kernel_rfl) y
theorem coverC_5 (c : Dev nD) (t : Fin cfg0.N) (h0) (h1) (xs0 xs1) (y : S1x32.Idx) : ∃ pc ∈ (runC V c t h0 h1 xs0 xs1).2.1, y ∈ pc.1.set :=
  View.cover_of_tiledL (runC V c t h0 h1 xs0 xs1).2.1 S1x32.size (by unfold runC; sl_kernel_rfl) y
theorem coverC_6 (c : Dev nD) (t : Fin cfg0.N) (h0) (h1) (xs0 xs1) (y : S1x32.Idx) : ∃ pc ∈ (runC V c t h0 h1 xs0 xs1).2.2.1, y ∈ pc.1.set :=
  View.cover_of_tiledL (runC V c t h0 h1 xs0 xs1).2.2.1 S1x32.size (by unfold runC; sl_kernel_rfl) y
theorem coverC_s0 (c : Dev nD) (t : Fin cfg0.N) (h0) (h1) (xs0 xs1) (y : S1x32.Idx) : ∃ pc ∈ (runC V c t h0 h1 xs0 xs1).2.2.2.1, y ∈ pc.1.set :=
  View.cover_of_tiledL (runC V c t h0 h1 xs0 xs1).2.2.2.1 S1x32.size (by unfold runC; sl_kernel_rfl) y
theorem coverC_s1 (c : Dev nD) (t : Fin cfg0.N) (h0) (h1) (xs0 xs1) (y : S1x32.Idx) : ∃ pc ∈ (runC V c t h0 h1 xs0 xs1).2.2.2.2.1, y ∈ pc.1.set :=
  View.cover_of_tiledL (runC V c t h0 h1 xs0 xs1).2.2.2.2.1 S1x32.size (by unfold runC; sl_kernel_rfl) y

/-! ## The proof data, projected -/

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

/-- Each operand's current buffer holds its block at every block index, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The obligation at a block -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 20 = 0
  · have h1 : ¬t.val % 20 = 19 := by omega
    have hz : t.val = 0 := by omega
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [outsAt0_A V c t h0 h1]
    unfold outA; (try dsimp only)
    rw [PhiS_castSucc V c t, PhiS_zero V c _ _ hz, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runA V c t ((hcond0_0 t).mpr h0) (fun h => h1 ((hcond0_1 t).mp h))).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (coverA_s0 V c t _ _)
        isplitl [HS1]
        · unfold owns; iexists _; isplitr
          swap; · iexact HS1
          ipureintro; exact View.read_writes_of_cover _ _ _ _ _ (coverA_s1 V c t _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA_4 V c t _ _)
    isplitl [H5]; · iexists _; iexact H5
    iexists _; iexact H6
  · have hz : t.val ≠ 0 := by omega
    by_cases h1 : t.val % 20 = 19
    · rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold outC; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runC V c t (fun h => h0 ((hcond0_0 t).mp h)) ((hcond0_1 t).mpr h1) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (coverC_s0 V c t _ _ _ _)
          isplitl [HS1]
          · unfold owns; iexists _; isplitr
            swap; · iexact HS1
            ipureintro; exact View.read_writes_of_cover _ _ _ _ _ (coverC_s1 V c t _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 V c t _ _ _ _)
      isplitl [H5]
      · unfold owns; iexists _; isplitr
        swap; · iexact H5
        ipureintro; exact View.read_writes_of_cover _ _ _ _ _ (coverC_5 V c t _ _ _ _)
      unfold owns; iexists _; isplitr
      swap; · iexact H6
      ipureintro; exact View.read_writes_of_cover _ _ _ _ _ (coverC_6 V c t _ _ _ _)
    · rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [outsAt0_B V c t h0 h1]
      unfold outB; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB V c t (fun h => h0 ((hcond0_0 t).mp h)) (fun h => h1 ((hcond0_1 t).mp h)) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (coverB_s0 V c t _ _ _ _)
          isplitl [HS1]
          · unfold owns; iexists _; isplitr
            swap; · iexact HS1
            ipureintro; exact View.read_writes_of_cover _ _ _ _ _ (coverB_s1 V c t _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB_4 V c t _ _ _ _)
      isplitl [H5]; · iexists _; iexact H5
      iexists _; iexact H6

/-- The pipeline's obligation, at every block. -/
theorem body_obligation0 (c : Dev nD) : BodyObligation (dat0 (F := F) V c) (defs₀ (F := F)) Variants.none () Set.univ := fun t => by
  rw [bigSep_W0, bigSep_W0]
  exact sound_body0 V c t

/-- What the launch hands the kernel is what holds before the first block. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last block the running rows' values are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 20 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Regions

end Cert.Kernel.Hand

end
-- ==== Proof.BBody1.lean ====
/-
  The second kernel's body meets the pipeline's obligation at every block: its six operands' buffers hold their
  blocks, it stores the block's value into the result's buffer, and it touches nothing else.
-/
import proofs.«151859_j44744969290330_1_alg».proof.Proof.BData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outv1 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.BRun.lean ====
/-
  The host program's run. @main is four segments: the host operations before the first kernel, the first kernel, the
  host operations between the kernels, the second kernel. Between segments the core holds every unscoped buffer at
  the boundary's contents (W0 … W4), its generator register at some state, and owes nothing. Each kernel's segment
  splits its operand and result arrays out of the unscoped buffers, runs the pipeline on the kernel's proof data, and
  puts the arrays back at what the pipeline leaves. The run ends with every unscoped buffer at W4: the eight
  argument arrays are there as launched (no host operation writes one, no kernel stores into one), and the result is
  what the second kernel's write-backs leave.
-/
import proofs.«151859_j44744969290330_1_alg».proof.Proof.BBody0
import proofs.«151859_j44744969290330_1_alg».proof.Proof.BBody1
import proofs.«151859_j44744969290330_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each kernel's arrays at its exit; everything else untouched -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 1).trans (((dat1 (V3 m) c).arrAt_in 1 rfl _).trans (A_eq1 (V3 m) c 1))
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl

/-- The result's array at the end is what the second kernel's write-backs leave. -/
theorem W4_main_v24 (c : Dev nD) : W4 m c (Proc.devRef .tc main_v24) = (dat1 (V3 m) c).arrAt 6 cfg1.N := W4_arr m c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The kernels as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = (dat0 (V1 m) c).Φ (Fin.last cfg0.N) from rfl]
    have h := hout0 (V1 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution of @main terminates, faulting nowhere, with every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c)⟩) (run_main m ρ)

/-- The run with the result named: the result's array ends at what the second kernel's write-backs leave, the arguments as launched. -/
theorem run_value : θ_run defs (onTc (τ := τ) (main (F := F))) ⟨m, fun _ => 0, ρ⟩ (fun r => ∀ c : Dev nD,
      r.2.mem ((c.tc : Thread nD τ).loc main_v24) = (dat1 (V3 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v24 (by decide))).trans (W4_main_v24 m c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c)⟩) (run_main m ρ)

end Cert.Kernel.Hand

end
-- ==== Proof.RefRun.lean ====
/- The reference program's run: @main as one list of host operations (the outlined
   functions' operations listed at their call sites), the composed value of its result as a function
   of the eight arguments, and the run: every weakly fair execution terminates with the result buffer
   at that value and the arguments unchanged. -/
import proofs.«151859_j44744969290330_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 67 operations in order: its own 42 and, at the two call sites, the variance function's 19 with the
    select function's 3 inside it, and the rectifier's 3. -/
abbrev ops : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg6 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v2 (broadcastInDim S1600000 ![] bcast_S_S1600000 : (⟨S_, .i32⟩ : BufTy).Contents (Elt F) → (⟨S1600000, .i32⟩ : BufTy).Contents (Elt F)),
    binary main_arg6 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg6 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst (constant S_ .f32 0x00000000#32),
    unary main_cst main_v7 (broadcastInDim S100000x32 ![] bcast_S_S100000x32 : (⟨S_, .f32⟩ : BufTy).Contents (Elt F) → (⟨S100000x32, .f32⟩ : BufTy).Contents (Elt F)),
    unary main_arg7 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    binary main_v9 main_arg2 main_v10 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_arg3 main_v11 (broadcastInDim S1x32 ![1] bcast_S32_S1x32_1 : (⟨S32, .f32⟩ : BufTy).Contents (Elt F) → (⟨S1x32, .f32⟩ : BufTy).Contents (Elt F)),
    unary main_v11 main_v12 (broadcastInDim S100000x32 ![0, 1] bcast_S1x32_S100000x32_0_1 : (⟨S1x32, .f32⟩ : BufTy).Contents (Elt F) → (⟨S100000x32, .f32⟩ : BufTy).Contents (Elt F)),
    binary main_v10 main_v12 main_v13 (addf : (⟨S100000x32, .f32⟩ : BufTy).Contents (Elt F) → (⟨S100000x32, .f32⟩ : BufTy).Contents (Elt F) → (⟨S100000x32, .f32⟩ : BufTy).Contents (Elt F)),
    unary main_arg1 main_v14 (broadcastInDim S100000x32 ![0, 1] bcast_S100000x1_S100000x32_0_1 : (⟨S100000x1, .f32⟩ : BufTy).Contents (Elt F) → (⟨S100000x32, .f32⟩ : BufTy).Contents (Elt F)),
    binary main_v13 main_v14 main_v15 (mulf : (⟨S100000x32, .f32⟩ : BufTy).Contents (Elt F) → (⟨S100000x32, .f32⟩ : BufTy).Contents (Elt F) → (⟨S100000x32, .f32⟩ : BufTy).Contents (Elt F)),
    nullary main_cst_1 (constant S_ .f32 0x00000000#32),
    binary main_v15 main_cst_1 main_v16 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    nullary main_cst_2 (constant S_ .f32 0x47C35000#32),
    unary main_cst_2 main_v17 (broadcastInDim S32 ![] bcast_S_S32 : (⟨S_, .f32⟩ : BufTy).Contents (Elt F) → (⟨S32, .f32⟩ : BufTy).Contents (Elt F)),
    binary main_v16 main_v17 main_v18 (Host.divf : (⟨S32, .f32⟩ : BufTy).Contents (Elt F) → (⟨S32, .f32⟩ : BufTy).Contents (Elt F) → (⟨S32, .f32⟩ : BufTy).Contents (Elt F)),
    nullary main_c_3 (constantI S_ 32 0#32),
    TRef.nullary main_call0.cst (constant S_ .f32 0x00000000#32),
    TRef.binary (.of main_v15 : TRef sig ⟨S100000x32, .f32⟩) main_call0.cst main_call0.v0 (fun x v => Host.reduceAdd x v reducesTo_S100000x32_S32_d0 h_S_),
    TRef.unary main_call0.v0 main_call0.v1 (broadcastInDim S1x32 ![1] bcast_S32_S1x32_1),
    TRef.nullary main_call0.cst_0 (constant S_ .f32 0x47C35000#32),
    TRef.unary main_call0.cst_0 main_call0.v2 (broadcastInDim S1x32 ![] bcast_S_S1x32),
    TRef.binary main_call0.v1 main_call0.v2 main_call0.v3 Host.divf,
    TRef.unary main_call0.v3 main_call0.v4 (broadcastInDim S100000x32 ![0, 1] bcast_S1x32_S100000x32_0_1),
    TRef.binary (.of main_v15 : TRef sig ⟨S100000x32, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x32_S32_d0 h_S_),
    TRef.unary main_call0.v8 main_call0.v10 (broadcastInDim S32 ![] bcast_S_S32),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S32 ![] bcast_S_S32),
    TRef.ternary main_call0.v12 main_call0.v11 main_call0.call0.v1 main_call0.call0.v2 (fun p a b => select (broadcastInDim S32 ![] bcast_S_S32 p) a b),
    unary main_v18 main_v20 (broadcastInDim S1x32 ![1] bcast_S32_S1x32_1 : (⟨S32, .f32⟩ : BufTy).Contents (Elt F) → (⟨S1x32, .f32⟩ : BufTy).Contents (Elt F)),
    unary main_v20 main_v21 (broadcastInDim S100000x32 ![0, 1] bcast_S1x32_S100000x32_0_1 : (⟨S1x32, .f32⟩ : BufTy).Contents (Elt F) → (⟨S100000x32, .f32⟩ : BufTy).Contents (Elt F)),
    binary main_v15 main_v21 main_v22 (subf : (⟨S100000x32, .f32⟩ : BufTy).Contents (Elt F) → (⟨S100000x32, .f32⟩ : BufTy).Contents (Elt F) → (⟨S100000x32, .f32⟩ : BufTy).Contents (Elt F)),
    nullary main_cst_4 (constant S_ .f32 0x3727C5AC#32),
    unary main_cst_4 main_v23 (broadcastInDim S32 ![] bcast_S_S32 : (⟨S_, .f32⟩ : BufTy).Contents (Elt F) → (⟨S32, .f32⟩ : BufTy).Contents (Elt F)),
    binary main_v19 main_v23 main_v24 (addf : (⟨S32, .f32⟩ : BufTy).Contents (Elt F) → (⟨S32, .f32⟩ : BufTy).Contents (Elt F) → (⟨S32, .f32⟩ : BufTy).Contents (Elt F)),
    unary main_v24 main_v25 (Host.rsqrt : (⟨S32, .f32⟩ : BufTy).Contents (Elt F) → (⟨S32, .f32⟩ : BufTy).Contents (Elt F)),
    unary main_v25 main_v26 (broadcastInDim S1x32 ![1] bcast_S32_S1x32_1 : (⟨S32, .f32⟩ : BufTy).Contents (Elt F) → (⟨S1x32, .f32⟩ : BufTy).Contents (Elt F)),
    unary main_v26 main_v27 (broadcastInDim S100000x32 ![0, 1] bcast_S1x32_S100000x32_0_1 : (⟨S1x32, .f32⟩ : BufTy).Contents (Elt F) → (⟨S100000x32, .f32⟩ : BufTy).Contents (Elt F)),
    binary main_v22 main_v27 main_v28 (mulf : (⟨S100000x32, .f32⟩ : BufTy).Contents (Elt F) → (⟨S100000x32, .f32⟩ : BufTy).Contents (Elt F) → (⟨S100000x32, .f32⟩ : BufTy).Contents (Elt F)),
    unary main_arg4 main_v29 (broadcastInDim S1x32 ![1] bcast_S32_S1x32_1 : (⟨S32, .f32⟩ : BufTy).Contents (Elt F) → (⟨S1x32, .f32⟩ : BufTy).Contents (Elt F)),
    unary main_v29 main_v30 (broadcastInDim S100000x32 ![0, 1] bcast_S1x32_S100000x32_0_1 : (⟨S1x32, .f32⟩ : BufTy).Contents (Elt F) → (⟨S100000x32, .f32⟩ : BufTy).Contents (Elt F)),
    binary main_v28 main_v30 main_v31 (mulf : (⟨S100000x32, .f32⟩ : BufTy).Contents (Elt F) → (⟨S100000x32, .f32⟩ : BufTy).Contents (Elt F) → (⟨S100000x32, .f32⟩ : BufTy).Contents (Elt F)),
    unary main_arg5 main_v32 (broadcastInDim S1x32 ![1] bcast_S32_S1x32_1 : (⟨S32, .f32⟩ : BufTy).Contents (Elt F) → (⟨S1x32, .f32⟩ : BufTy).Contents (Elt F)),
    unary main_v32 main_v33 (broadcastInDim S100000x32 ![0, 1] bcast_S1x32_S100000x32_0_1 : (⟨S1x32, .f32⟩ : BufTy).Contents (Elt F) → (⟨S100000x32, .f32⟩ : BufTy).Contents (Elt F)),
    binary main_v31 main_v33 main_v34 (addf : (⟨S100000x32, .f32⟩ : BufTy).Contents (Elt F) → (⟨S100000x32, .f32⟩ : BufTy).Contents (Elt F) → (⟨S100000x32, .f32⟩ : BufTy).Contents (Elt F)),
    TRef.nullary main_call1.cst (constant S_ .f32 0x00000000#32),
    TRef.unary main_call1.cst main_call1.v0 (broadcastInDim S100000x32 ![] bcast_S_S100000x32),
    TRef.binary (.of main_v34 : TRef sig ⟨S100000x32, .f32⟩) main_call1.v0 main_call1.v1 maximumf,
    binary main_arg0 main_v35 main_v36 (addf : (⟨S100000x32, .f32⟩ : BufTy).Contents (Elt F) → (⟨S100000x32, .f32⟩ : BufTy).Contents (Elt F) → (⟨S100000x32, .f32⟩ : BufTy).Contents (Elt F)) ]

set_option maxRecDepth 8192 in
/-- @main is that straight line: the functions unfold at their calls and sequencing reassociates, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub ..⟩

/-! ## The value -/

/-- The aggregation: the rows of `a0` gathered at the (wrapped) source indices `a6`, summed into the rows
    named by the destination indices `a7`, from zero. -/
def hagg (a0 : (⟨S100000x32, .f32⟩ : BufTy).Contents (Elt F)) (a6 a7 : (⟨S1600000, .i32⟩ : BufTy).Contents (Elt F)) : (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 a7)
    (Host.gather gather_S100000x32_S1600000x1_S1600000x32_1_0_n_n_0_1_132 a0
      (broadcastInDim S1600000x1 ![0] bcast_S1600000_S1600000x1_0
        (select (cmpi .slt a6 (broadcastInDim S1600000 ![] bcast_S_S1600000 (constantI S_ 32 0#32)))
          (addi a6 (broadcastInDim S1600000 ![] bcast_S_S1600000 (constantI S_ 32 100000#32))) a6)))

/-- The dense layer on the aggregate, masked: `(H · a2 + a3) * a1`. -/
def hpre (H : (⟨S100000x32, .f32⟩ : BufTy).Contents (Elt F)) (a1 : (⟨S100000x1, .f32⟩ : BufTy).Contents (Elt F)) (a2 : (⟨S32x32, .f32⟩ : BufTy).Contents (Elt F)) (a3 : (⟨S32, .f32⟩ : BufTy).Contents (Elt F)) :
    (⟨S100000x32, .f32⟩ : BufTy).Contents (Elt F) :=
  mulf (addf (Host.dotGeneral dot_S100000x32_S32x32_S100000x32_1_0_0_1_n_n none H a2)
      (broadcastInDim S100000x32 ![0, 1] bcast_S1x32_S100000x32_0_1 (broadcastInDim S1x32 ![1] bcast_S32_S1x32_1 a3)))
    (broadcastInDim S100000x32 ![0, 1] bcast_S100000x1_S100000x32_0_1 a1)

/-- The column means: the column sums over 100000. -/
def cmean (X : (⟨S100000x32, .f32⟩ : BufTy).Contents (Elt F)) : (⟨S32, .f32⟩ : BufTy).Contents (Elt F) :=
  Host.divf (Host.reduceAdd X (constant S_ .f32 0x00000000#32) reducesTo_S100000x32_S32_d0 h_S_)
    (broadcastInDim S32 ![] bcast_S_S32 (constant S_ .f32 0x47C35000#32))

/-- The deviations the variance squares: `X` minus its column means (computed with the sum kept as a row). -/
def cdev (X : (⟨S100000x32, .f32⟩ : BufTy).Contents (Elt F)) : (⟨S100000x32, .f32⟩ : BufTy).Contents (Elt F) :=
  subf X (broadcastInDim S100000x32 ![0, 1] bcast_S1x32_S100000x32_0_1
    (Host.divf (broadcastInDim S1x32 ![1] bcast_S32_S1x32_1
        (Host.reduceAdd X (constant S_ .f32 0x00000000#32) reducesTo_S100000x32_S32_d0 h_S_))
      (broadcastInDim S1x32 ![] bcast_S_S1x32 (constant S_ .f32 0x47C35000#32))))

/-- The count the variance divides by: 100000 minus the (zero) degrees of freedom. -/
def ccount : (⟨S_, .f32⟩ : BufTy).Contents (Elt F) :=
  subf (constant S_ .f32 0x47C35000#32) (sitofp .f32 (constantI S_ 32 0#32 : (⟨S_, .i32⟩ : BufTy).Contents (Elt F)))

/-- The column variances: the sums of squared deviations over the count where the count is positive, not-a-number elsewhere. -/
def cvar (X : (⟨S100000x32, .f32⟩ : BufTy).Contents (Elt F)) : (⟨S32, .f32⟩ : BufTy).Contents (Elt F) :=
  select (broadcastInDim S32 ![] bcast_S_S32 (cmpf .ogt (ccount (F := F)) (constant S_ .f32 0x00000000#32)))
    (Host.divf (Host.reduceAdd (mulf (cdev X) (cdev X)) (constant S_ .f32 0x00000000#32) reducesTo_S100000x32_S32_d0 h_S_)
      (broadcastInDim S32 ![] bcast_S_S32 (ccount (F := F))))
    (broadcastInDim S32 ![] bcast_S_S32 (constant S_ .f32 0x7FC00000#32))

/-- The tail on the masked dense layer `X`: normalize by column, scale by `a4`, shift by `a5`, rectify, add `a0`. -/
def htail (a0 X : (⟨S100000x32, .f32⟩ : BufTy).Contents (Elt F)) (a4 a5 : (⟨S32, .f32⟩ : BufTy).Contents (Elt F)) : (⟨S100000x32, .f32⟩ : BufTy).Contents (Elt F) :=
  addf a0 (maximumf
    (addf (mulf (mulf
          (subf X (broadcastInDim S100000x32 ![0, 1] bcast_S1x32_S100000x32_0_1 (broadcastInDim S1x32 ![1] bcast_S32_S1x32_1 (cmean X))))
          (broadcastInDim S100000x32 ![0, 1] bcast_S1x32_S100000x32_0_1 (broadcastInDim S1x32 ![1] bcast_S32_S1x32_1
            (Host.rsqrt (addf (cvar X) (broadcastInDim S32 ![] bcast_S_S32 (constant S_ .f32 0x3727C5AC#32)))))))
        (broadcastInDim S100000x32 ![0, 1] bcast_S1x32_S100000x32_0_1 (broadcastInDim S1x32 ![1] bcast_S32_S1x32_1 a4)))
      (broadcastInDim S100000x32 ![0, 1] bcast_S1x32_S100000x32_0_1 (broadcastInDim S1x32 ![1] bcast_S32_S1x32_1 a5)))
    (broadcastInDim S100000x32 ![] bcast_S_S100000x32 (constant S_ .f32 0x00000000#32)))

/-- The reference's result as a function of its eight arguments. -/
def refOut (a0 : (⟨S100000x32, .f32⟩ : BufTy).Contents (Elt F)) (a1 : (⟨S100000x1, .f32⟩ : BufTy).Contents (Elt F)) (a2 : (⟨S32x32, .f32⟩ : BufTy).Contents (Elt F))
    (a3 a4 a5 : (⟨S32, .f32⟩ : BufTy).Contents (Elt F)) (a6 a7 : (⟨S1600000, .i32⟩ : BufTy).Contents (Elt F)) : (⟨S100000x32, .f32⟩ : BufTy).Contents (Elt F) :=
  htail a0 (hpre (hagg a0 a6 a7) a1 a2 a3) a4 a5

/-! ## The run -/

attribute [local irreducible] Host.reduceAdd Host.gather Host.scatterAdd in
set_option maxRecDepth 8192 in
/-- The fold at the result buffer is `refOut` of the arguments' contents: each operation's result read at its own
    buffer, every other buffer left as it was. -/
theorem out_eq (V : Valuation τ sig (Elt F)) :
    after ops V (main_v36 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp

/-- On every device, for any float values, from any memory with zero counters: every weakly fair execution of
    @main terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v36).trans (out_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _), (h c main_arg7).trans (arg7_eq _)⟩)
    (run_seq scopedRefs_eq scopedSems_eq defs main (fun _ => ops) main_eq (fun _ => ops_sub) m ρ)

/-- The frame claim's body: the run, keeping only that the arguments end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => (h c).2) (run m ρ)

end Cert.ReferenceIdeal.RefRun

end
-- ==== Proof.Frames.lean ====
/-
  The three frame claims and the idealization claim. Each program runs to the end, faults nowhere, and leaves its eight
  argument arrays as launched: for the two kernel programs this is the host program's run read at the argument arrays
  (no host operation writes one, and the kernels store only into their own results); for the reference, a host
  program with no kernel, it is its run with the result dropped. The idealized kernel program is the kernel program's
  own text read over the extended reals: nothing was rewritten, so there is nothing to preserve.
-/
import proofs.«151859_j44744969290330_1_alg».proof.Defs
import proofs.«151859_j44744969290330_1_alg».proof.Proof.Gen.Kernel
import proofs.«151859_j44744969290330_1_alg».proof.Proof.Gen.KernelIdeal
import proofs.«151859_j44744969290330_1_alg».proof.Proof.Gen.ReferenceIdeal
import proofs.«151859_j44744969290330_1_alg».proof.Proof.Gen.Pre_finite_inputs
import proofs.«151859_j44744969290330_1_alg».proof.Proof.KRun
import proofs.«151859_j44744969290330_1_alg».proof.Proof.BRun
import proofs.«151859_j44744969290330_1_alg».proof.Proof.RefRun

noncomputable section

namespace Cert.Proof.Frames

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m g _ => Cert.ReferenceIdeal.RefRun.frame m g
theorem preserves : Cert.preserves_Kernel_KernelIdeal := trivial

end Cert.Proof.Frames

end
-- ==== Proof.Spec.lean ====
/-
  The index-level specification of the normalised, aggregated layer, over plain functions on
  the extended reals: no program and no array here.

  For node features aggregated into `H` (100000 rows of 32), a weight matrix `Wm`, a bias `b`,
  a per-row scale `sn`, a scale `γ` and shift `β` per column, and the residual input `x`:

    hp p q     = (∑ k, H p k · Wm k q + b q) · sn p          the scaled affine layer
    mean q     = (∑ p, hp p q) / n                           the column mean, n = 100000
    varRef q   = (∑ p, (hp p q − mean q)²) / n               the variance as the mean squared deviation
    varKer q   = (∑ p, hp p q²) / n − mean q²                the variance as mean square minus squared mean
    out v p q  = x p q + max (((hp p q − mean q) · rsqrt (v q + ε)) · γ q + β q) 0

  The two variances are equal when every entry of `hp` is finite (Proof/SpecAlgebra.lean); at an
  infinite entry they need not be. The literals `n` and `ε` stay the bit patterns the programs
  carry; `nLit_eq` evaluates the first.
-/
import Idealize.ShloMosaic.PureOps.Ideal
import Idealize.ShloMosaic.PureOps.Ideal.Laws

noncomputable section

namespace Cert.Bridge.Spec

open Idealize.ShloMosaic
open scoped BigOperators

/-- The row count `100000.0` as the programs write it. -/
def nLit : EReal := Ideal.ofBits .f32 0x47C35000#32

/-- The stabiliser `ε ≈ 1e-5` as the programs write it. -/
def epsLit : EReal := Ideal.ofBits .f32 0x3727C5AC#32

section
variable (H : Fin 100000 → Fin 32 → EReal) (Wm : Fin 32 → Fin 32 → EReal) (b : Fin 32 → EReal)
  (sn : Fin 100000 → EReal)

/-- The scaled affine layer at row `p`, column `q`. -/
def hp (p : Fin 100000) (q : Fin 32) : EReal := (∑ k : Fin 32, H p k * Wm k q + b q) * sn p

/-- The column mean. -/
def mean (q : Fin 32) : EReal := Ideal.div (∑ p : Fin 100000, hp H Wm b sn p q) nLit

/-- The variance as the mean of the squared deviations. -/
def varRef (q : Fin 32) : EReal :=
  Ideal.div (∑ p : Fin 100000, (hp H Wm b sn p q - mean H Wm b sn q) * (hp H Wm b sn p q - mean H Wm b sn q)) nLit

/-- The variance as the mean of the squares minus the square of the mean. -/
def varKer (q : Fin 32) : EReal :=
  Ideal.div (∑ p : Fin 100000, hp H Wm b sn p q * hp H Wm b sn p q) nLit - mean H Wm b sn q * mean H Wm b sn q

/-- The output for a given variance row `v`: normalise, scale, shift, clamp at zero, add the residual. -/
def out (γ β : Fin 32 → EReal) (x : Fin 100000 → Fin 32 → EReal) (v : Fin 32 → EReal)
    (p : Fin 100000) (q : Fin 32) : EReal :=
  x p q + max (((hp H Wm b sn p q - mean H Wm b sn q) * Ideal.rsqrt (v q + epsLit)) * γ q + β q) 0

end

end Cert.Bridge.Spec

end
-- ==== Proof.SpecAlgebra.lean ====
/-
  The algebra behind the specification (Proof/Spec.lean): on finite data the two ways of writing
  the variance agree.

  With `n = 100000` rows, `m = (∑ p, g p) / n` and every `g p` real,

      (∑ p, (g p − m)²) / n  =  (∑ p, g p²) / n − m²

  because `∑ p, (g p − m)² = ∑ p, g p² − 2 m ∑ p, g p + n m²` and `∑ p, g p = n m`. On the extended
  reals the identity fails at an infinite entry (the left side is then `⊤` or junk, the right side
  `⊤ − ⊤`), so finiteness of every input entry is used: it makes every `hp p q` the coercion of a
  real, the sums coercions of real sums, and the divisions by the literal `n` real divisions.

  Also here: the literal `n` evaluated, the two corner facts a reference's `n − 0` and its
  `n − 0 > 0` guard need, and the regrouping of a sum over 100000 rows as 20 blocks of 5000.
-/
import proofs.«151859_j44744969290330_1_alg».proof.Proof.Spec
import Mathlib.Tactic.Ring
import Mathlib.Tactic.FieldSimp
import Mathlib.Tactic.NormNum
import Mathlib.Tactic.Linarith
import Mathlib.Algebra.BigOperators.Fin
import Mathlib.Algebra.BigOperators.Ring.Finset
import Mathlib.Logic.Equiv.Fin.Basic

noncomputable section

namespace Cert.Bridge.SpecAlgebra

open Idealize.ShloMosaic Cert.Bridge.Spec
open scoped BigOperators

/-! ## The literal -/

/-- The pattern `0x47C35000` is `100000`: exponent `143`, significand `2^23 + 4411392`, so
    `12800000 · 2^(-7)`. -/
theorem nLit_eq : nLit = ((100000 : ℝ) : EReal) := by
  unfold nLit
  simp [Ideal.ofBits, Ideal.ieee, -EReal.coe_mul]
  norm_num

theorem nLit_ne_zero : nLit ≠ 0 := by
  rw [nLit_eq]; exact_mod_cast (by norm_num : (100000 : ℝ) ≠ 0)

/-- The reference's divisor `n − (float) 0` is `n`. -/
theorem nLit_sub_sitofp_zero : nLit - ((((0#32 : BitVec 32).toInt : ℝ)) : EReal) = nLit := by
  simp

/-- The reference's guard `n > 0` holds. -/
theorem cmp_ogt_nLit_zero : Ideal.cmp .ogt nLit 0 = 1#1 := by
  have h : (0 : EReal) < nLit := by
    rw [nLit_eq]; exact_mod_cast (by norm_num : (0 : ℝ) < 100000)
  simp [Ideal.cmp, h]

/-- Division of a real by the literal `n` is the real quotient. -/
theorem div_coe_nLit (a : ℝ) : Ideal.div (a : EReal) nLit = ((a / 100000 : ℝ) : EReal) := by
  rw [nLit_eq, Ideal.div_coe (by norm_num : (100000 : ℝ) ≠ 0), ← EReal.coe_mul]
  congr 1; ring

/-! ## Coercion of a finite sum -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The identity over the reals -/

theorem real_var_identity (g : Fin 100000 → ℝ) :
    (∑ p, (g p - (∑ p, g p) / 100000) * (g p - (∑ p, g p) / 100000)) / 100000
      = (∑ p, g p * g p) / 100000 - ((∑ p, g p) / 100000) * ((∑ p, g p) / 100000) := by
  set S := ∑ p, g p with hS
  have h1 : ∑ p, (g p - S / 100000) * (g p - S / 100000)
      = ∑ p, g p * g p - 2 * (S / 100000) * S + 100000 * ((S / 100000) * (S / 100000)) := by
    have : ∀ p, (g p - S / 100000) * (g p - S / 100000)
        = g p * g p - 2 * (S / 100000) * g p + (S / 100000) * (S / 100000) := fun p => by ring
    simp only [this]
    rw [Finset.sum_add_distrib, Finset.sum_sub_distrib, ← Finset.mul_sum, Finset.sum_const,
      Finset.card_univ, Fintype.card_fin, nsmul_eq_mul, ← hS]
    norm_num
  rw [h1]
  field_simp
  ring

/-! ## Finiteness of the layer, and the two variances -/

section
variable (H : Fin 100000 → Fin 32 → EReal) (Wm : Fin 32 → Fin 32 → EReal) (b : Fin 32 → EReal)
  (sn : Fin 100000 → EReal)

/-- With real inputs the layer is real at every index. -/
theorem hp_real (hH : ∀ p k, ∃ r : ℝ, H p k = r) (hW : ∀ k q, ∃ r : ℝ, Wm k q = r)
    (hb : ∀ q, ∃ r : ℝ, b q = r) (hs : ∀ p, ∃ r : ℝ, sn p = r) :
    ∃ g : Fin 100000 → Fin 32 → ℝ, ∀ p q, hp H Wm b sn p q = (g p q : EReal) := by
  choose Hr hHr using hH
  choose Wr hWr using hW
  choose br hbr using hb
  choose sr hsr using hs
  refine ⟨fun p q => (∑ k, Hr p k * Wr k q + br q) * sr p, fun p q => ?_⟩
  unfold hp
  simp only [hHr, hWr, hbr, hsr]
  rw [EReal.coe_mul, EReal.coe_add, coe_sum]
  simp only [EReal.coe_mul]

/-- On finite inputs the mean squared deviation is the mean square minus the squared mean. -/
theorem varRef_eq_varKer (hH : ∀ p k, ∃ r : ℝ, H p k = r) (hW : ∀ k q, ∃ r : ℝ, Wm k q = r)
    (hb : ∀ q, ∃ r : ℝ, b q = r) (hs : ∀ p, ∃ r : ℝ, sn p = r) :
    varRef H Wm b sn = varKer H Wm b sn := by
  obtain ⟨g, hg⟩ := hp_real H Wm b sn hH hW hb hs
  funext q
  have hm : mean H Wm b sn q = (((∑ p, g p q) / 100000 : ℝ) : EReal) := by
    unfold mean
    simp only [hg]
    rw [← coe_sum, div_coe_nLit]
  unfold varRef varKer
  rw [hm]
  simp only [hg]
  simp only [← EReal.coe_sub, ← EReal.coe_mul, ← coe_sum, div_coe_nLit]
  exact congrArg _ (real_var_identity fun p => g p q)

end

/-! ## Twenty blocks of five thousand rows -/

/-- A sum over the 100000 rows, taken block by block: for any way `row` of naming row `5000 t + r`. -/
theorem sum_blocks {M : Type*} [AddCommMonoid M] (f : Fin 100000 → M) (row : Fin 20 → Fin 5000 → Fin 100000)
    (hrow : ∀ t r, (row t r).val = 5000 * t.val + r.val) :
    ∑ t : Fin 20, ∑ r : Fin 5000, f (row t r) = ∑ p : Fin 100000, f p := by
  have he : ∀ x : Fin 20 × Fin 5000, (finProdFinEquiv : Fin 20 × Fin 5000 ≃ Fin (20 * 5000)) x = row x.1 x.2 := by
    intro x
    apply Fin.ext
    rw [hrow]
    simp [finProdFinEquiv]
    omega
  rw [← Equiv.sum_comp (finProdFinEquiv : Fin 20 × Fin 5000 ≃ Fin (20 * 5000)) f, Fintype.sum_prod_type]
  exact Finset.sum_congr rfl fun t _ => Finset.sum_congr rfl fun r _ => by rw [he (t, r)]

end Cert.Bridge.SpecAlgebra

end
-- ==== Proof.RefRead.lean ====
/- The reference's result read at one index, at the ideal values: row `p`, column `q` of the composed value is the
   index-level specification (Proof/Spec.lean) of the aggregate's rows, with the variance as the mean squared deviation. -/
import proofs.«151859_j44744969290330_1_alg».proof.Proof.RefRun
import proofs.«151859_j44744969290330_1_alg».proof.Proof.SpecAlgebra
import Idealize.ShloMosaic.Lib.IdealHost
import Idealize.ShloMosaic.Lib.StackMember
import Idealize.ShloMosaic.Lib.Pipeline.Value

noncomputable section

namespace Cert.ReferenceIdeal.RefRead

open Cert.ReferenceIdeal Cert.ReferenceIdeal.Gen Cert.ReferenceIdeal.RefRun Idealize.ShloMosaic Idealize.ShloMosaic.ValueIdx
open Cert.Bridge
open scoped BigOperators

/-! ## Arrays as functions of their coordinates -/

/-- A 100000 × 32 array by row and column. -/
abbrev mat (X : FVec Ideal S100000x32 .f32) : Fin 100000 → Fin 32 → EReal := fun p k => X (ix2 p k)
/-- The 32 × 32 weights by row and column. -/
abbrev wmat (a2 : FVec Ideal S32x32 .f32) : Fin 32 → Fin 32 → EReal := fun k q => a2 (ix2 k q)
/-- A vector of 32 by its coordinate. -/
abbrev vec (v : FVec Ideal S32 .f32) : Fin 32 → EReal := fun q => v (ix1 q)
/-- The 100000 × 1 column by its row. -/
abbrev col (a1 : FVec Ideal S100000x1 .f32) : Fin 100000 → EReal := fun p => a1 (ix2 p (0 : Fin 1))

/-! ## The layout operations at an index -/

/-- A vector of 32 made a row and copied down the 100000 rows reads its column's entry. -/
theorem bcast_row_apply {α : Type} (v : S32.Idx → α) (p : Fin 100000) (q : Fin 32) :
    broadcastInDim S100000x32 ![0, 1] bcast_S1x32_S100000x32_0_1 (broadcastInDim S1x32 ![1] bcast_S32_S1x32_1 v) (ix2 p q)
      = v (ix1 q) :=
  (broadcastInDim_apply _ _ _ (ix2 p q) (ix2 (0 : Fin 1) q) (fun a => match a with | ⟨0, _⟩ => rfl | ⟨1, _⟩ => rfl)).trans
    (broadcastInDim_apply _ _ v (ix2 (0 : Fin 1) q) (ix1 q) (fun a => match a with | ⟨0, _⟩ => rfl))

/-- The 100000 × 1 column copied across the 32 columns reads its row's entry. -/
theorem bcast_col_apply {α : Type} (v : S100000x1.Idx → α) (p : Fin 100000) (q : Fin 32) :
    broadcastInDim S100000x32 ![0, 1] bcast_S100000x1_S100000x32_0_1 v (ix2 p q) = v (ix2 p (0 : Fin 1)) :=
  broadcastInDim_apply _ _ v (ix2 p q) (ix2 p (0 : Fin 1)) (fun a => match a with | ⟨0, _⟩ => rfl | ⟨1, _⟩ => rfl)

/-- The host's reciprocal square root at an index. -/
theorem hostRsqrt_apply {s : Shape} {φ : FTy} (x : FVec Ideal s φ) (i : s.Idx) : Host.rsqrt x i = Ideal.rsqrt (x i) := rfl

/-- The column sums from zero: at column `q` the sum over the rows. -/
theorem colsum_apply (X : FVec Ideal S100000x32 .f32) (q : Fin 32) :
    Host.reduceAdd (F := Ideal) X (constant (F := Ideal) S_ .f32 0x00000000#32) reducesTo_S100000x32_S32_d0 h_S_ (ix1 q)
      = ∑ p : Fin 100000, X (ix2 p q) := by
  have h : S100000x32.Reduces [0] S32 := by decide
  rw [hostReduceAdd_apply, Ideal.hostReduceAdd_single reducesTo_S100000x32_S32_d0 h]
  show Ideal.ofBits .f32 0x00000000#32 + ∑ k : Fin 100000, X (h.lift (ix1 q) k) = _
  rw [Ideal.ofBits_zero_f32, zero_add]
  refine Finset.sum_congr rfl fun k _ => congrArg X ?_
  funext c; apply Fin.ext
  match c with
  | ⟨0, _⟩ => rfl
  | ⟨1, _⟩ => rfl

/-! ## The pieces of the value at an index -/

/-- The masked dense layer at (p, q). -/
theorem hpre_apply (Hh : FVec Ideal S100000x32 .f32) (a1 : FVec Ideal S100000x1 .f32) (a2 : FVec Ideal S32x32 .f32)
    (a3 : FVec Ideal S32 .f32) (p : Fin 100000) (q : Fin 32) :
    hpre (F := Ideal) Hh a1 a2 a3 (ix2 p q) = Spec.hp (mat Hh) (wmat a2) (vec a3) (col a1) p q := by
  unfold hpre Spec.hp
  rw [mulf_apply, addf_apply, bcast_row_apply, bcast_col_apply]
  exact congrArg (fun s => (s + a3 (ix1 q)) * a1 (ix2 p (0 : Fin 1))) (StackMember.dotGeneral_plain_apply none Hh a2 p q)

/-- The column mean at q. -/
theorem cmean_apply (X : FVec Ideal S100000x32 .f32) (q : Fin 32) :
    cmean (F := Ideal) X (ix1 q) = Ideal.div (∑ p : Fin 100000, X (ix2 p q)) Spec.nLit := by
  unfold cmean
  refine (hostDivf_apply _ _ _).trans (congrArg₂ Ideal.div (colsum_apply X q) ?_)
  exact (broadcastInDim_scalar_apply _ _ _).trans rfl

/-- The deviation from the column mean at (p, q). -/
theorem cdev_apply (X : FVec Ideal S100000x32 .f32) (p : Fin 100000) (q : Fin 32) :
    cdev (F := Ideal) X (ix2 p q) = X (ix2 p q) - Ideal.div (∑ p' : Fin 100000, X (ix2 p' q)) Spec.nLit := by
  unfold cdev
  rw [subf_apply]
  refine congrArg (X (ix2 p q) - ·) ?_
  refine (broadcastInDim_apply _ _ _ (ix2 p q) (ix2 (0 : Fin 1) q) (fun a => match a with | ⟨0, _⟩ => rfl | ⟨1, _⟩ => rfl)).trans ?_
  refine (hostDivf_apply _ _ _).trans (congrArg₂ Ideal.div ?_ ?_)
  · exact (broadcastInDim_apply _ _ _ (ix2 (0 : Fin 1) q) (ix1 q) (fun a => match a with | ⟨0, _⟩ => rfl)).trans (colsum_apply X q)
  · exact (broadcastInDim_scalar_apply _ _ _).trans rfl

/-- The count is the literal 100000. -/
theorem ccount_apply : ccount (F := Ideal) ix0 = Spec.nLit := by
  unfold ccount
  rw [subf_apply]
  exact SpecAlgebra.nLit_sub_sitofp_zero

/-- The column variance at q: the count is positive, so the mean squared deviation. -/
theorem cvar_apply (X : FVec Ideal S100000x32 .f32) (q : Fin 32) :
    cvar (F := Ideal) X (ix1 q)
      = Ideal.div (∑ p : Fin 100000, (X (ix2 p q) - Ideal.div (∑ p' : Fin 100000, X (ix2 p' q)) Spec.nLit)
          * (X (ix2 p q) - Ideal.div (∑ p' : Fin 100000, X (ix2 p' q)) Spec.nLit)) Spec.nLit := by
  unfold cvar
  rw [select_apply]
  have hc : broadcastInDim S32 ![] bcast_S_S32 (cmpf .ogt (ccount (F := Ideal)) (constant (F := Ideal) S_ .f32 0x00000000#32)) (ix1 q) = 1#1 := by
    rw [broadcastInDim_scalar_apply, cmpf_apply, ccount_apply, constant_apply, Ideal.ofBits_zero_f32]
    exact SpecAlgebra.cmp_ogt_nLit_zero
  rw [hc, select_one]
  refine (hostDivf_apply _ _ _).trans (congrArg₂ Ideal.div ?_ ?_)
  · rw [colsum_apply]
    refine Finset.sum_congr rfl fun p _ => ?_
    rw [mulf_apply, cdev_apply]
  · exact (broadcastInDim_scalar_apply _ _ _).trans ccount_apply

/-- The tail at (p, q). -/
theorem htail_apply (a0 X : FVec Ideal S100000x32 .f32) (a4 a5 : FVec Ideal S32 .f32) (p : Fin 100000) (q : Fin 32) :
    htail (F := Ideal) a0 X a4 a5 (ix2 p q)
      = a0 (ix2 p q) + max (((X (ix2 p q) - cmean (F := Ideal) X (ix1 q)) * Ideal.rsqrt (cvar (F := Ideal) X (ix1 q) + Spec.epsLit)) * a4 (ix1 q) + a5 (ix1 q)) 0 := by
  unfold htail
  simp only [addf_apply, maximumf_apply, mulf_apply, subf_apply]
  rw [bcast_row_apply, bcast_row_apply, bcast_row_apply, bcast_row_apply, hostRsqrt_apply, addf_apply,
    broadcastInDim_scalar_apply, broadcastInDim_scalar_apply, constant_apply, constant_apply, Ideal.ofBits_zero_f32]
  rfl

/-! ## The result at an index -/

/-- Row `p`, column `q` of the reference's result: the specification's output over the aggregate's rows, the
    variance the mean squared deviation. -/
theorem refOut_apply (a0 : FVec Ideal S100000x32 .f32) (a1 : FVec Ideal S100000x1 .f32) (a2 : FVec Ideal S32x32 .f32)
    (a3 a4 a5 : FVec Ideal S32 .f32) (a6 a7 : IVec S1600000 32) (p : Fin 100000) (q : Fin 32) :
    refOut (F := Ideal) a0 a1 a2 a3 a4 a5 a6 a7 (ix2 p q)
      = Spec.out (mat (hagg (F := Ideal) a0 a6 a7)) (wmat a2) (vec a3) (col a1) (vec a4) (vec a5) (mat a0)
          (Spec.varRef (mat (hagg (F := Ideal) a0 a6 a7)) (wmat a2) (vec a3) (col a1)) p q := by
  unfold refOut
  generalize hagg (F := Ideal) a0 a6 a7 = Hh
  rw [htail_apply, cmean_apply, cvar_apply]
  unfold Spec.out Spec.varRef Spec.mean
  simp only [hpre_apply]

end Cert.ReferenceIdeal.RefRead

end
-- ==== Proof.Finite.lean ====
/- From the precondition (every float input passes "absolute value below +∞" at every entry) to: every entry of the
   six float arguments is a real number. -/
import proofs.«151859_j44744969290330_1_alg».proof.Pre_finite_inputs
import proofs.«151859_j44744969290330_1_alg».proof.Proof.Gen.Pre_finite_inputs
import Idealize.ShloMosaic.Lib.ReduceAll
import Idealize.ShloMosaic.Lib.IdealHost
import Idealize.ShloMosaic.PureOps.Ideal

noncomputable section

namespace Cert.Bridge.Finite

open Idealize.ShloMosaic Idealize.ShloMosaic.ValueIdx Cert.Pre_finite_inputs

/-- The scalar shape has one index. -/
instance : Subsingleton S_.Idx := ⟨fun a b => funext fun d => d.elim0⟩

/-- The f32 pattern of +∞ is the extended reals' top. -/
theorem ofBits_inf_f32 : Ideal.ofBits .f32 0x7F800000#32 = ⊤ := by simp [Ideal.ofBits, Ideal.ieee]

/-- An extended real whose absolute value is below +∞ is a real. -/
theorem real_of_abs_lt_inf (x : EReal) (h : Ideal.cmp .olt (max x (-x)) (Ideal.ofBits .f32 0x7F800000#32) = 1#1) :
    ∃ r : ℝ, x = r := by
  rw [ofBits_inf_f32] at h
  induction x using EReal.rec with
  | bot => simp [Ideal.cmp] at h
  | top => simp [Ideal.cmp] at h
  | coe r => exact ⟨r, rfl⟩

/-- One array's test: if "all entries have absolute value below +∞" came out true, every entry is a real. -/
theorem all_real {s : Shape} {axes : List (Fin s.rank)} (x : FVec Ideal s .f32) (hb : S_.BroadcastsInDim s ![])
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = r := by
  have hi := Host.reduce_andi_all _ _ hr hu ix0 e i
  rw [cmpf_apply, broadcastInDim_scalar_apply, constant_apply] at hi
  exact real_of_abs_lt_inf (x i) hi

variable [Facts]

/-- The precondition read back: every entry of the six float arguments is a real. -/
theorem real_of_pre (a0 : FVec Ideal S100000x32 .f32) (a1 : FVec Ideal S100000x1 .f32) (a2 : FVec Ideal S32x32 .f32)
    (a3 a4 a5 : FVec Ideal S32 .f32) (a6 a7 : IVec S1600000 32)
    (h : fn (F := Ideal) a0 a1 a2 a3 a4 a5 a6 a7 = fun _ => 1#1) :
    (∀ (p : Fin 100000) (k : Fin 32), ∃ r : ℝ, a0 (ix2 p k) = r)
    ∧ (∀ p : Fin 100000, ∃ r : ℝ, a1 (ix2 p (0 : Fin 1)) = r)
    ∧ (∀ (k q : Fin 32), ∃ r : ℝ, a2 (ix2 k q) = r)
    ∧ (∀ q : Fin 32, ∃ r : ℝ, a3 (ix1 q) = r)
    ∧ (∀ q : Fin 32, ∃ r : ℝ, a4 (ix1 q) = r)
    ∧ (∀ q : Fin 32, ∃ r : ℝ, a5 (ix1 q) = r) := by
  have h0 := congrFun h ix0
  dsimp only [fn, fn_part1] at h0
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  exact ⟨fun p k => all_real a0 _ _ _ e0 (ix2 p k), fun p => all_real a1 _ _ _ e1 (ix2 p (0 : Fin 1)),
    fun k q => all_real a2 _ _ _ e2 (ix2 k q), fun q => all_real a3 _ _ _ e3 (ix1 q),
    fun q => all_real a4 _ _ _ e4 (ix1 q), fun q => all_real a5 _ _ _ e5 (ix1 q)⟩

end Cert.Bridge.Finite

end
-- ==== Proof.HaggFinite.lean ====
/- The aggregate of finite rows is finite: a gathered entry is an entry of the operand, and the scatter-add at the
   ideal values is the initial value (zero) plus a finite sum of gathered entries. For any index arrays. -/
import proofs.«151859_j44744969290330_1_alg».proof.Proof.RefRun
import Idealize.ShloMosaic.Lib.IdealHost

noncomputable section

namespace Cert.Bridge.HaggFinite

open Cert.ReferenceIdeal Cert.ReferenceIdeal.Gen Cert.ReferenceIdeal.RefRun Idealize.ShloMosaic Idealize.ShloMosaic.ValueIdx
open scoped BigOperators

/-- A real plus a finite sum of reals, in the extended reals, is a real. -/
theorem real_add_sum {ι : Type*} (a : EReal) (S : Finset ι) (f : ι → EReal) (ha : ∃ r : ℝ, a = r)
    (hf : ∀ j, ∃ r : ℝ, f j = r) : ∃ r : ℝ, a + ∑ j ∈ S, f j = r := by
  classical
  obtain ⟨r, rfl⟩ := ha
  induction S using Finset.induction_on with
  | empty => exact ⟨r, by simp⟩
  | insert b S hb ih =>
    obtain ⟨t, ht⟩ := ih
    obtain ⟨u, hu⟩ := hf b
    refine ⟨u + t, ?_⟩
    rw [Finset.sum_insert hb, hu, EReal.coe_add, ← ht]
    rw [← add_assoc, add_comm (r : EReal) (u : EReal), add_assoc]

/-- The accumulating float scatter at the ideal values keeps realness: real operand, real updates, real result. -/
theorem hostScatterAdd_real {s si su : Shape} (d : ScatterDims s si su) {w : Nat} (x : s.Idx → EReal) (idx : IVec si w)
    (upd : su.Idx → EReal) (hx : ∀ i, ∃ r : ℝ, x i = r) (hu : ∀ j, ∃ r : ℝ, upd j = r) (i : s.Idx) :
    ∃ r : ℝ, Ideal.hostScatterAdd d x idx upd i = r := by
  unfold Ideal.hostScatterAdd
  exact real_add_sum _ _ _ (hx i) hu

/-- The same of the host operation as a program prints it. -/
theorem scatterAdd_real {s si su : Shape} {φ : FTy} (d : ScatterDims s si su) {w : Nat} (x : FVec Ideal s φ) (idx : IVec si w)
    (upd : FVec Ideal su φ) (hx : ∀ i, ∃ r : ℝ, x i = r) (hu : ∀ j, ∃ r : ℝ, upd j = r) (i : s.Idx) :
    ∃ r : ℝ, Host.scatterAdd d x idx upd i = r := by
  unfold Host.scatterAdd
  rw [Ideal.hostScatterAdd_def]
  exact hostScatterAdd_real d x idx upd hx hu i

/-- A gather of an array of reals is an array of reals: each entry is an entry of the operand. -/
theorem gather_real {s si t : Shape} {w : Nat} (d : GatherDims s si t) (x : s.Idx → EReal) (idx : IVec si w)
    (hx : ∀ i, ∃ r : ℝ, x i = r) (j : t.Idx) : ∃ r : ℝ, Host.gather d x idx j = r := by
  unfold Host.gather
  exact hx _

/-- The zero array is an array of reals. -/
theorem zero_real (i : S100000x32.Idx) :
    ∃ r : ℝ, broadcastInDim S100000x32 ![] bcast_S_S100000x32 (constant (F := Ideal) S_ .f32 0x00000000#32) i = r :=
  ⟨0, by rw [broadcastInDim_scalar_apply, constant_apply, Ideal.ofBits_zero_f32, EReal.coe_zero]⟩

/-- The aggregate of an array of reals is an array of reals, whatever the two index arrays. -/
theorem hagg_real (a0 : FVec Ideal S100000x32 .f32) (a6 a7 : IVec S1600000 32)
    (h0 : ∀ (p : Fin 100000) (k : Fin 32), ∃ r : ℝ, a0 (ix2 p k) = r) :
    ∀ (p : Fin 100000) (k : Fin 32), ∃ r : ℝ, hagg (F := Ideal) a0 a6 a7 (ix2 p k) = r := by
  have h0' : ∀ i : S100000x32.Idx, ∃ r : ℝ, a0 i = r := fun i => by
    obtain ⟨r, hr⟩ := h0 (i 0) (i 1)
    exact ⟨r, (congrArg a0 (eq_ix2 i)).trans hr⟩
  intro p k
  unfold hagg
  exact scatterAdd_real _ _ _ _ zero_real (gather_real _ a0 _ h0') (ix2 p k)

end Cert.Bridge.HaggFinite

end
-- ==== Proof.Alg.lean ====
/-
  The two idealized programs end with equal results. Both results, read at row p and column q, are
  x(p,q) + max(((h(p,q) - μ(q)) · rsqrt(v(q) + ε)) · γ(q) + β(q), 0) with h = (A · W + b) ∘ s and μ its column mean; they
  differ only in v: the kernel program has the mean of the squares minus the squared mean, the reference the mean of
  the squared deviations. Every input entry being finite, h is real-valued and the two are the same real number.
-/
import proofs.«151859_j44744969290330_1_alg».proof.Proof.Frames
import proofs.«151859_j44744969290330_1_alg».proof.Proof.RefRead
import proofs.«151859_j44744969290330_1_alg».proof.Proof.Finite
import proofs.«151859_j44744969290330_1_alg».proof.Proof.HaggFinite
import proofs.«151859_j44744969290330_1_alg».proof.Proof.SpecAlgebra

noncomputable section

namespace Cert.Proof.Alg

open Idealize.ShloMosaic Idealize.SL.Sem Idealize.ShloMosaic.ValueIdx
open Cert.Bridge Cert.ReferenceIdeal.RefRun Cert.ReferenceIdeal.RefRead

/-- The claim, given the kernel program's result read at an index. -/
theorem algebraic_of
    (hK : ∀ (m : (ℓ : Loc Cert.KernelIdeal.nD Cert.KernelIdeal.τ Cert.KernelIdeal.sig) → Buf (Elt Ideal) ℓ) (c : Dev Cert.KernelIdeal.nD) (p : Fin 100000) (q : Fin 32),
      (Cert.KernelIdeal.Hand.dat1 (Cert.KernelIdeal.Hand.V3 m) c).arrAt 6 Cert.KernelIdeal.cfg1.N (ix2 p q)
        = Spec.out (mat (hagg (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))) (wmat (m ((c.tc : Thread Cert.KernelIdeal.nD Cert.KernelIdeal.τ).loc Cert.KernelIdeal.main_arg2))) (vec (m ((c.tc : Thread Cert.KernelIdeal.nD Cert.KernelIdeal.τ).loc Cert.KernelIdeal.main_arg3))) (col (m ((c.tc : Thread Cert.KernelIdeal.nD Cert.KernelIdeal.τ).loc Cert.KernelIdeal.main_arg1))) (vec (m ((c.tc : Thread Cert.KernelIdeal.nD Cert.KernelIdeal.τ).loc Cert.KernelIdeal.main_arg4))) (vec (m ((c.tc : Thread Cert.KernelIdeal.nD Cert.KernelIdeal.τ).loc Cert.KernelIdeal.main_arg5))) (mat (m ((c.tc : Thread Cert.KernelIdeal.nD Cert.KernelIdeal.τ).loc Cert.KernelIdeal.main_arg0))) (Spec.varKer (mat (hagg (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))) (wmat (m ((c.tc : Thread Cert.KernelIdeal.nD Cert.KernelIdeal.τ).loc Cert.KernelIdeal.main_arg2))) (vec (m ((c.tc : Thread Cert.KernelIdeal.nD Cert.KernelIdeal.τ).loc Cert.KernelIdeal.main_arg3))) (col (m ((c.tc : Thread Cert.KernelIdeal.nD Cert.KernelIdeal.τ).loc Cert.KernelIdeal.main_arg1)))) p q) :
    Cert.algebraic_KernelIdeal_ReferenceIdeal := by
  intro m ρ m' ρ' hpre hagree
  refine ⟨fun c => (Cert.KernelIdeal.Hand.dat1 (Cert.KernelIdeal.Hand.V3 m) c).arrAt 6 Cert.KernelIdeal.cfg1.N, Cert.KernelIdeal.Hand.run_value m ρ, ?_⟩
  refine (θ_run Cert.ReferenceIdeal.defs _ _).mono (fun _ h c => ⟨(h c).1.trans ?_, (h c).2⟩) (Cert.ReferenceIdeal.RefRun.run (F := Ideal) m' ρ')
  obtain ⟨e0, e1, e2, e3, e4, e5, e6, e7⟩ := hagree c
  rw [e0, e1, e2, e3, e4, e5, e6, e7]
  obtain ⟨f0, f1, f2, f3, f4, f5⟩ := Cert.Bridge.Finite.real_of_pre _ _ _ _ _ _ _ _ (hpre c)
  funext i
  obtain ⟨p, q, rfl⟩ : ∃ p q, i = ix2 p q := ⟨i 0, i 1, eq_ix2 i⟩
  rw [refOut_apply,
    Cert.Bridge.SpecAlgebra.varRef_eq_varKer _ _ _ _ (Cert.Bridge.HaggFinite.hagg_real _ _ _ f0) f2 f3 f1]
  exact (hK m c p q).symm

end Cert.Proof.Alg

end
-- ==== Proof.KValue0a.lean ====
/-
  What each block of the first kernel leaves, as the payloads of the block's operands.

  In each of the three control cases the block's value is the scaled affine layer of the block's
  operands; the two running rows are the column-sum updates of the rows found — the zero rows at the
  first block, the rows the block before left otherwise; at the last block the two small results
  are the updated rows. Each is what the case's one store into the buffer holds, the operands' loads
  reading the blocks whole.
-/
import proofs.«151859_j44744969290330_1_alg».proof.Proof.KData
import proofs.«151859_j44744969290330_1_alg».proof.Proof.KBody0
import proofs.«151859_j44744969290330_1_alg».proof.Proof.KBody1
import Idealize.ShloMosaic.Lib.Pipeline.Value
import Idealize.ShloMosaic.Lib.Pipeline.FrameBody
import Idealize.ShloMosaic.Lib.Tactic

set_option maxRecDepth 16384

noncomputable section

namespace Cert.Bridge.KValue0a

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
variable (V : (c : Dev nD) → (b : Ref sig .tc) → Buf (Elt F) ((c : Thread nD τ).loc b))

theorem hz : (![0, 0] : Fin 2 → Nat) = fun _ => 0 := funext fun a => by fin_cases a <;> rfl

/-! ## The first block -/

theorem outA_h (c : Dev nD) (t : Fin cfg0.N) (h0) (h1) :
    (outA V c t h0 h1).1 = k0_pay3 (iblk0 V c 0 t) (iblk0 V c 2 t) (iblk0 V c 3 t) (iblk0 V c 1 t) := by
  unfold outA
  dsimp only
  rw [View.read_writes_eq_canon _ _ _ (coverA_4 V c t h0 h1)]
  unfold runA kernelRun0_A
  dsimp only
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S5000x32) hz, View.ld_unit_zero (S := S32x32) hz, View.ld_unit_zero (S := S1x32) hz,
    View.ld_unit_zero (S := S5000x1) hz]

theorem outA_s (c : Dev nD) (t : Fin cfg0.N) (h0) (h1) :
    (outA V c t h0 h1).2.2.2.1 = k0_pay4 (iblk0 V c 0 t) (iblk0 V c 2 t) (iblk0 V c 3 t) (iblk0 V c 1 t) k0_pay1 := by
  unfold outA
  dsimp only
  rw [View.read_writes_eq_canon _ _ _ (coverA_s0 V c t h0 h1)]
  unfold runA kernelRun0_A
  dsimp only
  rw [View.canon_cons_unit_zero hz]
  sl_unfold_run_names
  rw [View.readCov_unit_zero (S := S1x32) _ hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S5000x32) hz, View.ld_unit_zero (S := S32x32) hz, View.ld_unit_zero (S := S1x32) hz,
    View.ld_unit_zero (S := S5000x1) hz]

theorem outA_q (c : Dev nD) (t : Fin cfg0.N) (h0) (h1) :
    (outA V c t h0 h1).2.2.2.2 = k0_pay5 (iblk0 V c 0 t) (iblk0 V c 2 t) (iblk0 V c 3 t) (iblk0 V c 1 t) k0_pay2 := by
  unfold outA
  dsimp only
  rw [View.read_writes_eq_canon _ _ _ (coverA_s1 V c t h0 h1)]
  unfold runA kernelRun0_A
  dsimp only
  rw [View.canon_cons_unit_zero hz]
  sl_unfold_run_names
  rw [View.readCov_unit_zero (S := S1x32) _ hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S5000x32) hz, View.ld_unit_zero (S := S32x32) hz, View.ld_unit_zero (S := S1x32) hz,
    View.ld_unit_zero (S := S5000x1) hz]

/-! ## A middle block -/

theorem outB_h (c : Dev nD) (t : Fin cfg0.N) (h0) (h1) (xs0 xs1 : Vec F S1x32 .f32) :
    (outB V c t h0 h1 xs0 xs1).1 = k0_pay3 (iblk0 V c 0 t) (iblk0 V c 2 t) (iblk0 V c 3 t) (iblk0 V c 1 t) := by
  unfold outB
  dsimp only
  rw [View.read_writes_eq_canon _ _ _ (coverB_4 V c t h0 h1 xs0 xs1)]
  unfold runB kernelRun0_B
  dsimp only
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S5000x32) hz, View.ld_unit_zero (S := S32x32) hz, View.ld_unit_zero (S := S1x32) hz,
    View.ld_unit_zero (S := S5000x1) hz]

theorem outB_s (c : Dev nD) (t : Fin cfg0.N) (h0) (h1) (xs0 xs1 : Vec F S1x32 .f32) :
    (outB V c t h0 h1 xs0 xs1).2.2.2.1 = k0_pay4 (iblk0 V c 0 t) (iblk0 V c 2 t) (iblk0 V c 3 t) (iblk0 V c 1 t) xs0 := by
  unfold outB
  dsimp only
  rw [View.read_writes_eq_canon _ _ _ (coverB_s0 V c t h0 h1 xs0 xs1)]
  unfold runB kernelRun0_B
  dsimp only
  first | rw [View.canon_unit_zero hz] | rw [View.canon_cons_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S5000x32) hz, View.ld_unit_zero (S := S32x32) hz, View.ld_unit_zero (S := S1x32) hz,
    View.ld_unit_zero (S := S5000x1) hz]

theorem outB_q (c : Dev nD) (t : Fin cfg0.N) (h0) (h1) (xs0 xs1 : Vec F S1x32 .f32) :
    (outB V c t h0 h1 xs0 xs1).2.2.2.2 = k0_pay5 (iblk0 V c 0 t) (iblk0 V c 2 t) (iblk0 V c 3 t) (iblk0 V c 1 t) xs1 := by
  unfold outB
  dsimp only
  rw [View.read_writes_eq_canon _ _ _ (coverB_s1 V c t h0 h1 xs0 xs1)]
  unfold runB kernelRun0_B
  dsimp only
  first | rw [View.canon_unit_zero hz] | rw [View.canon_cons_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S5000x32) hz, View.ld_unit_zero (S := S32x32) hz, View.ld_unit_zero (S := S1x32) hz,
    View.ld_unit_zero (S := S5000x1) hz]

/-! ## The last block -/

theorem outC_h (c : Dev nD) (t : Fin cfg0.N) (h0) (h1) (xs0 xs1 : Vec F S1x32 .f32) :
    (outC V c t h0 h1 xs0 xs1).1 = k0_pay3 (iblk0 V c 0 t) (iblk0 V c 2 t) (iblk0 V c 3 t) (iblk0 V c 1 t) := by
  unfold outC
  dsimp only
  rw [View.read_writes_eq_canon _ _ _ (coverC_4 V c t h0 h1 xs0 xs1)]
  unfold runC kernelRun0_C
  dsimp only
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S5000x32) hz, View.ld_unit_zero (S := S32x32) hz, View.ld_unit_zero (S := S1x32) hz,
    View.ld_unit_zero (S := S5000x1) hz]

theorem outC_5 (c : Dev nD) (t : Fin cfg0.N) (h0) (h1) (xs0 xs1 : Vec F S1x32 .f32) :
    (outC V c t h0 h1 xs0 xs1).2.1 = k0_pay4 (iblk0 V c 0 t) (iblk0 V c 2 t) (iblk0 V c 3 t) (iblk0 V c 1 t) xs0 := by
  unfold outC
  dsimp only
  rw [View.read_writes_eq_canon _ _ _ (coverC_5 V c t h0 h1 xs0 xs1)]
  unfold runC kernelRun0_C
  dsimp only
  rw [View.canon_unit_zero hz]
  sl_unfold_run_names
  rw [View.readCov_unit_zero (S := S1x32) _ hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S5000x32) hz, View.ld_unit_zero (S := S32x32) hz, View.ld_unit_zero (S := S1x32) hz,
    View.ld_unit_zero (S := S5000x1) hz]

theorem outC_6 (c : Dev nD) (t : Fin cfg0.N) (h0) (h1) (xs0 xs1 : Vec F S1x32 .f32) :
    (outC V c t h0 h1 xs0 xs1).2.2.1 = k0_pay5 (iblk0 V c 0 t) (iblk0 V c 2 t) (iblk0 V c 3 t) (iblk0 V c 1 t) xs1 := by
  unfold outC
  dsimp only
  rw [View.read_writes_eq_canon _ _ _ (coverC_6 V c t h0 h1 xs0 xs1)]
  unfold runC kernelRun0_C
  dsimp only
  rw [View.canon_unit_zero hz]
  sl_unfold_run_names
  rw [View.readCov_unit_zero (S := S1x32) _ hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S5000x32) hz, View.ld_unit_zero (S := S32x32) hz, View.ld_unit_zero (S := S1x32) hz,
    View.ld_unit_zero (S := S5000x1) hz]

theorem outC_s (c : Dev nD) (t : Fin cfg0.N) (h0) (h1) (xs0 xs1 : Vec F S1x32 .f32) :
    (outC V c t h0 h1 xs0 xs1).2.2.2.1 = k0_pay4 (iblk0 V c 0 t) (iblk0 V c 2 t) (iblk0 V c 3 t) (iblk0 V c 1 t) xs0 := by
  unfold outC
  dsimp only
  rw [View.read_writes_eq_canon _ _ _ (coverC_s0 V c t h0 h1 xs0 xs1)]
  unfold runC kernelRun0_C
  dsimp only
  sl_unfold_run_names
  first | rw [View.canon_unit_zero hz] | rw [View.canon_cons_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S5000x32) hz, View.ld_unit_zero (S := S32x32) hz, View.ld_unit_zero (S := S1x32) hz,
    View.ld_unit_zero (S := S5000x1) hz]

theorem outC_q (c : Dev nD) (t : Fin cfg0.N) (h0) (h1) (xs0 xs1 : Vec F S1x32 .f32) :
    (outC V c t h0 h1 xs0 xs1).2.2.2.2 = k0_pay5 (iblk0 V c 0 t) (iblk0 V c 2 t) (iblk0 V c 3 t) (iblk0 V c 1 t) xs1 := by
  unfold outC
  dsimp only
  rw [View.read_writes_eq_canon _ _ _ (coverC_s1 V c t h0 h1 xs0 xs1)]
  unfold runC kernelRun0_C
  dsimp only
  sl_unfold_run_names
  first | rw [View.canon_unit_zero hz] | rw [View.canon_cons_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S5000x32) hz, View.ld_unit_zero (S := S32x32) hz, View.ld_unit_zero (S := S1x32) hz,
    View.ld_unit_zero (S := S5000x1) hz]

end Regions
end Cert.Bridge.KValue0a
end
-- ==== Proof.KBlocks.lean ====
/-
  Each operand block of the two kernels, read at an index, is the operand's array at the block's
  rows: block `t` of a row-blocked array holds rows `5000 t … 5000 t + 4999`; a small operand's one
  block is the whole array.
-/
import proofs.«151859_j44744969290330_1_alg».proof.Proof.KData
import proofs.«151859_j44744969290330_1_alg».proof.Proof.KBody0
import proofs.«151859_j44744969290330_1_alg».proof.Proof.KBody1
import Idealize.ShloMosaic.Lib.Pipeline.Value
import Idealize.ShloMosaic.Lib.Pipeline.FrameBody
import Idealize.ShloMosaic.Lib.Tactic
import Idealize.ShloMosaic.Lib.ValueIdx
set_option maxRecDepth 16384
set_option pp.maxSteps 20000
set_option pp.deepTerms false

noncomputable section

namespace Cert.Bridge.KBlocks

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## Where each window's block sits, decided over the twenty blocks -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)

section Regions
variable (V : (c : Dev nD) → (b : Ref sig .tc) → Buf (Elt F) ((c : Thread nD τ).loc b))

/-! ## The first kernel's operand blocks -/

theorem iblk0_0_apply (c : Dev nD) (t : Fin cfg0.N) (r : Fin 5000) (k : Fin 32) (p : Fin 100000) (hp : p.val = 5000 * t.val + r.val) :
    (iblk0 V c 0 t : Vec F S5000x32 .f32) (ix2 r k) = (V c main_v9 : S100000x32.Idx → Elt F .f32) (ix2 p k) := by
  unfold iblk0
  rw [View.read_apply]
  show V c main_v9 _ = V c main_v9 _
  refine congrArg _ ?_
  funext a; apply Fin.ext
  match a with
  | ⟨0, _⟩ => show win0_0.index t (0 : Fin 2) * 5000 + 1 * r.val = p.val; rw [(idx0_0 t).1, hp]; omega
  | ⟨1, _⟩ => show win0_0.index t (1 : Fin 2) * 32 + 1 * k.val = k.val; rw [(idx0_0 t).2]; omega

theorem iblk0_1_apply (c : Dev nD) (t : Fin cfg0.N) (r : Fin 5000) (p : Fin 100000) (hp : p.val = 5000 * t.val + r.val) :
    (iblk0 V c 1 t : Vec F S5000x1 .f32) (ix2 r (0 : Fin 1)) = (V c main_arg1 : S100000x1.Idx → Elt F .f32) (ix2 p (0 : Fin 1)) := by
  unfold iblk0
  rw [View.read_apply]
  show V c main_arg1 _ = V c main_arg1 _
  refine congrArg _ ?_
  funext a; apply Fin.ext
  match a with
  | ⟨0, _⟩ => show win0_1.index t (0 : Fin 2) * 5000 + 1 * r.val = p.val; rw [(idx0_1 t).1, hp]; omega
  | ⟨1, _⟩ => show win0_1.index t (1 : Fin 2) * 1 + 1 * 0 = 0; rw [(idx0_1 t).2]

theorem iblk0_2_apply (c : Dev nD) (t : Fin cfg0.N) (k q : Fin 32) :
    (iblk0 V c 2 t : Vec F S32x32 .f32) (ix2 k q) = (V c main_arg2 : S32x32.Idx → Elt F .f32) (ix2 k q) := by
  unfold iblk0
  rw [View.read_apply]
  show V c main_arg2 _ = V c main_arg2 _
  refine congrArg _ ?_
  funext a; apply Fin.ext
  match a with
  | ⟨0, _⟩ => show win0_2.index t (0 : Fin 2) * 32 + 1 * k.val = k.val; rw [(idx0_2 t).1]; omega
  | ⟨1, _⟩ => show win0_2.index t (1 : Fin 2) * 32 + 1 * q.val = q.val; rw [(idx0_2 t).2]; omega

theorem iblk0_3_apply (c : Dev nD) (t : Fin cfg0.N) (q : Fin 32) :
    (iblk0 V c 3 t : Vec F S1x32 .f32) (ix2 (0 : Fin 1) q) = (V c main_v10 : S1x32.Idx → Elt F .f32) (ix2 (0 : Fin 1) q) := by
  unfold iblk0
  rw [View.read_apply]
  show V c main_v10 _ = V c main_v10 _
  refine congrArg _ ?_
  funext a; apply Fin.ext
  match a with
  | ⟨0, _⟩ => show win0_3.index t (0 : Fin 2) * 1 + 1 * 0 = 0; rw [(idx0_3 t).1]
  | ⟨1, _⟩ => show win0_3.index t (1 : Fin 2) * 32 + 1 * q.val = q.val; rw [(idx0_3 t).2]; omega

/-! ## The second kernel's operand blocks -/

theorem iblk1_0_apply (c : Dev nD) (t : Fin cfg1.N) (r : Fin 5000) (k : Fin 32) (p : Fin 100000) (hp : p.val = 5000 * t.val + r.val) :
    (iblk1 V c 0 t : Vec F S5000x32 .f32) (ix2 r k) = (V c main_v11_0 : S100000x32.Idx → Elt F .f32) (ix2 p k) := by
  unfold iblk1
  rw [View.read_apply]
  show V c main_v11_0 _ = V c main_v11_0 _
  refine congrArg _ ?_
  funext a; apply Fin.ext
  match a with
  | ⟨0, _⟩ => show win1_0.index t (0 : Fin 2) * 5000 + 1 * r.val = p.val; rw [(idx1_0 t).1, hp]; omega
  | ⟨1, _⟩ => show win1_0.index t (1 : Fin 2) * 32 + 1 * k.val = k.val; rw [(idx1_0 t).2]; omega

theorem iblk1_1_apply (c : Dev nD) (t : Fin cfg1.N) (r : Fin 5000) (k : Fin 32) (p : Fin 100000) (hp : p.val = 5000 * t.val + r.val) :
    (iblk1 V c 1 t : Vec F S5000x32 .f32) (ix2 r k) = (V c main_arg0 : S100000x32.Idx → Elt F .f32) (ix2 p k) := by
  unfold iblk1
  rw [View.read_apply]
  show V c main_arg0 _ = V c main_arg0 _
  refine congrArg _ ?_
  funext a; apply Fin.ext
  match a with
  | ⟨0, _⟩ => show win1_1.index t (0 : Fin 2) * 5000 + 1 * r.val = p.val; rw [(idx1_1 t).1, hp]; omega
  | ⟨1, _⟩ => show win1_1.index t (1 : Fin 2) * 32 + 1 * k.val = k.val; rw [(idx1_1 t).2]; omega

theorem iblk1_2_apply (c : Dev nD) (t : Fin cfg1.N) (q : Fin 32) :
    (iblk1 V c 2 t : Vec F S1x32 .f32) (ix2 (0 : Fin 1) q) = (V c main_v20 : S1x32.Idx → Elt F .f32) (ix2 (0 : Fin 1) q) := by
  unfold iblk1
  rw [View.read_apply]
  show V c main_v20 _ = V c main_v20 _
  refine congrArg _ ?_
  funext a; apply Fin.ext
  match a with
  | ⟨0, _⟩ => show win1_2.index t (0 : Fin 2) * 1 + 1 * 0 = 0; rw [(idx1_2 t).1]
  | ⟨1, _⟩ => show win1_2.index t (1 : Fin 2) * 32 + 1 * q.val = q.val; rw [(idx1_2 t).2]; omega

theorem iblk1_3_apply (c : Dev nD) (t : Fin cfg1.N) (q : Fin 32) :
    (iblk1 V c 3 t : Vec F S1x32 .f32) (ix2 (0 : Fin 1) q) = (V c main_v21 : S1x32.Idx → Elt F .f32) (ix2 (0 : Fin 1) q) := by
  unfold iblk1
  rw [View.read_apply]
  show V c main_v21 _ = V c main_v21 _
  refine congrArg _ ?_
  funext a; apply Fin.ext
  match a with
  | ⟨0, _⟩ => show win1_3.index t (0 : Fin 2) * 1 + 1 * 0 = 0; rw [(idx1_3 t).1]
  | ⟨1, _⟩ => show win1_3.index t (1 : Fin 2) * 32 + 1 * q.val = q.val; rw [(idx1_3 t).2]; omega

theorem iblk1_4_apply (c : Dev nD) (t : Fin cfg1.N) (q : Fin 32) :
    (iblk1 V c 4 t : Vec F S1x32 .f32) (ix2 (0 : Fin 1) q) = (V c main_v22 : S1x32.Idx → Elt F .f32) (ix2 (0 : Fin 1) q) := by
  unfold iblk1
  rw [View.read_apply]
  show V c main_v22 _ = V c main_v22 _
  refine congrArg _ ?_
  funext a; apply Fin.ext
  match a with
  | ⟨0, _⟩ => show win1_4.index t (0 : Fin 2) * 1 + 1 * 0 = 0; rw [(idx1_4 t).1]
  | ⟨1, _⟩ => show win1_4.index t (1 : Fin 2) * 32 + 1 * q.val = q.val; rw [(idx1_4 t).2]; omega

theorem iblk1_5_apply (c : Dev nD) (t : Fin cfg1.N) (q : Fin 32) :
    (iblk1 V c 5 t : Vec F S1x32 .f32) (ix2 (0 : Fin 1) q) = (V c main_v23 : S1x32.Idx → Elt F .f32) (ix2 (0 : Fin 1) q) := by
  unfold iblk1
  rw [View.read_apply]
  show V c main_v23 _ = V c main_v23 _
  refine congrArg _ ?_
  funext a; apply Fin.ext
  match a with
  | ⟨0, _⟩ => show win1_5.index t (0 : Fin 2) * 1 + 1 * 0 = 0; rw [(idx1_5 t).1]
  | ⟨1, _⟩ => show win1_5.index t (1 : Fin 2) * 32 + 1 * q.val = q.val; rw [(idx1_5 t).2]; omega

end Regions
end Cert.Bridge.KBlocks
end
-- ==== Proof.PayloadIdx.lean ====
/-
  Each pure value the two kernel functions store, read at one index, at the ideal values
  (extended reals).

  The first kernel's block value is the scaled affine layer of the block's rows,

    (∑ k, X (r, k) · W (k, q) + b (0, q)) · s (r, 0),

  the product read as the sum over the contracted coordinate, the bias row broadcast down the rows
  and the scale column broadcast across the columns; the two running rows add to what they held the
  block's column sums of that value and of its square; both start at zero. The second kernel's
  block value normalises, scales, shifts, clamps at zero and adds the residual block.

  The bf16 roundings on the way into the product are the identity here, and so are the shape casts
  between equal shapes.
-/
import proofs.«151859_j44744969290330_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Bridge.PayloadIdx

open Idealize.ShloMosaic Idealize.ShloMosaic.ValueIdx Cert.KernelIdeal Cert.KernelIdeal.Gen
open scoped BigOperators

/-- The 5000×32 by 32×32 product read at an index: the sum over the contracted coordinate. -/
theorem matmul_apply_ix (A : FVec Ideal S5000x32 .bf16) (B : FVec Ideal S32x32 .bf16) (r : Fin 5000) (q : Fin 32) :
    matmul dot_S5000x32_S32x32_S5000x32_1_0_0_1_n_n none A B (constant (F := Ideal) S5000x32 .f32 0x00000000#32) (ix2 r q)
      = ∑ k : Fin 32, A (ix2 r k) * B (ix2 k q) := by
  refine (Ideal.matmul_constant_zero_apply dot_S5000x32_S32x32_S5000x32_1_0_0_1_n_n none A B (ix2 r q)).trans ?_
  rw [← Equiv.sum_comp (contrEquiv1 dot_S5000x32_S32x32_S5000x32_1_0_0_1_n_n 32 rfl rfl).symm]
  refine Finset.sum_congr rfl fun c _ => ?_
  have c2 := contrEquiv1_symm_val dot_S5000x32_S32x32_S5000x32_1_0_0_1_n_n 32 rfl rfl c
  have l2 : dot_S5000x32_S32x32_S5000x32_1_0_0_1_n_n.lhsIdx (ix2 r q) ((contrEquiv1 _ 32 rfl rfl).symm c) = ix2 r c := by
    funext ax; apply Fin.ext
    match ax with
    | ⟨0, _⟩ => simp [DotDims.lhsIdx, dot_S5000x32_S32x32_S5000x32_1_0_0_1_n_n]; rfl
    | ⟨1, _⟩ => simp [DotDims.lhsIdx, dot_S5000x32_S32x32_S5000x32_1_0_0_1_n_n]; exact c2
  have r2 : dot_S5000x32_S32x32_S5000x32_1_0_0_1_n_n.rhsIdx (ix2 r q) ((contrEquiv1 _ 32 rfl rfl).symm c) = ix2 c q := by
    funext ax; apply Fin.ext
    match ax with
    | ⟨0, _⟩ => simp [DotDims.rhsIdx, dot_S5000x32_S32x32_S5000x32_1_0_0_1_n_n]; exact c2
    | ⟨1, _⟩ => simp [DotDims.rhsIdx, dot_S5000x32_S32x32_S5000x32_1_0_0_1_n_n]; rfl
  rw [l2, r2]

section
variable {α : Type}
/-- An `[a, 1]` column broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl
end

theorem k0_pay3_apply (v3 : FVec Ideal S5000x32 .f32) (v5 : FVec Ideal S32x32 .f32) (v9 : FVec Ideal S1x32 .f32)
    (v13 : FVec Ideal S5000x1 .f32) (r : Fin 5000) (q : Fin 32) :
    k0_pay3 (F := Ideal) v3 v5 v9 v13 (ix2 r q)
      = (∑ k : Fin 32, v3 (ix2 r k) * v5 (ix2 k q) + v9 (ix2 (0 : Fin 1) q)) * v13 (ix2 r (0 : Fin 1)) := by
  unfold k0_pay3
  simp only [shapeCast_self]
  rw [mulf_apply, addf_apply, matmul_apply_ix, broadcastTo_1b_ab_apply, broadcastTo_a1_ab_apply]
  rfl

/-- The column sums of a 5000×32 block: the row reduction read at a column. -/
theorem reduce_rows_apply (src : FVec Ideal S5000x32 .f32) (q : Fin 32) :
    multiReduction .add [0] S32 src 0x00000000#32 reduces_S5000x32_S32 (.inl rfl) rfl (ix1 q)
      = ∑ r : Fin 5000, src (ix2 r q) := by
  refine (Ideal.multiReduction_add_single src 0x00000000#32 reduces_S5000x32_S32 (.inl rfl) rfl (ix1 q)).trans ?_
  refine Finset.sum_congr rfl fun r _ => congrArg src ?_
  funext ax
  match ax with
  | ⟨0, _⟩ => rfl
  | ⟨1, _⟩ => rfl

theorem k0_pay4_apply (v3 : FVec Ideal S5000x32 .f32) (v5 : FVec Ideal S32x32 .f32) (v9 : FVec Ideal S1x32 .f32)
    (v13 : FVec Ideal S5000x1 .f32) (v17 : FVec Ideal S1x32 .f32) (q : Fin 32) :
    k0_pay4 (F := Ideal) v3 v5 v9 v13 v17 (ix2 (0 : Fin 1) q)
      = v17 (ix2 (0 : Fin 1) q) + ∑ r : Fin 5000, k0_pay3 (F := Ideal) v3 v5 v9 v13 (ix2 r q) := by
  unfold k0_pay4
  simp only [shapeCast_self]
  rw [addf_apply, shapeCast_a_1a_apply, reduce_rows_apply]

theorem k0_pay5_apply (v3 : FVec Ideal S5000x32 .f32) (v5 : FVec Ideal S32x32 .f32) (v9 : FVec Ideal S1x32 .f32)
    (v13 : FVec Ideal S5000x1 .f32) (v24 : FVec Ideal S1x32 .f32) (q : Fin 32) :
    k0_pay5 (F := Ideal) v3 v5 v9 v13 v24 (ix2 (0 : Fin 1) q)
      = v24 (ix2 (0 : Fin 1) q)
        + ∑ r : Fin 5000, k0_pay3 (F := Ideal) v3 v5 v9 v13 (ix2 r q) * k0_pay3 (F := Ideal) v3 v5 v9 v13 (ix2 r q) := by
  unfold k0_pay5
  simp only [shapeCast_self]
  rw [addf_apply, shapeCast_a_1a_apply, reduce_rows_apply]
  rfl

theorem k0_pay1_apply (i : S1x32.Idx) : k0_pay1 (F := Ideal) i = 0 := by
  unfold k0_pay1
  simp only [shapeCast_self]
  exact Ideal.ofBits_zero_f32

theorem k0_pay2_apply (i : S1x32.Idx) : k0_pay2 (F := Ideal) i = 0 := by
  unfold k0_pay2
  simp only [shapeCast_self]
  exact Ideal.ofBits_zero_f32

theorem k1_pay1_apply (v0 : FVec Ideal S1x32 .f32) (v5 : FVec Ideal S5000x32 .f32) (v7 v13 v17 : FVec Ideal S1x32 .f32)
    (v23 : FVec Ideal S5000x32 .f32) (r : Fin 5000) (q : Fin 32) :
    k1_pay1 (F := Ideal) v0 v5 v7 v13 v17 v23 (ix2 r q)
      = v23 (ix2 r q)
        + max (((v5 (ix2 r q) - v7 (ix2 (0 : Fin 1) q))
                * Ideal.rsqrt (v0 (ix2 (0 : Fin 1) q) + Ideal.ofBits .f32 0x3727C5AC#32)) * v13 (ix2 (0 : Fin 1) q)
              + v17 (ix2 (0 : Fin 1) q)) 0 := by
  unfold k1_pay1
  simp only [shapeCast_self]
  rw [addf_apply, maximumf_apply, addf_apply, mulf_apply, mulf_apply, subf_apply, broadcastTo_1b_ab_apply,
    broadcastTo_1b_ab_apply, broadcastTo_1b_ab_apply, broadcastTo_1b_ab_apply]
  have h0 : FloatOps.ofBits (F := Ideal) .f32 0x00000000#32 = 0 := Ideal.ofBits_zero_f32
  rw [broadcast_apply, h0]
  rfl

end Cert.Bridge.PayloadIdx

end
-- ==== Proof.BlockSpec.lean ====
/-
  One block of the first kernel's value is the specification's layer on the block's rows, and the
  running column sums over the blocks are the column sums over all rows.

  Block `t` (of 20) holds rows `5000 t … 5000 t + 4999`. If a block's operands are the arrays' rows
  there — the aggregated features and the scale column at row `5000 t + r`, the weights and the bias
  row whole — the block's value at `(r, q)` is `hp (5000 t + r) q`. A quantity that starts at the
  first block's sum and adds each later block's sum is, after block `n`, the sum over the blocks up to `n`.
-/
import proofs.«151859_j44744969290330_1_alg».proof.Proof.Spec
import proofs.«151859_j44744969290330_1_alg».proof.Proof.SpecAlgebra
import proofs.«151859_j44744969290330_1_alg».proof.Proof.PayloadIdx

noncomputable section

namespace Cert.Bridge.BlockSpec

open Idealize.ShloMosaic Idealize.ShloMosaic.ValueIdx Cert.KernelIdeal Cert.KernelIdeal.Gen
open Cert.Bridge.Spec Cert.Bridge.SpecAlgebra Cert.Bridge.PayloadIdx
open scoped BigOperators

/-- Row `r` of block `t` among the 100000 rows. -/
def row (t : Fin 20) (r : Fin 5000) : Fin 100000 := ⟨5000 * t.val + r.val, by omega⟩

theorem row_val (t : Fin 20) (r : Fin 5000) : (row t r).val = 5000 * t.val + r.val := rfl

/-- The block's value is the layer at the block's rows. -/
theorem hblk_apply (x0 : FVec Ideal S5000x32 .f32) (x1 : FVec Ideal S5000x1 .f32) (x2 : FVec Ideal S32x32 .f32)
    (x3 : FVec Ideal S1x32 .f32) (H : Fin 100000 → Fin 32 → EReal) (Wm : Fin 32 → Fin 32 → EReal) (b : Fin 32 → EReal)
    (sn : Fin 100000 → EReal) (t : Fin 20)
    (hx0 : ∀ (r : Fin 5000) (k : Fin 32), x0 (ix2 r k) = H (row t r) k)
    (hx1 : ∀ r : Fin 5000, x1 (ix2 r (0 : Fin 1)) = sn (row t r))
    (hx2 : ∀ k q : Fin 32, x2 (ix2 k q) = Wm k q) (hx3 : ∀ q : Fin 32, x3 (ix2 (0 : Fin 1) q) = b q)
    (r : Fin 5000) (q : Fin 32) :
    k0_pay3 (F := Ideal) x0 x2 x3 x1 (ix2 r q) = hp H Wm b sn (row t r) q := by
  rw [k0_pay3_apply]
  unfold hp
  simp only [hx0, hx1, hx2, hx3]

/-- A running sum over the blocks: the first block's term, then one more term per block. -/
theorem running_sum {N : ℕ} (a : (n : ℕ) → n < N → EReal) (f : (n : ℕ) → n < N → EReal)
    (h0 : ∀ h : 0 < N, a 0 h = f 0 h)
    (hs : ∀ (n : ℕ) (h : n + 1 < N), a (n + 1) h = a n (Nat.lt_of_succ_lt h) + f (n + 1) h) :
    ∀ (n : ℕ) (h : n < N), a n h = ∑ t ∈ Finset.range (n + 1), if ht : t < N then f t ht else 0
  | 0, h => by rw [Finset.sum_range_one, dif_pos h, h0]
  | n + 1, h => by
    rw [hs n h, running_sum a f h0 hs n (Nat.lt_of_succ_lt h), Finset.sum_range_succ _ (n + 1), dif_pos h]

/-- Over all twenty blocks, in block-and-row form. -/
theorem sum_range_twenty (g : Fin 20 → EReal) :
    (∑ t ∈ Finset.range (19 + 1), if ht : t < 20 then g ⟨t, ht⟩ else 0) = ∑ t : Fin 20, g t := by
  rw [← Fin.sum_univ_eq_sum_range (fun t => if ht : t < 20 then g ⟨t, ht⟩ else 0) 20]
  exact Finset.sum_congr rfl fun t _ => by rw [dif_pos t.isLt]

/-- The block sums of a function of the row are its sum over all rows. -/
theorem sum_rows (f : Fin 100000 → EReal) : ∑ t : Fin 20, ∑ r : Fin 5000, f (row t r) = ∑ p : Fin 100000, f p :=
  sum_blocks f row row_val

end Cert.Bridge.BlockSpec

end
-- ==== Proof.KValue0b.lean ====
/-
  The first kernel's running rows are column sums over all rows.

  Read off the arrays the first kernel finds — the aggregated features, the weights, the bias row,
  the scale column — each block's value at `(r, q)` is the layer `hp` at row `5000 t + r`. The row of
  sums starts, at the first block, at zero plus that block's column sums and adds each later block's;
  so after the last block it is the column sum over all 100000 rows, and the row of squares
  likewise. At the last block the two small results are the two rows.
-/
import proofs.«151859_j44744969290330_1_alg».proof.Proof.KData
import proofs.«151859_j44744969290330_1_alg».proof.Proof.KBody0
import proofs.«151859_j44744969290330_1_alg».proof.Proof.KBody1
import Idealize.ShloMosaic.Lib.Pipeline.Value
import Idealize.ShloMosaic.Lib.Pipeline.FrameBody
import Idealize.ShloMosaic.Lib.Tactic
import proofs.«151859_j44744969290330_1_alg».proof.Proof.KValue0a
import proofs.«151859_j44744969290330_1_alg».proof.Proof.KBlocks
import proofs.«151859_j44744969290330_1_alg».proof.Proof.BlockSpec
set_option maxRecDepth 16384
set_option pp.maxSteps 20000
set_option pp.deepTerms false

noncomputable section

namespace Cert.Bridge.KValue0b

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Bridge.Spec Cert.Bridge.SpecAlgebra Cert.Bridge.PayloadIdx Cert.Bridge.BlockSpec Cert.Bridge.KBlocks Cert.Bridge.KValue0a
open scoped BigOperators

section Regions
variable (V : (c : Dev nD) → (b : Ref sig .tc) → Buf (Elt Ideal) ((c : Thread nD τ).loc b))

/-! ## The specification's arguments, read off the arrays the first kernel finds -/

def Hf (c : Dev nD) : Fin 100000 → Fin 32 → EReal := fun p k => (V c main_v9 : S100000x32.Idx → Elt Ideal .f32) (ix2 p k)
def Wf (c : Dev nD) : Fin 32 → Fin 32 → EReal := fun k q => (V c main_arg2 : S32x32.Idx → Elt Ideal .f32) (ix2 k q)
def bf (c : Dev nD) : Fin 32 → EReal := fun q => (V c main_v10 : S1x32.Idx → Elt Ideal .f32) (ix2 (0 : Fin 1) q)
def sf (c : Dev nD) : Fin 100000 → EReal := fun p => (V c main_arg1 : S100000x1.Idx → Elt Ideal .f32) (ix2 p (0 : Fin 1))

/-- The layer over those arguments. -/
abbrev hpV (c : Dev nD) : Fin 100000 → Fin 32 → EReal := hp (Hf V c) (Wf V c) (bf V c) (sf V c)

theorem lt20 {n : ℕ} (h : n < 20) : n < cfg0.N := lt_of_lt_of_eq h N_0.symm

/-- Block `t`'s value at `(r, q)` is the layer at row `5000 t + r`. -/
theorem hblk_eq (c : Dev nD) (t : Fin cfg0.N) (r : Fin 5000) (q : Fin 32) :
    k0_pay3 (F := Ideal) (iblk0 V c 0 t) (iblk0 V c 2 t) (iblk0 V c 3 t) (iblk0 V c 1 t) (ix2 r q)
      = hpV V c (row (t.cast N_0) r) q :=
  hblk_apply _ _ _ _ (Hf V c) (Wf V c) (bf V c) (sf V c) (t.cast N_0)
    (fun r k => iblk0_0_apply V c t r k _ rfl) (fun r => iblk0_1_apply V c t r _ rfl)
    (fun k q => iblk0_2_apply V c t k q) (fun q => iblk0_3_apply V c t q) r q

/-- What the block's buffer holds after any block is that block's value. -/
theorem outs_h (c : Dev nD) (t : Fin cfg0.N) :
    (outsAt0 V c t.val t.isLt).1 = k0_pay3 (F := Ideal) (iblk0 V c 0 t) (iblk0 V c 2 t) (iblk0 V c 3 t) (iblk0 V c 1 t) := by
  have hN : t.val < 20 := lt_of_lt_of_eq t.isLt N_0
  by_cases h0 : t.val % 20 = 0
  · rw [outsAt0_A V c t h0 (by omega)]; exact outA_h V c t _ _
  · by_cases h1 : t.val % 20 = 19
    · rw [outsAt0_C V c t h0 h1]; exact outC_h V c t _ _ _ _
    · rw [outsAt0_B V c t h0 h1]; exact outB_h V c t _ _ _ _

/-- The block sum of the layer's column `q` at block `n`, and of its square. -/
def blkS (c : Dev nD) (q : Fin 32) (n : ℕ) (h : n < 20) : EReal := ∑ r : Fin 5000, hpV V c (row ⟨n, h⟩ r) q
def blkQ (c : Dev nD) (q : Fin 32) (n : ℕ) (h : n < 20) : EReal :=
  ∑ r : Fin 5000, hpV V c (row ⟨n, h⟩ r) q * hpV V c (row ⟨n, h⟩ r) q

theorem pay4_blk (c : Dev nD) (n : ℕ) (h : n < 20) (v17 : FVec Ideal S1x32 .f32) (q : Fin 32) :
    k0_pay4 (F := Ideal) (iblk0 V c 0 ⟨n, lt20 h⟩) (iblk0 V c 2 ⟨n, lt20 h⟩) (iblk0 V c 3 ⟨n, lt20 h⟩) (iblk0 V c 1 ⟨n, lt20 h⟩) v17
        (ix2 (0 : Fin 1) q) = v17 (ix2 (0 : Fin 1) q) + blkS V c q n h := by
  rw [k0_pay4_apply]
  refine congrArg (v17 (ix2 (0 : Fin 1) q) + ·) (Finset.sum_congr rfl fun r _ => ?_)
  exact hblk_eq V c ⟨n, lt20 h⟩ r q

theorem pay5_blk (c : Dev nD) (n : ℕ) (h : n < 20) (v24 : FVec Ideal S1x32 .f32) (q : Fin 32) :
    k0_pay5 (F := Ideal) (iblk0 V c 0 ⟨n, lt20 h⟩) (iblk0 V c 2 ⟨n, lt20 h⟩) (iblk0 V c 3 ⟨n, lt20 h⟩) (iblk0 V c 1 ⟨n, lt20 h⟩) v24
        (ix2 (0 : Fin 1) q) = v24 (ix2 (0 : Fin 1) q) + blkQ V c q n h := by
  rw [k0_pay5_apply]
  refine congrArg (v24 (ix2 (0 : Fin 1) q) + ·) (Finset.sum_congr rfl fun r _ => ?_)
  rw [hblk_eq V c ⟨n, lt20 h⟩ r q]
  rfl

/-- The running row of sums: its first value, and its step. -/
theorem rowS_zero (c : Dev nD) (q : Fin 32) (h : 0 < 20) :
    (outsAt0 V c 0 (lt20 h)).2.2.2.1 (ix2 (0 : Fin 1) q) = blkS V c q 0 h := by
  rw [outsAt0_A V c ⟨0, lt20 h⟩ rfl (by show ¬0 % 20 = 19; decide), outA_s, pay4_blk V c 0 h, k0_pay1_apply, zero_add]

theorem rowS_succ (c : Dev nD) (q : Fin 32) (n : ℕ) (h : n + 1 < 20) :
    (outsAt0 V c (n + 1) (lt20 h)).2.2.2.1 (ix2 (0 : Fin 1) q)
      = (outsAt0 V c n (lt20 (Nat.lt_of_succ_lt h))).2.2.2.1 (ix2 (0 : Fin 1) q) + blkS V c q (n + 1) h := by
  by_cases h1 : (n + 1) % 20 = 19
  · rw [outsAt0_C V c ⟨n + 1, lt20 h⟩ (by show ¬(n + 1) % 20 = 0; omega) h1, outC_s, pay4_blk V c (n + 1) h]
    rfl
  · rw [outsAt0_B V c ⟨n + 1, lt20 h⟩ (by show ¬(n + 1) % 20 = 0; omega) h1, outB_s, pay4_blk V c (n + 1) h]
    rfl

theorem rowQ_zero (c : Dev nD) (q : Fin 32) (h : 0 < 20) :
    (outsAt0 V c 0 (lt20 h)).2.2.2.2 (ix2 (0 : Fin 1) q) = blkQ V c q 0 h := by
  rw [outsAt0_A V c ⟨0, lt20 h⟩ rfl (by show ¬0 % 20 = 19; decide), outA_q, pay5_blk V c 0 h, k0_pay2_apply, zero_add]

theorem rowQ_succ (c : Dev nD) (q : Fin 32) (n : ℕ) (h : n + 1 < 20) :
    (outsAt0 V c (n + 1) (lt20 h)).2.2.2.2 (ix2 (0 : Fin 1) q)
      = (outsAt0 V c n (lt20 (Nat.lt_of_succ_lt h))).2.2.2.2 (ix2 (0 : Fin 1) q) + blkQ V c q (n + 1) h := by
  by_cases h1 : (n + 1) % 20 = 19
  · rw [outsAt0_C V c ⟨n + 1, lt20 h⟩ (by show ¬(n + 1) % 20 = 0; omega) h1, outC_q, pay5_blk V c (n + 1) h]
    rfl
  · rw [outsAt0_B V c ⟨n + 1, lt20 h⟩ (by show ¬(n + 1) % 20 = 0; omega) h1, outB_q, pay5_blk V c (n + 1) h]
    rfl

/-- After the last block the row of sums is the column sum over all rows, -/
theorem rowS_last (c : Dev nD) (q : Fin 32) :
    (outsAt0 V c 19 (lt20 (by decide))).2.2.2.1 (ix2 (0 : Fin 1) q) = ∑ p : Fin 100000, hpV V c p q := by
  have h := running_sum (N := 20) (fun n h => (outsAt0 V c n (lt20 h)).2.2.2.1 (ix2 (0 : Fin 1) q)) (blkS V c q)
    (rowS_zero V c q) (rowS_succ V c q) 19 (by decide)
  refine h.trans ?_
  rw [sum_range_twenty (fun t => blkS V c q t.val t.isLt)]
  exact sum_rows (fun p => hpV V c p q)

/-- and the row of squares the column sum of the squares. -/
theorem rowQ_last (c : Dev nD) (q : Fin 32) :
    (outsAt0 V c 19 (lt20 (by decide))).2.2.2.2 (ix2 (0 : Fin 1) q) = ∑ p : Fin 100000, hpV V c p q * hpV V c p q := by
  have h := running_sum (N := 20) (fun n h => (outsAt0 V c n (lt20 h)).2.2.2.2 (ix2 (0 : Fin 1) q)) (blkQ V c q)
    (rowQ_zero V c q) (rowQ_succ V c q) 19 (by decide)
  refine h.trans ?_
  rw [sum_range_twenty (fun t => blkQ V c q t.val t.isLt)]
  exact sum_rows (fun p => hpV V c p q * hpV V c p q)

/-- At the last block the two small results are the two rows. -/
theorem small_last (c : Dev nD) :
    (outsAt0 V c 19 (lt20 (by decide))).2.1 = (outsAt0 V c 19 (lt20 (by decide))).2.2.2.1
    ∧ (outsAt0 V c 19 (lt20 (by decide))).2.2.1 = (outsAt0 V c 19 (lt20 (by decide))).2.2.2.2 := by
  rw [outsAt0_C V c ⟨19, lt20 (by decide)⟩ (by decide) (by decide)]
  exact ⟨(outC_5 V c _ _ _ _ _).trans (outC_s V c _ _ _ _ _).symm, (outC_6 V c _ _ _ _ _).trans (outC_q V c _ _ _ _ _).symm⟩

end Regions
end Cert.Bridge.KValue0b
end
-- ==== Proof.KValue0c.lean ====
/-
  The first kernel's three result arrays, as functions of the arrays the kernel finds.

  The first result holds the layer `hp` at every row: block `t` writes back rows `5000 t … 5000 t + 4999`
  and the twenty blocks tile the array. The two small results are written back once, after the last
  block, and hold the column sums of the layer and of its square over all 100000 rows.
-/
import proofs.«151859_j44744969290330_1_alg».proof.Proof.KData
import proofs.«151859_j44744969290330_1_alg».proof.Proof.KBody0
import proofs.«151859_j44744969290330_1_alg».proof.Proof.KBody1
import Idealize.ShloMosaic.Lib.Pipeline.Value
import Idealize.ShloMosaic.Lib.Pipeline.FrameBody
import Idealize.ShloMosaic.Lib.Tactic
import proofs.«151859_j44744969290330_1_alg».proof.Proof.KValue0b
set_option maxRecDepth 16384
set_option pp.maxSteps 20000
set_option pp.deepTerms false

noncomputable section

namespace Cert.Bridge.KValue0c

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Bridge.Spec Cert.Bridge.SpecAlgebra Cert.Bridge.PayloadIdx Cert.Bridge.BlockSpec Cert.Bridge.KBlocks Cert.Bridge.KValue0a Cert.Bridge.KValue0b
open scoped BigOperators

section Regions
variable (V : (c : Dev nD) → (b : Ref sig .tc) → Buf (Elt Ideal) ((c : Thread nD τ).loc b))

/-! ## The layer's array -/

def G4 (c : Dev nD) : S100000x32.Idx → Elt Ideal .f32 :=
  fun i => hpV V c ⟨(i 0).val, idx2_lt0 i⟩ ⟨(i 1).val, idx2_lt1 i⟩

theorem G4_apply (c : Dev nD) (p : Fin 100000) (q : Fin 32) : G4 V c (ix2 p q) = hpV V c p q := rfl

theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4, outs_h]
  funext j
  obtain ⟨r, q, rfl⟩ : ∃ (r : Fin 5000) (q : Fin 32), j = ix2 r q := ⟨j 0, j 1, eq_ix2 j⟩
  have hN : t.val < 20 := lt_of_lt_of_eq t.isLt N_0
  show k0_pay3 (F := Ideal) (iblk0 V c 0 t) (iblk0 V c 2 t) (iblk0 V c 3 t) (iblk0 V c 1 t) (ix2 r q)
      = G4 V c (((cfg0.win 4).blk t).view.emb (ix2 r q))
  have he : ((cfg0.win 4).blk t).view.emb (ix2 r q) = (ix2 (row (t.cast N_0) r) q : S100000x32.Idx) := by
    funext a; apply Fin.ext
    match a with
    | ⟨0, _⟩ => show win0_4.index t (0 : Fin 2) * 5000 + 1 * r.val = 5000 * t.val + r.val; rw [(idx0_4 t).1]; omega
    | ⟨1, _⟩ => show win0_4.index t (1 : Fin 2) * 32 + 1 * q.val = q.val; rw [(idx0_4 t).2]; omega
  rw [he, G4_apply]
  exact hblk_eq V c t r q

theorem mem_blk4 (t : Fin cfg0.N) (i : S100000x32.Idx) :
    i ∈ ((cfg0.win 4).blk t).view.set ↔ ∀ a : Fin 2, win0_4.index t a * S5000x32.size a ≤ (i a).val ∧ (i a).val < win0_4.index t a * S5000x32.size a + S5000x32.size a := by
  show i ∈ ((View.whole main_v11_0).slice (win0_4.rect t)).set ↔ _
  rw [View.set_slice_whole, Rect.mem_set_unit]
  exact Iff.rfl

theorem cover4 (i : S100000x32.Idx) : ∃ t : Fin cfg0.N, (cfg0.win 4).flush t = true ∧ i ∈ ((cfg0.win 4).blk t).view.set := by
  have hi0 : (i 0).val < 100000 := idx2_lt0 i
  have hi1 : (i 1).val < 32 := idx2_lt1 i
  refine ⟨⟨(i 0).val / 5000, by have h20 : cfg0.N = 20 := N_0; omega⟩, flush0_4 _, ?_⟩
  rw [mem_blk4]
  intro a
  match a with
  | ⟨0, _⟩ =>
    show win0_4.index _ (0 : Fin 2) * 5000 ≤ (i 0).val ∧ (i 0).val < win0_4.index _ (0 : Fin 2) * 5000 + 5000
    rw [(idx0_4 _).1]; show (i 0).val / 5000 * 5000 ≤ (i 0).val ∧ (i 0).val < (i 0).val / 5000 * 5000 + 5000; omega
  | ⟨1, _⟩ =>
    show win0_4.index _ (1 : Fin 2) * 32 ≤ (i 1).val ∧ (i 1).val < win0_4.index _ (1 : Fin 2) * 32 + 32
    rw [(idx0_4 _).2]; omega

/-- THE LAYER'S ARRAY after the first kernel. -/
theorem final4 (c : Dev nD) : (dat0 V c).arrAt 4 cfg0.N = G4 V c :=
  (dat0 V c).arrAt_eq_of_cover 4 (G4 V c) (fun t _ => flushed4_eq V c t) cover4

/-! ## The two rows of column sums -/

def G5 (c : Dev nD) : S1x32.Idx → Elt Ideal .f32 :=
  fun i => ∑ p : Fin 100000, hpV V c p ⟨(i 1).val, idx2_lt1 i⟩
def G6 (c : Dev nD) : S1x32.Idx → Elt Ideal .f32 :=
  fun i => ∑ p : Fin 100000, hpV V c p ⟨(i 1).val, idx2_lt1 i⟩ * hpV V c p ⟨(i 1).val, idx2_lt1 i⟩

theorem G5_apply (c : Dev nD) (q : Fin 32) : G5 V c (ix2 (0 : Fin 1) q) = ∑ p : Fin 100000, hpV V c p q := rfl
theorem G6_apply (c : Dev nD) (q : Fin 32) :
    G6 V c (ix2 (0 : Fin 1) q) = ∑ p : Fin 100000, hpV V c p q * hpV V c p q := rfl

theorem last_of_flush (t : Fin cfg0.N) (h : t.val % 20 = 19) : t.val = 19 := by
  have hN : t.val < 20 := lt_of_lt_of_eq t.isLt N_0
  omega

/-- The last block. -/
def t19 : Fin cfg0.N := ⟨19, lt20 (by decide)⟩
theorem t19_mod : t19.val % 20 = 19 := rfl

theorem outs_congr (c : Dev nD) {n n' : ℕ} (e : n = n') (h : n < cfg0.N) (h' : n' < cfg0.N) :
    outsAt0 V c n h = outsAt0 V c n' h' := by
  subst e; rfl

theorem emb5 (t : Fin cfg0.N) (q : Fin 32) : ((cfg0.win 5).blk t).view.emb (ix2 (0 : Fin 1) q) = (ix2 (0 : Fin 1) q : S1x32.Idx) := by
  funext a; apply Fin.ext
  match a with
  | ⟨0, _⟩ => show win0_5.index t (0 : Fin 2) * 1 + 1 * 0 = 0; rw [(idx0_5 t).1]
  | ⟨1, _⟩ => show win0_5.index t (1 : Fin 2) * 32 + 1 * q.val = q.val; rw [(idx0_5 t).2]; omega

theorem flushed5_eq (c : Dev nD) (t : Fin cfg0.N) (hf : (cfg0.win 5).flush t = true) :
    (dat0 V c).flushed 5 t = ((cfg0.win 5).blk t).view.read (Elt Ideal) (G5 V c) := by
  have h19 : t.val = 19 := last_of_flush t ((flush0_5 t).mp hf)
  show (cfg0.win 5).cut (grid0.coords t) ((dat0 V c).after 5 t) = _
  rw [after0_5, outs_congr V c h19 t.isLt (lt20 (by decide)), (small_last V c).1]
  have hrow := rowS_last V c
  generalize (outsAt0 V c 19 (lt20 (by decide))).2.2.2.1 = X at hrow ⊢
  funext j
  rw [View.read_apply]
  obtain ⟨u, q, rfl⟩ : ∃ (u : Fin 1) (q : Fin 32), j = ix2 u q := ⟨j 0, j 1, eq_ix2 j⟩
  have hL : (cfg0.win 5).cut (grid0.coords t) X (ix2 u q) = X (ix2 u q) := rfl
  have hE : ((cfg0.win 5).blk t).view.emb (ix2 u q) = (ix2 (0 : Fin 1) q : S1x32.Idx) := by
    funext a; apply Fin.ext
    match a with
    | ⟨0, _⟩ => show win0_5.index t (0 : Fin 2) * 1 + 1 * u.val = 0; rw [(idx0_5 t).1]; omega
    | ⟨1, _⟩ => show win0_5.index t (1 : Fin 2) * 32 + 1 * q.val = q.val; rw [(idx0_5 t).2]; omega
  rw [hL, hE, G5_apply, cast_eq]
  obtain rfl : u = 0 := Subsingleton.elim _ _
  exact hrow q

theorem mem_blk5 (t : Fin cfg0.N) (i : S1x32.Idx) :
    i ∈ ((cfg0.win 5).blk t).view.set ↔ ∀ a : Fin 2, win0_5.index t a * S1x32.size a ≤ (i a).val ∧ (i a).val < win0_5.index t a * S1x32.size a + S1x32.size a := by
  show i ∈ ((View.whole main_v11_1).slice (win0_5.rect t)).set ↔ _
  rw [View.set_slice_whole, Rect.mem_set_unit]
  exact Iff.rfl

theorem cover5 (i : S1x32.Idx) : ∃ t : Fin cfg0.N, (cfg0.win 5).flush t = true ∧ i ∈ ((cfg0.win 5).blk t).view.set := by
  have hi0 : (i 0).val < 1 := idx2_lt0 i
  have hi1 : (i 1).val < 32 := idx2_lt1 i
  refine ⟨t19, (flush0_5 t19).mpr t19_mod, ?_⟩
  rw [mem_blk5]
  intro a
  match a with
  | ⟨0, _⟩ =>
    show win0_5.index t19 (0 : Fin 2) * 1 ≤ (i 0).val ∧ (i 0).val < win0_5.index t19 (0 : Fin 2) * 1 + 1
    rw [(idx0_5 t19).1]; omega
  | ⟨1, _⟩ =>
    show win0_5.index t19 (1 : Fin 2) * 32 ≤ (i 1).val ∧ (i 1).val < win0_5.index t19 (1 : Fin 2) * 32 + 32
    rw [(idx0_5 t19).2]; omega

theorem emb6 (t : Fin cfg0.N) (q : Fin 32) : ((cfg0.win 6).blk t).view.emb (ix2 (0 : Fin 1) q) = (ix2 (0 : Fin 1) q : S1x32.Idx) := by
  funext a; apply Fin.ext
  match a with
  | ⟨0, _⟩ => show win0_6.index t (0 : Fin 2) * 1 + 1 * 0 = 0; rw [(idx0_6 t).1]
  | ⟨1, _⟩ => show win0_6.index t (1 : Fin 2) * 32 + 1 * q.val = q.val; rw [(idx0_6 t).2]; omega

theorem flushed6_eq (c : Dev nD) (t : Fin cfg0.N) (hf : (cfg0.win 6).flush t = true) :
    (dat0 V c).flushed 6 t = ((cfg0.win 6).blk t).view.read (Elt Ideal) (G6 V c) := by
  have h19 : t.val = 19 := last_of_flush t ((flush0_6 t).mp hf)
  show (cfg0.win 6).cut (grid0.coords t) ((dat0 V c).after 6 t) = _
  rw [after0_6, outs_congr V c h19 t.isLt (lt20 (by decide)), (small_last V c).2]
  have hrow := rowQ_last V c
  generalize (outsAt0 V c 19 (lt20 (by decide))).2.2.2.2 = X at hrow ⊢
  funext j
  rw [View.read_apply]
  obtain ⟨u, q, rfl⟩ : ∃ (u : Fin 1) (q : Fin 32), j = ix2 u q := ⟨j 0, j 1, eq_ix2 j⟩
  have hL : (cfg0.win 6).cut (grid0.coords t) X (ix2 u q) = X (ix2 u q) := rfl
  have hE : ((cfg0.win 6).blk t).view.emb (ix2 u q) = (ix2 (0 : Fin 1) q : S1x32.Idx) := by
    funext a; apply Fin.ext
    match a with
    | ⟨0, _⟩ => show win0_6.index t (0 : Fin 2) * 1 + 1 * u.val = 0; rw [(idx0_6 t).1]; omega
    | ⟨1, _⟩ => show win0_6.index t (1 : Fin 2) * 32 + 1 * q.val = q.val; rw [(idx0_6 t).2]; omega
  rw [hL, hE, G6_apply, cast_eq]
  obtain rfl : u = 0 := Subsingleton.elim _ _
  exact hrow q

theorem mem_blk6 (t : Fin cfg0.N) (i : S1x32.Idx) :
    i ∈ ((cfg0.win 6).blk t).view.set ↔ ∀ a : Fin 2, win0_6.index t a * S1x32.size a ≤ (i a).val ∧ (i a).val < win0_6.index t a * S1x32.size a + S1x32.size a := by
  show i ∈ ((View.whole main_v11_2).slice (win0_6.rect t)).set ↔ _
  rw [View.set_slice_whole, Rect.mem_set_unit]
  exact Iff.rfl

theorem cover6 (i : S1x32.Idx) : ∃ t : Fin cfg0.N, (cfg0.win 6).flush t = true ∧ i ∈ ((cfg0.win 6).blk t).view.set := by
  have hi0 : (i 0).val < 1 := idx2_lt0 i
  have hi1 : (i 1).val < 32 := idx2_lt1 i
  refine ⟨t19, (flush0_6 t19).mpr t19_mod, ?_⟩
  rw [mem_blk6]
  intro a
  match a with
  | ⟨0, _⟩ =>
    show win0_6.index t19 (0 : Fin 2) * 1 ≤ (i 0).val ∧ (i 0).val < win0_6.index t19 (0 : Fin 2) * 1 + 1
    rw [(idx0_6 t19).1]; omega
  | ⟨1, _⟩ =>
    show win0_6.index t19 (1 : Fin 2) * 32 ≤ (i 1).val ∧ (i 1).val < win0_6.index t19 (1 : Fin 2) * 32 + 32
    rw [(idx0_6 t19).2]; omega

/-- THE TWO ROWS after the first kernel. -/
theorem final5 (c : Dev nD) : (dat0 V c).arrAt 5 cfg0.N = G5 V c :=
  (dat0 V c).arrAt_eq_of_cover 5 (G5 V c) (flushed5_eq V c) cover5
theorem final6 (c : Dev nD) : (dat0 V c).arrAt 6 cfg0.N = G6 V c :=
  (dat0 V c).arrAt_eq_of_cover 6 (G6 V c) (flushed6_eq V c) cover6

end Regions
end Cert.Bridge.KValue0c
end
-- ==== Proof.KValue1.lean ====
/-
  The second kernel's result array, as one function of the arrays the kernel finds.

  Block `t` of the result is the block's one store: at `(r, q)` the residual input at row
  `5000 t + r` plus the clamped, shifted, scaled normalisation of the layer's value there by the mean
  and variance rows. The twenty blocks tile the 100000 rows, every block is written back, so the
  array ends holding that function at every index.
-/
import proofs.«151859_j44744969290330_1_alg».proof.Proof.KData
import proofs.«151859_j44744969290330_1_alg».proof.Proof.KBody0
import proofs.«151859_j44744969290330_1_alg».proof.Proof.KBody1
import Idealize.ShloMosaic.Lib.Pipeline.Value
import Idealize.ShloMosaic.Lib.Pipeline.FrameBody
import Idealize.ShloMosaic.Lib.Tactic
import proofs.«151859_j44744969290330_1_alg».proof.Proof.KBlocks
import proofs.«151859_j44744969290330_1_alg».proof.Proof.PayloadIdx
import proofs.«151859_j44744969290330_1_alg».proof.Proof.Spec
set_option maxRecDepth 16384
set_option pp.maxSteps 20000
set_option pp.deepTerms false

noncomputable section

namespace Cert.Bridge.KValue1

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Bridge.Spec Cert.Bridge.PayloadIdx Cert.Bridge.KBlocks
open scoped BigOperators

section Regions
variable (V : (c : Dev nD) → (b : Ref sig .tc) → Buf (Elt Ideal) ((c : Thread nD τ).loc b))

theorem hz : (![0, 0] : Fin 2 → Nat) = fun _ => 0 := funext fun a => by fin_cases a <;> rfl

/-! ## The arrays the second kernel finds, as functions of row and column -/

def xV (c : Dev nD) : Fin 100000 → Fin 32 → EReal := fun p q => (V c main_arg0 : S100000x32.Idx → Elt Ideal .f32) (ix2 p q)
def hV (c : Dev nD) : Fin 100000 → Fin 32 → EReal := fun p q => (V c main_v11_0 : S100000x32.Idx → Elt Ideal .f32) (ix2 p q)
def meanV (c : Dev nD) : Fin 32 → EReal := fun q => (V c main_v20 : S1x32.Idx → Elt Ideal .f32) (ix2 (0 : Fin 1) q)
def varV (c : Dev nD) : Fin 32 → EReal := fun q => (V c main_v21 : S1x32.Idx → Elt Ideal .f32) (ix2 (0 : Fin 1) q)
def gammaV (c : Dev nD) : Fin 32 → EReal := fun q => (V c main_v22 : S1x32.Idx → Elt Ideal .f32) (ix2 (0 : Fin 1) q)
def betaV (c : Dev nD) : Fin 32 → EReal := fun q => (V c main_v23 : S1x32.Idx → Elt Ideal .f32) (ix2 (0 : Fin 1) q)

/-- The result at row `p`, column `q`, over the arrays the second kernel finds. -/
def out1 (c : Dev nD) (p : Fin 100000) (q : Fin 32) : EReal :=
  xV V c p q + max (((hV V c p q - meanV V c q) * Ideal.rsqrt (varV V c q + Ideal.ofBits .f32 0x3727C5AC#32)) * gammaV V c q + betaV V c q) 0

/-- The same as a function of the array's index. -/
def G1 (c : Dev nD) : S100000x32.Idx → Elt Ideal .f32 :=
  fun i => out1 V c ⟨(i 0).val, idx2_lt0 i⟩ ⟨(i 1).val, idx2_lt1 i⟩

theorem G1_apply (c : Dev nD) (p : Fin 100000) (q : Fin 32) : G1 V c (ix2 p q) = out1 V c p q := rfl

/-- What block `t` writes back is block `t` of that function. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold outv1
  rw [View.canon_unit_zero hz]
  simp only [View.ld_unit_zero (S := S5000x32) hz, View.ld_unit_zero (S := S1x32) hz]
  funext j
  obtain ⟨r, q, rfl⟩ : ∃ (r : Fin 5000) (q : Fin 32), j = ix2 r q := ⟨j 0, j 1, eq_ix2 j⟩
  have hN : t.val < 20 := lt_of_lt_of_eq t.isLt N_1
  show k1_pay1 (F := Ideal) (iblk1 V c 3 t) (iblk1 V c 0 t) (iblk1 V c 2 t) (iblk1 V c 4 t) (iblk1 V c 5 t) (iblk1 V c 1 t) (ix2 r q)
      = G1 V c (((cfg1.win 6).blk t).view.emb (ix2 r q))
  rw [k1_pay1_apply, iblk1_0_apply V c t r q ⟨5000 * t.val + r.val, by omega⟩ rfl,
    iblk1_1_apply V c t r q ⟨5000 * t.val + r.val, by omega⟩ rfl, iblk1_2_apply, iblk1_3_apply, iblk1_4_apply, iblk1_5_apply]
  have he : ((cfg1.win 6).blk t).view.emb (ix2 r q) = (ix2 (⟨5000 * t.val + r.val, by omega⟩ : Fin 100000) q : S100000x32.Idx) := by
    funext a; apply Fin.ext
    match a with
    | ⟨0, _⟩ => show win1_6.index t (0 : Fin 2) * 5000 + 1 * r.val = 5000 * t.val + r.val; rw [(idx1_6 t).1]; omega
    | ⟨1, _⟩ => show win1_6.index t (1 : Fin 2) * 32 + 1 * q.val = q.val; rw [(idx1_6 t).2]; omega
  rw [he, G1_apply]
  rfl

/-- An index of the array is in block `t` iff its row is among the block's rows. -/
theorem mem_blk1 (t : Fin cfg1.N) (i : S100000x32.Idx) :
    i ∈ ((cfg1.win 6).blk t).view.set ↔ ∀ a : Fin 2, win1_6.index t a * S5000x32.size a ≤ (i a).val ∧ (i a).val < win1_6.index t a * S5000x32.size a + S5000x32.size a := by
  show i ∈ ((View.whole main_v24).slice (win1_6.rect t)).set ↔ _
  rw [View.set_slice_whole, Rect.mem_set_unit]
  exact Iff.rfl

/-- Every index is in some block: row `p` in block `p / 5000`. -/
theorem cover1 (i : S100000x32.Idx) : ∃ t : Fin cfg1.N, (cfg1.win 6).flush t = true ∧ i ∈ ((cfg1.win 6).blk t).view.set := by
  have hi0 : (i 0).val < 100000 := idx2_lt0 i
  have hi1 : (i 1).val < 32 := idx2_lt1 i
  refine ⟨⟨(i 0).val / 5000, by have h20 : cfg1.N = 20 := N_1; omega⟩, flush1_6 _, ?_⟩
  rw [mem_blk1]
  intro a
  match a with
  | ⟨0, _⟩ =>
    show win1_6.index _ (0 : Fin 2) * 5000 ≤ (i 0).val ∧ (i 0).val < win1_6.index _ (0 : Fin 2) * 5000 + 5000
    rw [(idx1_6 _).1]; show (i 0).val / 5000 * 5000 ≤ (i 0).val ∧ (i 0).val < (i 0).val / 5000 * 5000 + 5000; omega
  | ⟨1, _⟩ =>
    show win1_6.index _ (1 : Fin 2) * 32 ≤ (i 1).val ∧ (i 1).val < win1_6.index _ (1 : Fin 2) * 32 + 32
    rw [(idx1_6 _).2]; omega

/-- THE RESULT ARRAY after the second kernel. -/
theorem final1 (c : Dev nD) : (dat1 V c).arrAt 6 cfg1.N = G1 V c :=
  (dat1 V c).arrAt_eq_of_cover 6 (G1 V c) (fun t _ => flushed1_eq V c t) (cover1)

theorem final1_apply (c : Dev nD) (p : Fin 100000) (q : Fin 32) :
    ((dat1 V c).arrAt 6 cfg1.N : S100000x32.Idx → Elt Ideal .f32) (ix2 p q) = out1 V c p q := by
  rw [final1]; rfl

end Regions
end Cert.Bridge.KValue1
end
-- ==== Proof.KHost.lean ====
/- The host side of the two-kernel program, read at the boundaries: what the first kernel is handed (the aggregate, the
   bias as a row, the untouched arguments) and what the second kernel is handed (the mean and variance rows computed
   from the first kernel's two rows of column sums, the scale and shift as rows, the untouched arrays). -/
import proofs.«151859_j44744969290330_1_alg».proof.Proof.KData
import proofs.«151859_j44744969290330_1_alg».proof.Proof.Gen.KernelIdeal.Launch
import proofs.«151859_j44744969290330_1_alg».proof.Proof.Gen.KernelIdeal.Regions
import proofs.«151859_j44744969290330_1_alg».proof.Proof.RefRun
import proofs.«151859_j44744969290330_1_alg».proof.Proof.Spec
import Idealize.ShloMosaic.Lib.StableHlo.Run
import Idealize.ShloMosaic.Lib.IdealHost
import Idealize.ShloMosaic.Lib.ValueLayout

noncomputable section

namespace Cert.Bridge.KHost

open Cert.KernelIdeal Cert.KernelIdeal.Gen Cert.KernelIdeal.Hand
open Idealize.ShloMosaic Idealize.ShloMosaic.TcCoe Idealize.ShloMosaic.ValueIdx Idealize.ShloMosaic.StableHlo Idealize.SL.Sem
open Cert.Bridge

section AnyValues
variable {F : FTy → Type} [FloatOps F] (m : (ℓ : Loc nD τ sig) → Buf (Elt F) ℓ)

/-! ## Before the first kernel -/

/-- The first kernel's first operand is the aggregate of the launch's rows, source and destination indices. -/
theorem V1_main_v9 (c : Dev nD) :
    (Hand.V1 m c main_v9 : FVec F S100000x32 .f32)
      = Cert.ReferenceIdeal.RefRun.hagg (m ((c : Thread nD τ).loc main_arg0)) (m ((c : Thread nD τ).loc main_arg6)) (m ((c : Thread nD τ).loc main_arg7)) := by
  dsimp only [Hand.V1, Hand.W1, Hand.W0, hostOps0]
  after_results
  rfl

/-- The bias as the first kernel finds it: the launch's, reshaped to one row. -/
theorem V1_main_v10_eq (c : Dev nD) :
    (Hand.V1 m c main_v10 : FVec F S1x32 .f32)
      = shapeCast S1x32 ((m ((c : Thread nD τ).loc main_arg3)) : FVec F S32 .f32) shapeCasts_S32_S1x32 := by
  dsimp only [Hand.V1, Hand.W1, Hand.W0, hostOps0]
  after_results
  rfl

/-- … read at column q. -/
theorem V1_main_v10 (c : Dev nD) (q : Fin 32) :
    (Hand.V1 m c main_v10 : FVec F S1x32 .f32) (ix2 (0 : Fin 1) q) = ((m ((c : Thread nD τ).loc main_arg3)) : FVec F S32 .f32) (ix1 q) := by
  rw [V1_main_v10_eq]; exact shapeCast_a_1a_apply _ _ 0 q

/-- No host operation before the first kernel writes an argument. -/
theorem V1_main_arg0 (c : Dev nD) : Hand.V1 m c main_arg0 = (m ((c : Thread nD τ).loc main_arg0)) :=
  StableHlo.after_of_writes_sub hostOps0 _ hostOps0_writes (by decide : main_arg0 ∉ hostOps0_W)
theorem V1_main_arg1 (c : Dev nD) : Hand.V1 m c main_arg1 = (m ((c : Thread nD τ).loc main_arg1)) :=
  StableHlo.after_of_writes_sub hostOps0 _ hostOps0_writes (by decide : main_arg1 ∉ hostOps0_W)
theorem V1_main_arg2 (c : Dev nD) : Hand.V1 m c main_arg2 = (m ((c : Thread nD τ).loc main_arg2)) :=
  StableHlo.after_of_writes_sub hostOps0 _ hostOps0_writes (by decide : main_arg2 ∉ hostOps0_W)

/-! ## Between the kernels -/

/-- What the host operations between the kernels leave unwritten stays as the first kernel left it. -/
theorem V3_main_v11_0 (c : Dev nD) : Hand.V3 m c main_v11_0 = Hand.V2 m c main_v11_0 :=
  StableHlo.after_of_writes_sub hostOps1 _ hostOps1_writes (by decide : main_v11_0 ∉ hostOps1_W)

/-- An argument is still the launch's after the first kernel and the host operations around it. -/
theorem V3_main_arg0 (c : Dev nD) : Hand.V3 m c main_arg0 = (m ((c : Thread nD τ).loc main_arg0)) :=
  calc Hand.W3 m c (Proc.devRef .tc main_arg0)
    _ = Hand.W2 m c (Proc.devRef .tc main_arg0) := StableHlo.after_of_writes_sub hostOps1 _ hostOps1_writes (by decide : main_arg0 ∉ hostOps1_W)
    _ = Hand.W1 m c (Proc.devRef .tc main_arg0) := Hand.W2_of_ne m c main_arg0 (by decide)
    _ = Hand.W0 m c (Proc.devRef .tc main_arg0) := StableHlo.after_of_writes_sub hostOps0 _ hostOps0_writes (by decide : main_arg0 ∉ hostOps0_W)
    _ = (m ((c : Thread nD τ).loc main_arg0)) := rfl
theorem V2_main_arg4 (c : Dev nD) : Hand.V2 m c main_arg4 = (m ((c : Thread nD τ).loc main_arg4)) :=
  calc Hand.W2 m c (Proc.devRef .tc main_arg4)
    _ = Hand.W1 m c (Proc.devRef .tc main_arg4) := Hand.W2_of_ne m c main_arg4 (by decide)
    _ = Hand.W0 m c (Proc.devRef .tc main_arg4) := StableHlo.after_of_writes_sub hostOps0 _ hostOps0_writes (by decide : main_arg4 ∉ hostOps0_W)
    _ = (m ((c : Thread nD τ).loc main_arg4)) := rfl
theorem V2_main_arg5 (c : Dev nD) : Hand.V2 m c main_arg5 = (m ((c : Thread nD τ).loc main_arg5)) :=
  calc Hand.W2 m c (Proc.devRef .tc main_arg5)
    _ = Hand.W1 m c (Proc.devRef .tc main_arg5) := Hand.W2_of_ne m c main_arg5 (by decide)
    _ = Hand.W0 m c (Proc.devRef .tc main_arg5) := StableHlo.after_of_writes_sub hostOps0 _ hostOps0_writes (by decide : main_arg5 ∉ hostOps0_W)
    _ = (m ((c : Thread nD τ).loc main_arg5)) := rfl

/-- The mean row as an array: the first row of sums over the literal count, as one row. -/
theorem V3_main_v20_eq (c : Dev nD) :
    (Hand.V3 m c main_v20 : FVec F S1x32 .f32)
      = shapeCast S1x32 (Host.divf (shapeCast S32 (Hand.V2 m c main_v11_1 : FVec F S1x32 .f32) shapeCasts_S1x32_S32)
          (broadcastInDim S32 ![] bcast_S_S32 (constant (F := F) S_ .f32 0x47C35000#32))) shapeCasts_S32_S1x32 := by
  dsimp only [Hand.V3, Hand.W3, hostOps1]
  after_results
  rfl

/-- The variance row as an array: the second row of sums over the count, minus the squared mean. -/
theorem V3_main_v21_eq (c : Dev nD) :
    (Hand.V3 m c main_v21 : FVec F S1x32 .f32)
      = shapeCast S1x32 (subf
          (Host.divf (shapeCast S32 (Hand.V2 m c main_v11_2 : FVec F S1x32 .f32) shapeCasts_S1x32_S32)
            (broadcastInDim S32 ![] bcast_S_S32 (constant (F := F) S_ .f32 0x47C35000#32)))
          (mulf
            (Host.divf (shapeCast S32 (Hand.V2 m c main_v11_1 : FVec F S1x32 .f32) shapeCasts_S1x32_S32)
              (broadcastInDim S32 ![] bcast_S_S32 (constant (F := F) S_ .f32 0x47C35000#32)))
            (Host.divf (shapeCast S32 (Hand.V2 m c main_v11_1 : FVec F S1x32 .f32) shapeCasts_S1x32_S32)
              (broadcastInDim S32 ![] bcast_S_S32 (constant (F := F) S_ .f32 0x47C35000#32))))) shapeCasts_S32_S1x32 := by
  dsimp only [Hand.V3, Hand.W3, hostOps1]
  after_results
  rfl

/-- The scale and the shift as rows. -/
theorem V3_main_v22_eq (c : Dev nD) :
    (Hand.V3 m c main_v22 : FVec F S1x32 .f32) = shapeCast S1x32 (Hand.V2 m c main_arg4 : FVec F S32 .f32) shapeCasts_S32_S1x32 := by
  dsimp only [Hand.V3, Hand.W3, hostOps1]
  after_results
  rfl
theorem V3_main_v23_eq (c : Dev nD) :
    (Hand.V3 m c main_v23 : FVec F S1x32 .f32) = shapeCast S1x32 (Hand.V2 m c main_arg5 : FVec F S32 .f32) shapeCasts_S32_S1x32 := by
  dsimp only [Hand.V3, Hand.W3, hostOps1]
  after_results
  rfl

theorem V3_main_v22 (c : Dev nD) (q : Fin 32) :
    (Hand.V3 m c main_v22 : FVec F S1x32 .f32) (ix2 (0 : Fin 1) q) = ((m ((c : Thread nD τ).loc main_arg4)) : FVec F S32 .f32) (ix1 q) := by
  rw [V3_main_v22_eq, V2_main_arg4]; exact shapeCast_a_1a_apply _ _ 0 q
theorem V3_main_v23 (c : Dev nD) (q : Fin 32) :
    (Hand.V3 m c main_v23 : FVec F S1x32 .f32) (ix2 (0 : Fin 1) q) = ((m ((c : Thread nD τ).loc main_arg5)) : FVec F S32 .f32) (ix1 q) := by
  rw [V3_main_v23_eq, V2_main_arg5]; exact shapeCast_a_1a_apply _ _ 0 q

end AnyValues

/-! ## The two rows at a column, at the ideal values -/

section AtIdeal
variable (m : (ℓ : Loc nD τ sig) → Buf (Elt Ideal) ℓ)

/-- A row of sums over the literal count, at column q. -/
theorem rowdiv_apply (R : FVec Ideal S1x32 .f32) (q : Fin 32) :
    Host.divf (shapeCast S32 R shapeCasts_S1x32_S32) (broadcastInDim S32 ![] bcast_S_S32 (constant (F := Ideal) S_ .f32 0x47C35000#32)) (ix1 q)
      = Ideal.div (R (ix2 (0 : Fin 1) q)) Spec.nLit :=
  (hostDivf_apply _ _ _).trans (congrArg₂ Ideal.div (shapeCast_1a_a_apply R _ q) ((broadcastInDim_scalar_apply _ _ _).trans rfl))

/-- The mean row at column q: the first kernel's row of column sums over the count. -/
theorem V3_main_v20 (c : Dev nD) (q : Fin 32) :
    (Hand.V3 m c main_v20 : FVec Ideal S1x32 .f32) (ix2 (0 : Fin 1) q)
      = Ideal.div ((Hand.V2 m c main_v11_1 : FVec Ideal S1x32 .f32) (ix2 (0 : Fin 1) q)) Spec.nLit := by
  rw [V3_main_v20_eq]
  exact (shapeCast_a_1a_apply _ _ 0 q).trans (rowdiv_apply _ q)

/-- The variance row at column q: the row of sums of squares over the count, minus the squared mean. -/
theorem V3_main_v21 (c : Dev nD) (q : Fin 32) :
    (Hand.V3 m c main_v21 : FVec Ideal S1x32 .f32) (ix2 (0 : Fin 1) q)
      = Ideal.div ((Hand.V2 m c main_v11_2 : FVec Ideal S1x32 .f32) (ix2 (0 : Fin 1) q)) Spec.nLit
        - Ideal.div ((Hand.V2 m c main_v11_1 : FVec Ideal S1x32 .f32) (ix2 (0 : Fin 1) q)) Spec.nLit
          * Ideal.div ((Hand.V2 m c main_v11_1 : FVec Ideal S1x32 .f32) (ix2 (0 : Fin 1) q)) Spec.nLit := by
  rw [V3_main_v21_eq]
  refine (shapeCast_a_1a_apply _ _ 0 q).trans ?_
  rw [subf_apply, mulf_apply, rowdiv_apply, rowdiv_apply]

end AtIdeal

end Cert.Bridge.KHost

end
-- ==== Proof.KValue.lean ====
/-
  The kernel program's final array, read at row `p` and column `q`, is the specification's output
  with the variance written as the mean square minus the squared mean.

  The second kernel finds: the residual input as launched; the layer's array the first kernel left,
  which is `hp` of the aggregated features, the weights, the bias and the scale column as launched
  (the host's aggregation before the first kernel is the same function the reference applies); the
  mean row and the variance row the host computed from the two rows of column sums the first kernel
  left — the column sum over all rows divided by `n`, and the column sum of squares divided by `n`
  minus the squared mean —; and the scale and shift rows as launched. Its result at `(p, q)` is the
  clamped, shifted, scaled normalisation plus the residual: the specification's `out` at `varKer`.
  No finiteness is used: sums are only regrouped.
-/
import proofs.«151859_j44744969290330_1_alg».proof.Proof.KData
import proofs.«151859_j44744969290330_1_alg».proof.Proof.KBody0
import proofs.«151859_j44744969290330_1_alg».proof.Proof.KBody1
import Idealize.ShloMosaic.Lib.Pipeline.Value
import Idealize.ShloMosaic.Lib.Pipeline.FrameBody
import Idealize.ShloMosaic.Lib.Tactic
import proofs.«151859_j44744969290330_1_alg».proof.Proof.KValue0c
import proofs.«151859_j44744969290330_1_alg».proof.Proof.KValue1
import proofs.«151859_j44744969290330_1_alg».proof.Proof.KHost
import proofs.«151859_j44744969290330_1_alg».proof.Proof.RefRead
set_option maxRecDepth 16384
set_option pp.maxSteps 20000
set_option pp.deepTerms false

noncomputable section

namespace Cert.Bridge.KValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Bridge Cert.ReferenceIdeal.RefRun Cert.ReferenceIdeal.RefRead
open Cert.Bridge.KValue0b Cert.Bridge.KValue0c Cert.Bridge.KValue1
open scoped BigOperators

variable (m : (ℓ : Loc nD τ sig) → Buf (Elt Ideal) ℓ)

/-! ## The first kernel's operands are the launch's -/

theorem Hf_eq (c : Dev nD) :
    Hf (Hand.V1 m) c = mat (hagg (F := Ideal) (m ((c.tc : Thread nD τ).loc main_arg0)) (m ((c.tc : Thread nD τ).loc main_arg6)) (m ((c.tc : Thread nD τ).loc main_arg7))) := by
  funext p k
  show (Hand.V1 m c main_v9 : FVec Ideal S100000x32 .f32) (ix2 p k) = _
  rw [KHost.V1_main_v9]

theorem Wf_eq (c : Dev nD) : Wf (Hand.V1 m) c = wmat (m ((c.tc : Thread nD τ).loc main_arg2)) := by
  funext k q
  show (Hand.V1 m c main_arg2 : FVec Ideal S32x32 .f32) (ix2 k q) = _
  rw [KHost.V1_main_arg2]

theorem bf_eq (c : Dev nD) : bf (Hand.V1 m) c = vec (m ((c.tc : Thread nD τ).loc main_arg3)) := by
  funext q
  exact KHost.V1_main_v10 m c q

theorem sf_eq (c : Dev nD) : sf (Hand.V1 m) c = col (m ((c.tc : Thread nD τ).loc main_arg1)) := by
  funext p
  show (Hand.V1 m c main_arg1 : FVec Ideal S100000x1 .f32) (ix2 p (0 : Fin 1)) = _
  rw [KHost.V1_main_arg1]

/-! ## What the first kernel leaves, as the second finds it -/

theorem V2_layer (c : Dev nD) : (Hand.V2 m c main_v11_0 : S100000x32.Idx → Elt Ideal .f32) = G4 (Hand.V1 m) c :=
  (Hand.W2_arr m c 4).trans (final4 (Hand.V1 m) c)
theorem V2_rowS (c : Dev nD) : (Hand.V2 m c main_v11_1 : S1x32.Idx → Elt Ideal .f32) = G5 (Hand.V1 m) c :=
  (Hand.W2_arr m c 5).trans (final5 (Hand.V1 m) c)
theorem V2_rowQ (c : Dev nD) : (Hand.V2 m c main_v11_2 : S1x32.Idx → Elt Ideal .f32) = G6 (Hand.V1 m) c :=
  (Hand.W2_arr m c 6).trans (final6 (Hand.V1 m) c)

/-! ## The final array -/

theorem kernel_value (c : Dev nD) (p : Fin 100000) (q : Fin 32) :
    (dat1 (Hand.V3 m) c).arrAt 6 cfg1.N (ix2 p q)
      = Spec.out (mat (hagg (F := Ideal) (m ((c.tc : Thread nD τ).loc main_arg0)) (m ((c.tc : Thread nD τ).loc main_arg6)) (m ((c.tc : Thread nD τ).loc main_arg7))))
          (wmat (m ((c.tc : Thread nD τ).loc main_arg2))) (vec (m ((c.tc : Thread nD τ).loc main_arg3))) (col (m ((c.tc : Thread nD τ).loc main_arg1)))
          (vec (m ((c.tc : Thread nD τ).loc main_arg4))) (vec (m ((c.tc : Thread nD τ).loc main_arg5))) (mat (m ((c.tc : Thread nD τ).loc main_arg0)))
          (Spec.varKer (mat (hagg (F := Ideal) (m ((c.tc : Thread nD τ).loc main_arg0)) (m ((c.tc : Thread nD τ).loc main_arg6)) (m ((c.tc : Thread nD τ).loc main_arg7))))
            (wmat (m ((c.tc : Thread nD τ).loc main_arg2))) (vec (m ((c.tc : Thread nD τ).loc main_arg3))) (col (m ((c.tc : Thread nD τ).loc main_arg1)))) p q := by
  refine (final1_apply (Hand.V3 m) c p q).trans ?_
  have hx : xV (Hand.V3 m) c p q = mat (m ((c.tc : Thread nD τ).loc main_arg0)) p q := by
    show (Hand.V3 m c main_arg0 : FVec Ideal S100000x32 .f32) (ix2 p q) = _
    rw [KHost.V3_main_arg0]
  have hh : hV (Hand.V3 m) c p q = Spec.hp (Hf (Hand.V1 m) c) (Wf (Hand.V1 m) c) (bf (Hand.V1 m) c) (sf (Hand.V1 m) c) p q := by
    show (Hand.V3 m c main_v11_0 : FVec Ideal S100000x32 .f32) (ix2 p q) = _
    rw [KHost.V3_main_v11_0, V2_layer]
    rfl
  have hmean : meanV (Hand.V3 m) c q = Spec.mean (Hf (Hand.V1 m) c) (Wf (Hand.V1 m) c) (bf (Hand.V1 m) c) (sf (Hand.V1 m) c) q := by
    show (Hand.V3 m c main_v20 : FVec Ideal S1x32 .f32) (ix2 (0 : Fin 1) q) = _
    rw [KHost.V3_main_v20, V2_rowS]
    rfl
  have hvar : varV (Hand.V3 m) c q = Spec.varKer (Hf (Hand.V1 m) c) (Wf (Hand.V1 m) c) (bf (Hand.V1 m) c) (sf (Hand.V1 m) c) q := by
    show (Hand.V3 m c main_v21 : FVec Ideal S1x32 .f32) (ix2 (0 : Fin 1) q) = _
    rw [KHost.V3_main_v21, V2_rowS, V2_rowQ]
    rfl
  have hg : gammaV (Hand.V3 m) c q = vec (m ((c.tc : Thread nD τ).loc main_arg4)) q := KHost.V3_main_v22 m c q
  have hb : betaV (Hand.V3 m) c q = vec (m ((c.tc : Thread nD τ).loc main_arg5)) q := KHost.V3_main_v23 m c q
  unfold out1 Spec.out Spec.epsLit
  rw [hx, hh, hmean, hvar, hg, hb, Hf_eq, Wf_eq, bf_eq, sf_eq]

end Cert.Bridge.KValue
end
-- ==== Proof.lean ====
/-
  A message-passing layer, two ways. From node features x (100000 rows of 32), per-node scales s, weights W, a bias
  b, scale and shift rows γ and β, and two index lists, both programs first aggregate: the rows of x picked by the
  source indices are added into the rows named by the destination indices, giving A. Then h = (A · W + b) ∘ s, the
  columns of h are normalised by their mean μ and variance v over the 100000 rows, and the result is
  x + max(((h - μ) · rsqrt(v + ε)) · γ + β, 0).
  The kernel program computes h in 20 blocks of 5000 rows with a first kernel that also accumulates, block after
  block, the column sums of h and of h ∘ h; the host forms μ = Σh / n and v = Σh² / n − μ²; a second kernel applies
  the last line block by block. The reference computes everything on whole arrays, with v = Σ(h − μ)² / n.
  Proved here: each of the three programs runs to the end without faulting and leaves its arguments unchanged; the
  idealized kernel program is the kernel program's own text (nothing was rewritten); and over the extended reals the
  two idealized programs end with equal results — the sums over blocks regroup into sums over rows, and the two
  variances are one real number because every input entry, hence every entry of h, is finite.
-/
import proofs.«151859_j44744969290330_1_alg».proof.Defs
import proofs.«151859_j44744969290330_1_alg».proof.Proof.Gen.Kernel
import proofs.«151859_j44744969290330_1_alg».proof.Proof.Gen.KernelIdeal
import proofs.«151859_j44744969290330_1_alg».proof.Proof.Gen.ReferenceIdeal
import proofs.«151859_j44744969290330_1_alg».proof.Proof.Gen.Pre_finite_inputs
import proofs.«151859_j44744969290330_1_alg».proof.Proof.Frames
import proofs.«151859_j44744969290330_1_alg».proof.Proof.Alg
import proofs.«151859_j44744969290330_1_alg».proof.Proof.KValue
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, Alg.algebraic_of Cert.Bridge.KValue.kernel_value⟩

end Cert.Proof

end
